-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S_ : Shape := ⟨0, ![]⟩

class Facts : Prop where
  bcast_S_S800000x3 : S_.BroadcastsInDim S800000x3 (![] : Fin 0 → Fin S800000x3.rank)
  reducesTo_S800000x3_S_d0_1 : S800000x3.ReducesTo [0, 1] S_
  h_S_ : 0 < S_.numel
  bcast_S_S800000x50 : S_.BroadcastsInDim S800000x50 (![] : Fin 0 → Fin S800000x50.rank)
  reducesTo_S800000x50_S_d0_1 : S800000x50.ReducesTo [0, 1] S_
  bcast_S_S85x224 : S_.BroadcastsInDim S85x224 (![] : Fin 0 → Fin S85x224.rank)
  reducesTo_S85x224_S_d0_1 : S85x224.ReducesTo [0, 1] S_
  bcast_S_S3x32 : S_.BroadcastsInDim S3x32 (![] : Fin 0 → Fin S3x32.rank)
  reducesTo_S3x32_S_d0_1 : S3x32.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S50x64 : S_.BroadcastsInDim S50x64 (![] : Fin 0 → Fin S50x64.rank)
  reducesTo_S50x64_S_d0_1 : S50x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg0 : IVec S50000 32) (main_arg3 : IVec S50000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg0 main_v69
  let main_c_27 : IVec S_ 32 := constantI S_ 32 85#32
  let main_v71 : IVec S50000 32 := broadcastInDim S50000 ![] bcast_S_S50000 main_c_27
  let main_v72 : IVec S50000 1 := cmpi .slt main_arg0 main_v71
  let main_v73 : IVec S50000 1 := andi main_v70 main_v72
  let main_c_28 : IVec S_ 1 := constantI S_ 1 1#1
  let main_v74 : IVec S_ 1 := (fun x v => Host.reduce IntOp.andi x v reducesTo_S50000_S_d0 h_S_) main_v73 main_c_28
  let main_v75 : IVec S_ 1 := andi main_v68 main_v74
  let main_c_29 : IVec S_ 32 := constantI S_ 32 0#32
  let main_v76 : IVec S50000 32 := broadcastInDim S50000 ![] bcast_S_S50000 main_c_29
  let main_v77 : IVec S50000 1 := cmpi .sge main_arg3 main_v76
  let main_c_30 : IVec S_ 32 := constantI S_ 32 3#32
  let main_v78 : IVec S50000 32 := broadcastInDim S50000 ![] bcast_S_S50000 main_c_30
  let main_v79 : IVec S50000 1 := cmpi .slt main_arg3 main_v78
  let main_v80 : IVec S50000 1 := andi main_v77 main_v79
  let main_c_31 : IVec S_ 1 := constantI S_ 1 1#1
  let main_v81 : IVec S_ 1 := (fun x v => Host.reduce IntOp.andi x v reducesTo_S50000_S_d0 h_S_) main_v80 main_c_31
  let main_v82 : IVec S_ 1 := andi main_v75 main_v81
  main_v82

def fn_part3 {F : FTy → Type} [FloatOps F] (main_arg0 : IVec S50000 32) (main_arg3 : IVec S50000 32) (main_arg13 : FVec F S64 .f32) (main_arg14 : FVec F S128x128 .f32) (main_arg15 : FVec F S128 .f32) (main_v48 : IVec S_ 1) (main_v49 : FVec F S50x64 .f32) (main_v50 : FVec F S50x64 .f32) : IVec S_ 1 :=
  let main_v51 : IVec S50x64 1 := cmpf .olt main_v49 main_v50
  let main_c_19 : IVec S_ 1 := constantI S_ 1 1#1
  let main_v52 : IVec S_ 1 := (fun x v => Host.reduce IntOp.andi x v reducesTo_S50x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg3 main_v63 main_v67

def fn_part2 {F : FTy → Type} [FloatOps F] (main_arg0 : IVec S50000 32) (main_arg3 : IVec S50000 32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S50x64 .f32 := Host.absf main_arg12
  let main_cst_18 : FVec F S_ .f32 := constant S_ .f32 0x7F800000#32
  let main_v50 : FVec F S50x64 .f32 := broadcastInDim S50x64 ![] bcast_S_S50x64 main_cst_18
  fn_part3 (F := F) main_arg0 main_arg3 main_arg13 main_arg14 main_arg15 main_v48 main_v49 main_v50

def fn_part1 {F : FTy → Type} [FloatOps F] (main_arg0 : IVec S50000 32) (main_arg3 : IVec S50000 32) (main_arg6 : FVec F S256x256 .f32) (main_arg7 : FVec F S256 .f32) (main_arg8 : FVec F S256x256 .f32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg0 main_arg3 main_arg9 main_arg10 main_arg11 main_arg12 main_arg13 main_arg14 main_arg15 main_v33

def fn {F : FTy → Type} [FloatOps F] (main_arg0 : IVec S50000 32) (main_arg1 : FVec F S800000x3 .f32) (main_arg2 : FVec F S800000x50 .f32) (main_arg3 : IVec S50000 32) (main_arg4 : FVec F S85x224 .f32) (main_arg5 : FVec F S3x32 .f32) (main_arg6 : FVec F S256x256 .f32) (main_arg7 : FVec F S256 .f32) (main_arg8 : FVec F S256x256 .f32) (main_arg9 : FVec F S256 .f32) (main_arg10 : FVec F S3x64 .f32) (main_arg11 : FVec F S64 .f32) (main_arg12 : FVec F S50x64 .f32) (main_arg13 : FVec F S64 .f32) (main_arg14 : FVec F S128x128 .f32) (main_arg15 : FVec F S128 .f32) : IVec S_ 1 :=
  let main_v0 : FVec F S800000x3 .f32 := Host.absf main_arg1
  let main_cst : FVec F S_ .f32 := constant S_ .f32 0x7F800000#32
  let main_v1 : FVec F S800000x3 .f32 := broadcastInDim S800000x3 ![] bcast_S_S800000x3 main_cst
  let main_v2 : IVec S800000x3 1 := cmpf .olt main_v0 main_v1
  let main_c : IVec S_ 1 := constantI S_ 1 1#1
  let main_v3 : IVec S_ 1 := (fun x v => Host.reduce IntOp.andi x v reducesTo_S800000x3_S_d0_1 h_S_) main_v2 main_c
  let main_v4 : FVec F S800000x50 .f32 := Host.absf main_arg2
  let main_cst_0 : FVec F S_ .f32 := constant S_ .f32 0x7F800000#32
  let main_v5 : FVec F S800000x50 .f32 := broadcastInDim S800000x50 ![] bcast_S_S800000x50 main_cst_0
  let main_v6 : IVec S800000x50 1 := cmpf .olt main_v4 main_v5
  let main_c_1 : IVec S_ 1 := constantI S_ 1 1#1
  let main_v7 : IVec S_ 1 := (fun x v => Host.reduce IntOp.andi x v reducesTo_S800000x50_S_d0_1 h_S_) main_v6 main_c_1
  let main_v8 : IVec S_ 1 := andi main_v3 main_v7
  let main_v9 : FVec F S85x224 .f32 := Host.absf main_arg4
  let main_cst_2 : FVec F S_ .f32 := constant S_ .f32 0x7F800000#32
  let main_v10 : FVec F S85x224 .f32 := broadcastInDim S85x224 ![] bcast_S_S85x224 main_cst_2
  let main_v11 : IVec S85x224 1 := cmpf .olt main_v9 main_v10
  let main_c_3 : IVec S_ 1 := constantI S_ 1 1#1
  let main_v12 : IVec S_ 1 := (fun x v => Host.reduce IntOp.andi x v reducesTo_S85x224_S_d0_1 h_S_) main_v11 main_c_3
  let main_v13 : IVec S_ 1 := andi main_v8 main_v12
  let main_v14 : FVec F S3x32 .f32 := Host.absf main_arg5
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_arg0 main_arg3 main_arg6 main_arg7 main_arg8 main_arg9 main_arg10 main_arg11 main_arg12 main_arg13 main_arg14 main_arg15 main_v13 main_v16
-- ==== Kernel.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S_ : Shape := ⟨0, ![]⟩
abbrev S88x256 : Shape := ⟨2, ![88, 256]⟩
abbrev S1 : Shape := ⟨1, ![1]⟩
abbrev S2 : Shape := ⟨1, ![2]⟩
abbrev S50000x1 : Shape := ⟨2, ![50000, 1]⟩
abbrev S1x64 : Shape := ⟨2, ![1, 64]⟩
abbrev S1x128 : Shape := ⟨2, ![1, 128]⟩
abbrev S1x256 : Shape := ⟨2, ![1, 256]⟩
abbrev S50000x256 : Shape := ⟨2, ![50000, 256]⟩
abbrev S800000x128 : Shape := ⟨2, ![800000, 128]⟩
abbrev S8000x3 : Shape := ⟨2, ![8000, 3]⟩
abbrev S8000x50 : Shape := ⟨2, ![8000, 50]⟩
abbrev S512x1 : Shape := ⟨2, ![512, 1]⟩
abbrev S512x256 : Shape := ⟨2, ![512, 256]⟩
abbrev S8000x128 : Shape := ⟨2, ![8000, 128]⟩
abbrev S8000x64 : Shape := ⟨2, ![8000, 64]⟩
abbrev S64x128 : Shape := ⟨2, ![64, 128]⟩
abbrev S512x88 : Shape := ⟨2, ![512, 88]⟩

abbrev nBuf : Space → Nat
  | .hbm => 39
  | .vmem => 23
  | .smem => 0
  | _ => 0

abbrev bufTy : (tb : Table) → Fin (tcTables nBuf tb) → BufTy
  | .hbm, ⟨0, _⟩ => ⟨S50000, .i32⟩
  | .hbm, ⟨1, _⟩ => ⟨S800000x3, .f32⟩
  | .hbm, ⟨2, _⟩ => ⟨S800000x50, .f32⟩
  | .hbm, ⟨3, _⟩ => ⟨S50000, .i32⟩
  | .hbm, ⟨4, _⟩ => ⟨S85x224, .f32⟩
  | .hbm, ⟨5, _⟩ => ⟨S3x32, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x64, .f32⟩
  | .hbm, ⟨11, _⟩ => ⟨S64, .f32⟩
  | .hbm, ⟨12, _⟩ => ⟨S50x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S_, .f32⟩
  | .hbm, ⟨17, _⟩ => ⟨S88x256, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S88x256, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S88x256, .f32⟩
  | .hbm, ⟨30, _⟩ => ⟨S50000x1, .i32⟩
  | .hbm, ⟨31, _⟩ => ⟨S50000x1, .i32⟩
  | .hbm, ⟨32, _⟩ => ⟨S1x64, .f32⟩
  | .hbm, ⟨33, _⟩ => ⟨S1x64, .f32⟩
  | .hbm, ⟨34, _⟩ => ⟨S1x128, .f32⟩
  | .hbm, ⟨35, _⟩ => ⟨S1x256, .f32⟩
  | .hbm, ⟨36, _⟩ => ⟨S1x256, .f32⟩
  | .hbm, ⟨37, _⟩ => ⟨S50000x256, .f32⟩
  | .hbm, ⟨38, _⟩ => ⟨S800000x128, .f32⟩
  | .local _ .vmem, ⟨0, _⟩ => ⟨S8000x3, .f32⟩
  | .local _ .vmem, ⟨1, _⟩ => ⟨S8000x3, .f32⟩
  | .local _ .vmem, ⟨2, _⟩ => ⟨S8000x50, .f32⟩
  | .local _ .vmem, ⟨3, _⟩ => ⟨S8000x50, .f32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S88x256, .f32⟩
  | .local _ .vmem, ⟨9, _⟩ => ⟨S3x64, .f32⟩
  | .local _ .vmem, ⟨10, _⟩ => ⟨S1x64, .f32⟩
  | .local _ .vmem, ⟨11, _⟩ => ⟨S50x64, .f32⟩
  | .local _ .vmem, ⟨12, _⟩ => ⟨S1x64, .f32⟩
  | .local _ .vmem, ⟨13, _⟩ => ⟨S128x128, .f32⟩
  | .local _ .vmem, ⟨14, _⟩ => ⟨S1x128, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S512x256, .f32⟩
  | .local _ .vmem, ⟨20, _⟩ => ⟨S512x256, .f32⟩
  | .local _ .vmem, ⟨21, _⟩ => ⟨S8000x128, .f32⟩
  | .local _ .vmem, ⟨22, _⟩ => ⟨S8000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_c_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c98_i32 : BitVec 32 := 98#32
  let v48 : BitVec 1 := Scalar.cmpi .slt arg0 c98_i32
  let v49 : BitVec 32 := Scalar.extui v48
  let c0_i32 : BitVec 32 := 0#32
  let v50 : BitVec 1 := Scalar.cmpi .ne v49 c0_i32
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S88x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S88x256 : S_.BroadcastsInDim S88x256 (![] : Fin 0 → Fin S88x256.rank)
  bcast_S_S1 : S_.BroadcastsInDim S1 (![] : Fin 0 → Fin S1.rank)
  concatenates_S1_S1_S2_d0 : Shape.Concatenates [S1, S1] S2 0
  shapeCasts_S50000_S50000x1 : S50000.ShapeCasts S50000x1
  shapeCasts_S64_S1x64 : S64.ShapeCasts S1x64
  shapeCasts_S128_S1x128 : S128.ShapeCasts S1x128
  shapeCasts_S256_S1x256 : S256.ShapeCasts S1x256
  inb_S8000x3_S8000x3_0_0 : ∀ a, (![0, 0] : Fin 2 → Nat) a + S8000x3.size a ≤ S8000x3.size a
  h_S8000x3 : 0 < S8000x3.numel
  inb_S8000x50_S8000x50_0_0 : ∀ a, (![0, 0] : Fin 2 → Nat) a + S8000x50.size a ≤ S8000x50.size a
  h_S8000x50 : 0 < S8000x50.numel
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S50x64_S50x64_0_0 : ∀ a, (![0, 0] : Fin 2 → Nat) a + S50x64.size a ≤ S50x64.size a
  h_S50x64 : 0 < S50x64.numel
  inb_S128x128_S64x128_0_0 : ∀ a, (![0, 0] : Fin 2 → Nat) a + S64x128.size a ≤ S128x128.size a
  h_S64x128 : 0 < S64x128.numel
  inb_S128x128_S64x128_64_0 : ∀ a, (![64, 0] : Fin 2 → Nat) a + S64x128.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x88_d1_w32 : S512x88.Iotas .tc 32 [1]
  broadcasts_S512x1_S512x88 : S512x1.Broadcasts S512x88
  natLt_1_32 : 1 < 32
  inb_S88x256_S88x256_0_0 : ∀ a, (![0, 0] : Fin 2 → Nat) a + S88x256.size a ≤ S88x256.size a
  h_S88x256 : 0 < S88x256.numel
  shapeCasts_S88x256_S88x256 : S88x256.ShapeCasts S88x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  scatter_S88x256_S2_S85x224_01_n_01_0_wf : ScatterDims.WF S88x256 S2 S85x224 [0, 1] [] [0, 1] 0
  scatter_S88x256_S2_S3x32_01_n_01_0_wf : ScatterDims.WF S88x256 S2 S3x32 [0, 1] [] [0, 1] 0
  dot_S8000x3_S3x64_S8000x64_1_0_0_1_n_n_wf : DotDims.WF S8000x3 S3x64 S8000x64 [1] [0] [0] [1] [] []
  dot_S8000x50_S50x64_S8000x64_1_0_0_1_n_n_wf : DotDims.WF S8000x50 S50x64 S8000x64 [1] [0] [0] [1] [] []
  dot_S8000x64_S64x128_S8000x128_1_0_0_1_n_n_wf : DotDims.WF S8000x64 S64x128 S8000x128 [1] [0] [0] [1] [] []
  dot_S512x88_S88x256_S512x256_1_0_0_1_n_n_wf : DotDims.WF S512x88 S88x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S800000x3.size a
  hwx0_0 : ∀ i : grid0.Coords, EltTy.bits .f32 = 32 ∨ (Rect.block (s := S800000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x50.size a ≤ S800000x50.size a
  hwx0_1 : ∀ i : grid0.Coords, EltTy.bits .f32 = 32 ∨ (Rect.block (s := S800000x50) S8000x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x1.size a < S50000x1.size a
  hwx0_2 : ∀ i : grid0.Coords, EltTy.bits .i32 = 32 ∨ (Rect.unit (s := S50000x1) (fun a => cc0_transform_2 i a * S512x1.size a) (fun a => (Pipeline.Clip.of (cc0_transform_2 i a) (S512x1.size a) (S50000x1.size a)).extent (S512x1.size a)) fun a => Pipeline.Clip.inb (Pipeline.Clip.ok_of (hstart0_2 i a))).WholeWords (EltTy.packing .i32)
  hwxs0_2 : ∀ i : grid0.Coords, EltTy.bits .i32 = 32 ∨ (Rect.unit (s := S512x1) (fun _ => 0) (fun a => (Pipeline.Clip.of (cc0_transform_2 i a) (S512x1.size a) (S50000x1.size a)).extent (S512x1.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1.size a < S50000x1.size a
  hwx0_3 : ∀ i : grid0.Coords, EltTy.bits .i32 = 32 ∨ (Rect.unit (s := S50000x1) (fun a => cc0_transform_3 i a * S512x1.size a) (fun a => (Pipeline.Clip.of (cc0_transform_3 i a) (S512x1.size a) (S50000x1.size a)).extent (S512x1.size a)) fun a => Pipeline.Clip.inb (Pipeline.Clip.ok_of (hstart0_3 i a))).WholeWords (EltTy.packing .i32)
  hwxs0_3 : ∀ i : grid0.Coords, EltTy.bits .i32 = 32 ∨ (Rect.unit (s := S512x1) (fun _ => 0) (fun a => (Pipeline.Clip.of (cc0_transform_3 i a) (S512x1.size a) (S50000x1.size a)).extent (S512x1.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S88x256.size a ≤ S88x256.size a
  hwx0_4 : ∀ i : grid0.Coords, EltTy.bits .f32 = 32 ∨ (Rect.block (s := S88x256) S88x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x64.size a ≤ S50x64.size a
  hwx0_7 : ∀ i : grid0.Coords, EltTy.bits .f32 = 32 ∨ (Rect.block (s := S50x64) S50x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S512x256.size a < S50000x256.size a
  hwx0_15 : ∀ i : grid0.Coords, EltTy.bits .f32 = 32 ∨ (Rect.unit (s := S50000x256) (fun a => cc0_transform_15 i a * S512x256.size a) (fun a => (Pipeline.Clip.of (cc0_transform_15 i a) (S512x256.size a) (S50000x256.size a)).extent (S512x256.size a)) fun a => Pipeline.Clip.inb (Pipeline.Clip.ok_of (hstart0_15 i a))).WholeWords (EltTy.packing .f32)
  hwxs0_15 : ∀ i : grid0.Coords, EltTy.bits .f32 = 32 ∨ (Rect.unit (s := S512x256) (fun _ => 0) (fun a => (Pipeline.Clip.of (cc0_transform_15 i a) (S512x256.size a) (S50000x256.size a)).extent (S512x256.size a)) fun a => (Nat.zero_add _).trans_le (Pipeline.Clip.extent_le (Pipeline.Clip.ok_of (hstart0_15 i a)))).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8000x128.size a ≤ S800000x128.size a
  hwx0_16 : ∀ i : grid0.Coords, EltTy.bits .f32 = 32 ∨ (Rect.block (s := S800000x128) S8000x128.size (cc0_transform_16 i) (hinb0_16 i)).WholeWords (EltTy.packing .f32)

variable [Facts₀]

def scatter_S88x256_S2_S85x224_01_n_01_0 : ScatterDims S88x256 S2 S85x224 where
  updateWindowDims := [0, 1]
  insertedWindowDims := []
  scatterDimsToOperandDims := [0, 1]
  indexVectorDim := 0
  wf := scatter_S88x256_S2_S85x224_01_n_01_0_wf
def scatter_S88x256_S2_S3x32_01_n_01_0 : ScatterDims S88x256 S2 S3x32 where
  updateWindowDims := [0, 1]
  insertedWindowDims := []
  scatterDimsToOperandDims := [0, 1]
  indexVectorDim := 0
  wf := scatter_S88x256_S2_S3x32_01_n_01_0_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def dot_S8000x50_S50x64_S8000x64_1_0_0_1_n_n : DotDims S8000x50 S50x64 S8000x64 where
  lhsContracting := [1]
  rhsContracting := [0]
  lhsNonContracting := [0]
  rhsNonContracting := [1]
  lhsBatch := []
  rhsBatch := []
  wf := dot_S8000x50_S50x64_S8000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S512x88_S88x256_S512x256_1_0_0_1_n_n : DotDims S512x88 S88x256 S512x256 where
  lhsContracting := [1]
  rhsContracting := [0]
  lhsNonContracting := [0]
  rhsNonContracting := [1]
  lhsBatch := []
  rhsBatch := []
  wf := dot_S512x88_S88x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v9) S512x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v10) S512x1.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v8) S88x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S50x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpecClip (Memref.whole main_v16_0) S512x256.size cc0_transform_15 reads0_15 true false 2 stage0_15 sem0_15
    hrank0 hreads0_15 hstart0_15 nbuf0_15 (Memref.isWhole_whole _) hwx0_15 hwxs0_15 hstage0_15

abbrev win0_16 : Pipeline.Window sig grid0 :=
  Pipeline.Window.ofSpec (Memref.whole main_v16_1) S8000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond1 i == 1#1) | 16 => fun _ => false | ⟨_ + 17, h⟩ => absurd h (Nat.not_lt.2 (Nat.le_add_left _ _))

class Facts : Prop extends Facts₀ where

variable [Facts]
-- ==== ReferenceIdeal.lean ====
abbrev S50000 : Shape := ⟨1, ![50000]⟩
abbrev S800000x3 : Shape := ⟨2, ![800000, 3]⟩
abbrev S800000x50 : Shape := ⟨2, ![800000, 50]⟩
abbrev S85x224 : Shape := ⟨2, ![85, 224]⟩
abbrev S3x32 : Shape := ⟨2, ![3, 32]⟩
abbrev S256x256 : Shape := ⟨2, ![256, 256]⟩
abbrev S256 : Shape := ⟨1, ![256]⟩
abbrev S3x64 : Shape := ⟨2, ![3, 64]⟩
abbrev S64 : Shape := ⟨1, ![64]⟩
abbrev S50x64 : Shape := ⟨2, ![50, 64]⟩
abbrev S128x128 : Shape := ⟨2, ![128, 128]⟩
abbrev S128 : Shape := ⟨1, ![128]⟩
abbrev S800000x64 : Shape := ⟨2, ![800000, 64]⟩
abbrev S1x64 : Shape := ⟨2, ![1, 64]⟩
abbrev S800000x128 : Shape := ⟨2, ![800000, 128]⟩
abbrev S_ : Shape := ⟨0, ![]⟩
abbrev S1x128 : Shape := ⟨2, ![1, 128]⟩
abbrev S50000x1 : Shape := ⟨2, ![50000, 1]⟩
abbrev S1 : Shape := ⟨1, ![1]⟩
abbrev S1x1 : Shape := ⟨2, ![1, 1]⟩
abbrev S50000x224 : Shape := ⟨2, ![50000, 224]⟩
abbrev S50000x32 : Shape := ⟨2, ![50000, 32]⟩
abbrev S50000x256 : Shape := ⟨2, ![50000, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000x3, .f32⟩
  | .hbm, ⟨2, _⟩ => ⟨S800000x50, .f32⟩
  | .hbm, ⟨3, _⟩ => ⟨S50000, .i32⟩
  | .hbm, ⟨4, _⟩ => ⟨S85x224, .f32⟩
  | .hbm, ⟨5, _⟩ => ⟨S3x32, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x64, .f32⟩
  | .hbm, ⟨11, _⟩ => ⟨S64, .f32⟩
  | .hbm, ⟨12, _⟩ => ⟨S50x64, .f32⟩
  | .hbm, ⟨13, _⟩ => ⟨S64, .f32⟩
  | .hbm, ⟨14, _⟩ => ⟨S128x128, .f32⟩
  | .hbm, ⟨15, _⟩ => ⟨S128, .f32⟩
  | .hbm, ⟨16, _⟩ => ⟨S800000x64, .f32⟩
  | .hbm, ⟨17, _⟩ => ⟨S1x64, .f32⟩
  | .hbm, ⟨18, _⟩ => ⟨S800000x64, .f32⟩
  | .hbm, ⟨19, _⟩ => ⟨S800000x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S1, .i32⟩
  | .hbm, ⟨56, _⟩ => ⟨S_, .i32⟩
  | .hbm, ⟨57, _⟩ => ⟨S50000x1, .i32⟩
  | .hbm, ⟨58, _⟩ => ⟨S50000x1, .i1⟩
  | .hbm, ⟨59, _⟩ => ⟨S1x1, .i32⟩
  | .hbm, ⟨60, _⟩ => ⟨S50000x1, .i32⟩
  | .hbm, ⟨61, _⟩ => ⟨S50000x1, .i1⟩
  | .hbm, ⟨62, _⟩ => ⟨S50000x1, .i1⟩
  | .hbm, ⟨63, _⟩ => ⟨S_, .i1⟩
  | .hbm, ⟨64, _⟩ => ⟨S50000, .i1⟩
  | .hbm, ⟨65, _⟩ => ⟨S50000x224, .f32⟩
  | .hbm, ⟨66, _⟩ => ⟨S50000x224, .i1⟩
  | .hbm, ⟨67, _⟩ => ⟨S_, .f32⟩
  | .hbm, ⟨68, _⟩ => ⟨S50000x224, .f32⟩
  | .hbm, ⟨69, _⟩ => ⟨S50000x224, .f32⟩
  | .hbm, ⟨70, _⟩ => ⟨S_, .i32⟩
  | .hbm, ⟨71, _⟩ => ⟨S50000, .i32⟩
  | .hbm, ⟨72, _⟩ => ⟨S50000, .i1⟩
  | .hbm, ⟨73, _⟩ => ⟨S_, .i32⟩
  | .hbm, ⟨74, _⟩ => ⟨S50000, .i32⟩
  | .hbm, ⟨75, _⟩ => ⟨S50000, .i32⟩
  | .hbm, ⟨76, _⟩ => ⟨S50000, .i32⟩
  | .hbm, ⟨77, _⟩ => ⟨S50000x1, .i32⟩
  | .hbm, ⟨78, _⟩ => ⟨S1, .i32⟩
  | .hbm, ⟨79, _⟩ => ⟨S_, .i32⟩
  | .hbm, ⟨80, _⟩ => ⟨S50000x1, .i32⟩
  | .hbm, ⟨81, _⟩ => ⟨S50000x1, .i1⟩
  | .hbm, ⟨82, _⟩ => ⟨S1x1, .i32⟩
  | .hbm, ⟨83, _⟩ => ⟨S50000x1, .i32⟩
  | .hbm, ⟨84, _⟩ => ⟨S50000x1, .i1⟩
  | .hbm, ⟨85, _⟩ => ⟨S50000x1, .i1⟩
  | .hbm, ⟨86, _⟩ => ⟨S_, .i1⟩
  | .hbm, ⟨87, _⟩ => ⟨S50000, .i1⟩
  | .hbm, ⟨88, _⟩ => ⟨S50000x32, .f32⟩
  | .hbm, ⟨89, _⟩ => ⟨S50000x32, .i1⟩
  | .hbm, ⟨90, _⟩ => ⟨S_, .f32⟩
  | .hbm, ⟨91, _⟩ => ⟨S50000x32, .f32⟩
  | .hbm, ⟨92, _⟩ => ⟨S50000x32, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S_, .f32⟩
  | .hbm, ⟨101, _⟩ => ⟨S50000x256, .f32⟩
  | .hbm, ⟨102, _⟩ => ⟨S50000x256, .f32⟩
  | .hbm, ⟨103, _⟩ => ⟨S_, .f32⟩
  | .hbm, ⟨104, _⟩ => ⟨S50000x256, .f32⟩
  | .hbm, ⟨105, _⟩ => ⟨S50000x256, .f32⟩
  | .hbm, ⟨106, _⟩ => ⟨S50000x256, .f32⟩
  | .hbm, ⟨107, _⟩ => ⟨S50000x256, .f32⟩
  | .hbm, ⟨108, _⟩ => ⟨S1x256, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S50000x256, .f32⟩
  | .hbm, ⟨113, _⟩ => ⟨S_, .f32⟩
  | .hbm, ⟨114, _⟩ => ⟨S50000x256, .f32⟩
  | .hbm, ⟨115, _⟩ => ⟨S50000x256, .f32⟩
  | .hbm, ⟨116, _⟩ => ⟨S_, .f32⟩
  | .hbm, ⟨117, _⟩ => ⟨S50000x256, .f32⟩
  | .hbm, ⟨118, _⟩ => ⟨S50000x256, .f32⟩
  | .hbm, ⟨119, _⟩ => ⟨S50000x256, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v14 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v15 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v27 : Ref sig .tc := ⟨.hbm, 119, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  concatenates_S800000x64_S800000x64_S800000x128_d1 : Shape.Concatenates [S800000x64, S800000x64] S800000x128 1
  bcast_S_S800000x128 : S_.BroadcastsInDim S800000x128 (![] : Fin 0 → Fin S800000x128.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x224_0 : S50000.BroadcastsInDim S50000x224 (![0] : Fin 1 → Fin S50000x224.rank)
  bcast_S_S50000x224 : S_.BroadcastsInDim S50000x224 (![] : Fin 0 → Fin S50000x224.rank)
  bcast_S50000_S50000x32_0 : S50000.BroadcastsInDim S50000x32 (![0] : Fin 1 → Fin S50000x32.rank)
  bcast_S_S50000x32 : S_.BroadcastsInDim S50000x32 (![] : Fin 0 → Fin S50000x32.rank)
  concatenates_S50000x224_S50000x32_S50000x256_d1 : Shape.Concatenates [S50000x224, S50000x32] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S800000x3_S3x64_S800000x64_1_0_0_1_n_n_wf : DotDims.WF S800000x3 S3x64 S800000x64 [1] [0] [0] [1] [] []
  dot_S800000x50_S50x64_S800000x64_1_0_0_1_n_n_wf : DotDims.WF S800000x50 S50x64 S800000x64 [1] [0] [0] [1] [] []
  dot_S800000x128_S128x128_S800000x128_1_0_0_1_n_n_wf : DotDims.WF S800000x128 S128x128 S800000x128 [1] [0] [0] [1] [] []
  gather_S85x224_S50000x1_S50000x224_1_0_n_n_0_1_1224_wf : GatherDims.WF S85x224 S50000x1 S50000x224 [1] [0] [] [0] [] 1 ![1, 224]
  gather_S3x32_S50000x1_S50000x32_1_0_n_n_0_1_132_wf : GatherDims.WF S3x32 S50000x1 S50000x32 [1] [0] [] [0] [] 1 ![1, 32]
  dot_S50000x256_S256x256_S50000x256_1_0_0_1_n_n_wf : DotDims.WF S50000x256 S256x256 S50000x256 [1] [0] [0] [1] [] []

variable [Facts₀]

def dot_S800000x3_S3x64_S800000x64_1_0_0_1_n_n : DotDims S800000x3 S3x64 S800000x64 where
  lhsContracting := [1]
  rhsContracting := [0]
  lhsNonContracting := [0]
  rhsNonContracting := [1]
  lhsBatch := []
  rhsBatch := []
  wf := dot_S800000x3_S3x64_S800000x64_1_0_0_1_n_n_wf
def dot_S800000x50_S50x64_S800000x64_1_0_0_1_n_n : DotDims S800000x50 S50x64 S800000x64 where
  lhsContracting := [1]
  rhsContracting := [0]
  lhsNonContracting := [0]
  rhsNonContracting := [1]
  lhsBatch := []
  rhsBatch := []
  wf := dot_S800000x50_S50x64_S800000x64_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S85x224_S50000x1_S50000x224_1_0_n_n_0_1_1224 : GatherDims S85x224 S50000x1 S50000x224 where
  offsetDims := [1]
  collapsedSliceDims := [0]
  operandBatchingDims := []
  startIndicesBatchingDims := []
  startIndexMap := [0]
  indexVectorDim := 1
  sliceSizes := ![1, 224]
  wf := gather_S85x224_S50000x1_S50000x224_1_0_n_n_0_1_1224_wf
def gather_S3x32_S50000x1_S50000x32_1_0_n_n_0_1_132 : GatherDims S3x32 S50000x1 S50000x32 where
  offsetDims := [1]
  collapsedSliceDims := [0]
  operandBatchingDims := []
  startIndicesBatchingDims := []
  startIndexMap := [0]
  indexVectorDim := 1
  sliceSizes := ![1, 32]
  wf := gather_S3x32_S50000x1_S50000x32_1_0_n_n_0_1_132_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RunAtomBits.lean ====
/-
  The kernel body at one grid point, case "atom block computed": it runs to its end on whole staging buffers
  and leaves the input buffers as it found them. Stated for any float instance.
-/
import proofs.«123452_g13383118094390_cont_week2b_154_27_alg».proof.Proof.Gen.Kernel.Launch
import proofs.«123452_g13383118094390_cont_week2b_154_27_alg».proof.Proof.Gen.Kernel.Skeleton
import proofs.«123452_g13383118094390_cont_week2b_154_27_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A grid point at which the atom block is computed (the point's coordinate is below 98). On whole staging
    buffers holding any contents, the body runs to its end; the fifteen input buffers are left as found, the atom
    output buffer and the edge output buffer end with the body's stores written over what they held. The stores
    themselves (rectangle and value, last first) are read off the run. -/
noncomputable def runA (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1)
    (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) :
    Σ' (L16 : List (View.Piece (Elt F) S512x256 .f32)) (L17 : List (View.Piece (Elt F) S8000x128 .f32)),
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  refine ⟨?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    iexists _; iexact H17

end Cert.Kernel.Body

end
-- ==== Proof.RunSkipBits.lean ====
/-
  The kernel body at one grid point, case "atom block skipped": it runs to its end on whole staging buffers
  and leaves the input buffers as it found them. Stated for any float instance.
-/
import proofs.«123452_g13383118094390_cont_week2b_154_27_alg».proof.Proof.Gen.Kernel.Launch
import proofs.«123452_g13383118094390_cont_week2b_154_27_alg».proof.Proof.Gen.Kernel.Skeleton
import proofs.«123452_g13383118094390_cont_week2b_154_27_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A grid point at which the atom block is skipped (the point's coordinate is 98 or 99). The body runs to its
    end; the fifteen input buffers and the atom output buffer are left as found, the edge output buffer ends with
    the body's store written over what it held. -/
noncomputable def runB (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : ¬ k0_cond1 i = 1#1)
    (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (x16 : Vec F S512x256 .f32) :
    Σ' (L17 : List (View.Piece (Elt F) S8000x128 .f32)),
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  refine ⟨?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    iexists _; iexact H17

end Cert.Kernel.Body

end
-- ==== Proof.FrameBits.lean ====
/-
  The frame of the program: it runs to its end, nothing faults, and every argument array ends as it began.
  The pipeline's proof data is relational: at every grid point the body leaves each input staging buffer as it found it,
  and nothing is said of what it leaves in the two output buffers. That is all the frame needs: an input array is never
  written, and an array no window stages is untouched. The two control cases of the body (atom block computed at points
  0..97, skipped at 98 and 99) are the two runs of the body; a point is in one or the other.
-/
import proofs.«123452_g13383118094390_cont_week2b_154_27_alg».proof.Proof.RunAtomBits
import proofs.«123452_g13383118094390_cont_week2b_154_27_alg».proof.Proof.RunSkipBits
import proofs.«123452_g13383118094390_cont_week2b_154_27_alg».proof.Proof.Gen.Kernel.Frame
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data on core `c`: the arrays as the region finds them; an input window's buffer is left
    holding what it held; an output window's buffer is left holding anything. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

set_option maxHeartbeats 4000000 in
/-- The body at any grid point, whatever the seventeen staging buffers hold: the point is in one of the two control
    cases, and that case's run applies. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7)
      ∗ owns (c : Thread nD τ) (st0_8 t) fullShare (Y 8)
      ∗ owns (c : Thread nD τ) (st0_9 t) fullShare (Y 9)
      ∗ owns (c : Thread nD τ) (st0_10 t) fullShare (Y 10)
      ∗ owns (c : Thread nD τ) (st0_11 t) fullShare (Y 11)
      ∗ owns (c : Thread nD τ) (st0_12 t) fullShare (Y 12)
      ∗ owns (c : Thread nD τ) (st0_13 t) fullShare (Y 13)
      ∗ owns (c : Thread nD τ) (st0_14 t) fullShare (Y 14)
      ∗ owns (c : Thread nD τ) (st0_15 t) fullShare (Y 15)
      ∗ owns (c : Thread nD τ) (st0_16 t) fullShare (Y 16))
    ⊢ wp frame (wpE (defs₀ (F := F)) Variants.none c none) Set.univ (bodyAt0 t) (fun _ => iprop((rdat m c).Φ t.succ ∗ (rdat m c).owesAt () t.succ
      ∗ (∃ X, ⌜(rdat m c).after 0 t (Y 0) X⌝ ∗ owns (c : Thread nD τ) (st0_0 t) fullShare X)
      ∗ (∃ X, ⌜(rdat m c).after 1 t (Y 1) X⌝ ∗ owns (c : Thread nD τ) (st0_1 t) fullShare X)
      ∗ (∃ X, ⌜(rdat m c).after 2 t (Y 2) X⌝ ∗ owns (c : Thread nD τ) (st0_2 t) fullShare X)
      ∗ (∃ X, ⌜(rdat m c).after 3 t (Y 3) X⌝ ∗ owns (c : Thread nD τ) (st0_3 t) fullShare X)
      ∗ (∃ X, ⌜(rdat m c).after 4 t (Y 4) X⌝ ∗ owns (c : Thread nD τ) (st0_4 t) fullShare X)
      ∗ (∃ X, ⌜(rdat m c).after 5 t (Y 5) X⌝ ∗ owns (c : Thread nD τ) (st0_5 t) fullShare X)
      ∗ (∃ X, ⌜(rdat m c).after 6 t (Y 6) X⌝ ∗ owns (c : Thread nD τ) (st0_6 t) fullShare X)
      ∗ (∃ X, ⌜(rdat m c).after 7 t (Y 7) X⌝ ∗ owns (c : Thread nD τ) (st0_7 t) fullShare X)
      ∗ (∃ X, ⌜(rdat m c).after 8 t (Y 8) X⌝ ∗ owns (c : Thread nD τ) (st0_8 t) fullShare X)
      ∗ (∃ X, ⌜(rdat m c).after 9 t (Y 9) X⌝ ∗ owns (c : Thread nD τ) (st0_9 t) fullShare X)
      ∗ (∃ X, ⌜(rdat m c).after 10 t (Y 10) X⌝ ∗ owns (c : Thread nD τ) (st0_10 t) fullShare X)
      ∗ (∃ X, ⌜(rdat m c).after 11 t (Y 11) X⌝ ∗ owns (c : Thread nD τ) (st0_11 t) fullShare X)
      ∗ (∃ X, ⌜(rdat m c).after 12 t (Y 12) X⌝ ∗ owns (c : Thread nD τ) (st0_12 t) fullShare X)
      ∗ (∃ X, ⌜(rdat m c).after 13 t (Y 13) X⌝ ∗ owns (c : Thread nD τ) (st0_13 t) fullShare X)
      ∗ (∃ X, ⌜(rdat m c).after 14 t (Y 14) X⌝ ∗ owns (c : Thread nD τ) (st0_14 t) fullShare X)
      ∗ (∃ X, ⌜(rdat m c).after 15 t (Y 15) X⌝ ∗ owns (c : Thread nD τ) (st0_15 t) fullShare X)
      ∗ (∃ X, ⌜(rdat m c).after 16 t (Y 16) X⌝ ∗ owns (c : Thread nD τ) (st0_16 t) fullShare X))) := by
  rw [show (rdat m c).Φ t.succ = (rdat m c).Φ t.castSucc from rfl,
    show (rdat m c).owesAt () t.succ = (rdat m c).owesAt () t.castSucc from rfl]
  unfold bodyAt0
  by_cases hc : k0_cond1 (grid0.coords t) = 1#1
  · iintro ⟨HΦ, Ho, H0, H1, H2, H3, H4, H5, H6, H7, H8, H9, H10, H11, H12, H13, H14, H15, H16⟩
    iapply ((runA c (grid0.coords t) _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]
    · iexists _; isplitr; · ipureintro; exact fun _ => rfl
      iexact H0
    isplitl [H1]
    · iexists _; isplitr; · ipureintro; exact fun _ => rfl
      iexact H1
    isplitl [H2]
    · iexists _; isplitr; · ipureintro; exact fun _ => rfl
      iexact H2
    isplitl [H3]
    · iexists _; isplitr; · ipureintro; exact fun _ => rfl
      iexact H3
    isplitl [H4]
    · iexists _; isplitr; · ipureintro; exact fun _ => rfl
      iexact H4
    isplitl [H5]
    · iexists _; isplitr; · ipureintro; exact fun _ => rfl
      iexact H5
    isplitl [H6]
    · iexists _; isplitr; · ipureintro; exact fun _ => rfl
      iexact H6
    isplitl [H7]
    · iexists _; isplitr; · ipureintro; exact fun _ => rfl
      iexact H7
    isplitl [H8]
    · iexists _; isplitr; · ipureintro; exact fun _ => rfl
      iexact H8
    isplitl [H9]
    · iexists _; isplitr; · ipureintro; exact fun _ => rfl
      iexact H9
    isplitl [H10]
    · iexists _; isplitr; · ipureintro; exact fun _ => rfl
      iexact H10
    isplitl [H11]
    · iexists _; isplitr; · ipureintro; exact fun _ => rfl
      iexact H11
    isplitl [H12]
    · iexists _; isplitr; · ipureintro; exact fun _ => rfl
      iexact H12
    isplitl [H13]
    · iexists _; isplitr; · ipureintro; exact fun _ => rfl
      iexact H13
    isplitl [H14]
    · iexists _; isplitr; · ipureintro; exact fun _ => rfl
      iexact H14
    isplitl [H15]
    · iexists _; isplitr; swap
      · unfold owns; iexists _; isplitr; swap; · iexact H15
        ipureintro; rfl
      · ipureintro; exact fun h => absurd h (by decide)
    iexists _; isplitr; swap
    · unfold owns; iexists _; isplitr; swap; · iexact H16
      ipureintro; rfl
    · ipureintro; exact fun h => absurd h (by decide)
  · iintro ⟨HΦ, Ho, H0, H1, H2, H3, H4, H5, H6, H7, H8, H9, H10, H11, H12, H13, H14, H15, H16⟩
    iapply ((runB c (grid0.coords t) _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    iintro ⟨H0, H1, H2, H3, H4, H5, H6, H7, H8, H9, H10, H11, H12, H13, H14, H15, ⟨%e16, H16⟩⟩
    isplitl [HΦ]; · iexact HΦ
    isplitl [Ho]; · iexact Ho
    isplitl [H0]
    · iexists _; isplitr; · ipureintro; exact fun _ => rfl
      iexact H0
    isplitl [H1]
    · iexists _; isplitr; · ipureintro; exact fun _ => rfl
      iexact H1
    isplitl [H2]
    · iexists _; isplitr; · ipureintro; exact fun _ => rfl
      iexact H2
    isplitl [H3]
    · iexists _; isplitr; · ipureintro; exact fun _ => rfl
      iexact H3
    isplitl [H4]
    · iexists _; isplitr; · ipureintro; exact fun _ => rfl
      iexact H4
    isplitl [H5]
    · iexists _; isplitr; · ipureintro; exact fun _ => rfl
      iexact H5
    isplitl [H6]
    · iexists _; isplitr; · ipureintro; exact fun _ => rfl
      iexact H6
    isplitl [H7]
    · iexists _; isplitr; · ipureintro; exact fun _ => rfl
      iexact H7
    isplitl [H8]
    · iexists _; isplitr; · ipureintro; exact fun _ => rfl
      iexact H8
    isplitl [H9]
    · iexists _; isplitr; · ipureintro; exact fun _ => rfl
      iexact H9
    isplitl [H10]
    · iexists _; isplitr; · ipureintro; exact fun _ => rfl
      iexact H10
    isplitl [H11]
    · iexists _; isplitr; · ipureintro; exact fun _ => rfl
      iexact H11
    isplitl [H12]
    · iexists _; isplitr; · ipureintro; exact fun _ => rfl
      iexact H12
    isplitl [H13]
    · iexists _; isplitr; · ipureintro; exact fun _ => rfl
      iexact H13
    isplitl [H14]
    · iexists _; isplitr; · ipureintro; exact fun _ => rfl
      iexact H14
    isplitl [H15]
    · iexists _; isplitr; swap
      · iexact H15
      · ipureintro; exact fun h => absurd h (by decide)
    iexists _; isplitr; swap
    · unfold owns; iexists _; isplitr; swap; · iexact H16
      ipureintro; rfl
    · ipureintro; exact fun h => absurd h (by decide)

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- Every weakly fair execution of the program ends, without a fault, with every staged input array at its entry
    contents and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

set_option maxHeartbeats 1020000 in
/-- The frame: the sixteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      (by have h' := (h c).1 0; rw [Pipeline.RDat.ArrAt_in _ 0 rfl] at h'; exact h'.trans (V_main_arg1 m c)),
      (by have h' := (h c).1 1; rw [Pipeline.RDat.ArrAt_in _ 1 rfl] at h'; exact h'.trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (by have h' := (h c).1 11; rw [Pipeline.RDat.ArrAt_in _ 11 rfl] at h'; exact h'.trans (V_main_arg6 m c)),
      ((h c).2 main_arg7 (Pipeline.mem_restRefs_of main_arg7 (by decide) (by decide))).trans (V_main_arg7 m c),
      (by have h' := (h c).1 13; rw [Pipeline.RDat.ArrAt_in _ 13 rfl] at h'; exact h'.trans (V_main_arg8 m c)),
      ((h c).2 main_arg9 (Pipeline.mem_restRefs_of main_arg9 (by decide) (by decide))).trans (V_main_arg9 m c),
      (by have h' := (h c).1 5; rw [Pipeline.RDat.ArrAt_in _ 5 rfl] at h'; exact h'.trans (V_main_arg10 m c)),
      ((h c).2 main_arg11 (Pipeline.mem_restRefs_of main_arg11 (by decide) (by decide))).trans (V_main_arg11 m c),
      (by have h' := (h c).1 7; rw [Pipeline.RDat.ArrAt_in _ 7 rfl] at h'; exact h'.trans (V_main_arg12 m c)),
      ((h c).2 main_arg13 (Pipeline.mem_restRefs_of main_arg13 (by decide) (by decide))).trans (V_main_arg13 m c),
      (by have h' := (h c).1 9; rw [Pipeline.RDat.ArrAt_in _ 9 rfl] at h'; exact h'.trans (V_main_arg14 m c)),
      ((h c).2 main_arg15 (Pipeline.mem_restRefs_of main_arg15 (by decide) (by decide))).trans (V_main_arg15 m c)⟩) (run_main m ρ)

end Cert.Kernel.Body

end
-- ==== Proof.RunAtomIdeal.lean ====
/-
  The kernel body at one grid point, case "atom block computed": it runs to its end on whole staging buffers
  and leaves the input buffers as it found them. Stated for any float instance.
-/
import proofs.«123452_g13383118094390_cont_week2b_154_27_alg».proof.Proof.Gen.KernelIdeal.Launch
import proofs.«123452_g13383118094390_cont_week2b_154_27_alg».proof.Proof.Gen.KernelIdeal.Skeleton
import proofs.«123452_g13383118094390_cont_week2b_154_27_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A grid point at which the atom block is computed (the point's coordinate is below 98). On whole staging
    buffers holding any contents, the body runs to its end; the fifteen input buffers are left as found, the atom
    output buffer and the edge output buffer end with the body's stores written over what they held. The stores
    themselves (rectangle and value, last first) are read off the run. -/
noncomputable def runA (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1)
    (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) :
    Σ' (L16 : List (View.Piece (Elt F) S512x256 .f32)) (L17 : List (View.Piece (Elt F) S8000x128 .f32)),
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  refine ⟨?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    iexists _; iexact H17

end Cert.KernelIdeal.Body

end
-- ==== Proof.RunSkipIdeal.lean ====
/-
  The kernel body at one grid point, case "atom block skipped": it runs to its end on whole staging buffers
  and leaves the input buffers as it found them. Stated for any float instance.
-/
import proofs.«123452_g13383118094390_cont_week2b_154_27_alg».proof.Proof.Gen.KernelIdeal.Launch
import proofs.«123452_g13383118094390_cont_week2b_154_27_alg».proof.Proof.Gen.KernelIdeal.Skeleton
import proofs.«123452_g13383118094390_cont_week2b_154_27_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A grid point at which the atom block is skipped (the point's coordinate is 98 or 99). The body runs to its
    end; the fifteen input buffers and the atom output buffer are left as found, the edge output buffer ends with
    the body's store written over what it held. -/
noncomputable def runB (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : ¬ k0_cond1 i = 1#1)
    (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (x16 : Vec F S512x256 .f32) :
    Σ' (L17 : List (View.Piece (Elt F) S8000x128 .f32)),
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  refine ⟨?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    iexists _; iexact H17

end Cert.KernelIdeal.Body

end
-- ==== Proof.FrameIdealRel.lean ====
/-
  The frame of the program: it runs to its end, nothing faults, and every argument array ends as it began.
  The pipeline's proof data is relational: at every grid point the body leaves each input staging buffer as it found it,
  and nothing is said of what it leaves in the two output buffers. That is all the frame needs: an input array is never
  written, and an array no window stages is untouched. The two control cases of the body (atom block computed at points
  0..97, skipped at 98 and 99) are the two runs of the body; a point is in one or the other.
-/
import proofs.«123452_g13383118094390_cont_week2b_154_27_alg».proof.Proof.RunAtomIdeal
import proofs.«123452_g13383118094390_cont_week2b_154_27_alg».proof.Proof.RunSkipIdeal
import proofs.«123452_g13383118094390_cont_week2b_154_27_alg».proof.Proof.Gen.KernelIdeal.Frame
import Idealize.ShloMosaic.Lib.Pipeline.Frame

set_option maxRecDepth 16384

noncomputable section

namespace Cert.KernelIdeal.RelFrame

open Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data on core `c`: the arrays as the region finds them; an input window's buffer is left
    holding what it held; an output window's buffer is left holding anything. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

set_option maxHeartbeats 4000000 in
/-- The body at any grid point, whatever the seventeen staging buffers hold: the point is in one of the two control
    cases, and that case's run applies. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7)
      ∗ owns (c : Thread nD τ) (st0_8 t) fullShare (Y 8)
      ∗ owns (c : Thread nD τ) (st0_9 t) fullShare (Y 9)
      ∗ owns (c : Thread nD τ) (st0_10 t) fullShare (Y 10)
      ∗ owns (c : Thread nD τ) (st0_11 t) fullShare (Y 11)
      ∗ owns (c : Thread nD τ) (st0_12 t) fullShare (Y 12)
      ∗ owns (c : Thread nD τ) (st0_13 t) fullShare (Y 13)
      ∗ owns (c : Thread nD τ) (st0_14 t) fullShare (Y 14)
      ∗ owns (c : Thread nD τ) (st0_15 t) fullShare (Y 15)
      ∗ owns (c : Thread nD τ) (st0_16 t) fullShare (Y 16))
    ⊢ wp frame (wpE (defs₀ (F := F)) Variants.none c none) Set.univ (bodyAt0 t) (fun _ => iprop((rdat m c).Φ t.succ ∗ (rdat m c).owesAt () t.succ
      ∗ (∃ X, ⌜(rdat m c).after 0 t (Y 0) X⌝ ∗ owns (c : Thread nD τ) (st0_0 t) fullShare X)
      ∗ (∃ X, ⌜(rdat m c).after 1 t (Y 1) X⌝ ∗ owns (c : Thread nD τ) (st0_1 t) fullShare X)
      ∗ (∃ X, ⌜(rdat m c).after 2 t (Y 2) X⌝ ∗ owns (c : Thread nD τ) (st0_2 t) fullShare X)
      ∗ (∃ X, ⌜(rdat m c).after 3 t (Y 3) X⌝ ∗ owns (c : Thread nD τ) (st0_3 t) fullShare X)
      ∗ (∃ X, ⌜(rdat m c).after 4 t (Y 4) X⌝ ∗ owns (c : Thread nD τ) (st0_4 t) fullShare X)
      ∗ (∃ X, ⌜(rdat m c).after 5 t (Y 5) X⌝ ∗ owns (c : Thread nD τ) (st0_5 t) fullShare X)
      ∗ (∃ X, ⌜(rdat m c).after 6 t (Y 6) X⌝ ∗ owns (c : Thread nD τ) (st0_6 t) fullShare X)
      ∗ (∃ X, ⌜(rdat m c).after 7 t (Y 7) X⌝ ∗ owns (c : Thread nD τ) (st0_7 t) fullShare X)
      ∗ (∃ X, ⌜(rdat m c).after 8 t (Y 8) X⌝ ∗ owns (c : Thread nD τ) (st0_8 t) fullShare X)
      ∗ (∃ X, ⌜(rdat m c).after 9 t (Y 9) X⌝ ∗ owns (c : Thread nD τ) (st0_9 t) fullShare X)
      ∗ (∃ X, ⌜(rdat m c).after 10 t (Y 10) X⌝ ∗ owns (c : Thread nD τ) (st0_10 t) fullShare X)
      ∗ (∃ X, ⌜(rdat m c).after 11 t (Y 11) X⌝ ∗ owns (c : Thread nD τ) (st0_11 t) fullShare X)
      ∗ (∃ X, ⌜(rdat m c).after 12 t (Y 12) X⌝ ∗ owns (c : Thread nD τ) (st0_12 t) fullShare X)
      ∗ (∃ X, ⌜(rdat m c).after 13 t (Y 13) X⌝ ∗ owns (c : Thread nD τ) (st0_13 t) fullShare X)
      ∗ (∃ X, ⌜(rdat m c).after 14 t (Y 14) X⌝ ∗ owns (c : Thread nD τ) (st0_14 t) fullShare X)
      ∗ (∃ X, ⌜(rdat m c).after 15 t (Y 15) X⌝ ∗ owns (c : Thread nD τ) (st0_15 t) fullShare X)
      ∗ (∃ X, ⌜(rdat m c).after 16 t (Y 16) X⌝ ∗ owns (c : Thread nD τ) (st0_16 t) fullShare X))) := by
  rw [show (rdat m c).Φ t.succ = (rdat m c).Φ t.castSucc from rfl,
    show (rdat m c).owesAt () t.succ = (rdat m c).owesAt () t.castSucc from rfl]
  unfold bodyAt0
  by_cases hc : k0_cond1 (grid0.coords t) = 1#1
  · iintro ⟨HΦ, Ho, H0, H1, H2, H3, H4, H5, H6, H7, H8, H9, H10, H11, H12, H13, H14, H15, H16⟩
    iapply ((runA c (grid0.coords t) _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]
    · iexists _; isplitr; · ipureintro; exact fun _ => rfl
      iexact H0
    isplitl [H1]
    · iexists _; isplitr; · ipureintro; exact fun _ => rfl
      iexact H1
    isplitl [H2]
    · iexists _; isplitr; · ipureintro; exact fun _ => rfl
      iexact H2
    isplitl [H3]
    · iexists _; isplitr; · ipureintro; exact fun _ => rfl
      iexact H3
    isplitl [H4]
    · iexists _; isplitr; · ipureintro; exact fun _ => rfl
      iexact H4
    isplitl [H5]
    · iexists _; isplitr; · ipureintro; exact fun _ => rfl
      iexact H5
    isplitl [H6]
    · iexists _; isplitr; · ipureintro; exact fun _ => rfl
      iexact H6
    isplitl [H7]
    · iexists _; isplitr; · ipureintro; exact fun _ => rfl
      iexact H7
    isplitl [H8]
    · iexists _; isplitr; · ipureintro; exact fun _ => rfl
      iexact H8
    isplitl [H9]
    · iexists _; isplitr; · ipureintro; exact fun _ => rfl
      iexact H9
    isplitl [H10]
    · iexists _; isplitr; · ipureintro; exact fun _ => rfl
      iexact H10
    isplitl [H11]
    · iexists _; isplitr; · ipureintro; exact fun _ => rfl
      iexact H11
    isplitl [H12]
    · iexists _; isplitr; · ipureintro; exact fun _ => rfl
      iexact H12
    isplitl [H13]
    · iexists _; isplitr; · ipureintro; exact fun _ => rfl
      iexact H13
    isplitl [H14]
    · iexists _; isplitr; · ipureintro; exact fun _ => rfl
      iexact H14
    isplitl [H15]
    · iexists _; isplitr; swap
      · unfold owns; iexists _; isplitr; swap; · iexact H15
        ipureintro; rfl
      · ipureintro; exact fun h => absurd h (by decide)
    iexists _; isplitr; swap
    · unfold owns; iexists _; isplitr; swap; · iexact H16
      ipureintro; rfl
    · ipureintro; exact fun h => absurd h (by decide)
  · iintro ⟨HΦ, Ho, H0, H1, H2, H3, H4, H5, H6, H7, H8, H9, H10, H11, H12, H13, H14, H15, H16⟩
    iapply ((runB c (grid0.coords t) _ _ _ _ _ _ _ _ _ _ _ _ _ _ _ _ _ _ _ _ _ _ _ _ _ _ _ _ _ _ _ _ _ _ hc (Y 0) (Y 1) (Y 2) (Y 3) (Y 4) (Y 5) (Y 6) (Y 7) (Y 8) (Y 9) (Y 10) (Y 11) (Y 12) (Y 13) (Y 14) (Y 15)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    iintro ⟨H0, H1, H2, H3, H4, H5, H6, H7, H8, H9, H10, H11, H12, H13, H14, H15, ⟨%e16, H16⟩⟩
    isplitl [HΦ]; · iexact HΦ
    isplitl [Ho]; · iexact Ho
    isplitl [H0]
    · iexists _; isplitr; · ipureintro; exact fun _ => rfl
      iexact H0
    isplitl [H1]
    · iexists _; isplitr; · ipureintro; exact fun _ => rfl
      iexact H1
    isplitl [H2]
    · iexists _; isplitr; · ipureintro; exact fun _ => rfl
      iexact H2
    isplitl [H3]
    · iexists _; isplitr; · ipureintro; exact fun _ => rfl
      iexact H3
    isplitl [H4]
    · iexists _; isplitr; · ipureintro; exact fun _ => rfl
      iexact H4
    isplitl [H5]
    · iexists _; isplitr; · ipureintro; exact fun _ => rfl
      iexact H5
    isplitl [H6]
    · iexists _; isplitr; · ipureintro; exact fun _ => rfl
      iexact H6
    isplitl [H7]
    · iexists _; isplitr; · ipureintro; exact fun _ => rfl
      iexact H7
    isplitl [H8]
    · iexists _; isplitr; · ipureintro; exact fun _ => rfl
      iexact H8
    isplitl [H9]
    · iexists _; isplitr; · ipureintro; exact fun _ => rfl
      iexact H9
    isplitl [H10]
    · iexists _; isplitr; · ipureintro; exact fun _ => rfl
      iexact H10
    isplitl [H11]
    · iexists _; isplitr; · ipureintro; exact fun _ => rfl
      iexact H11
    isplitl [H12]
    · iexists _; isplitr; · ipureintro; exact fun _ => rfl
      iexact H12
    isplitl [H13]
    · iexists _; isplitr; · ipureintro; exact fun _ => rfl
      iexact H13
    isplitl [H14]
    · iexists _; isplitr; · ipureintro; exact fun _ => rfl
      iexact H14
    isplitl [H15]
    · iexists _; isplitr; swap
      · iexact H15
      · ipureintro; exact fun h => absurd h (by decide)
    iexists _; isplitr; swap
    · unfold owns; iexists _; isplitr; swap; · iexact H16
      ipureintro; rfl
    · ipureintro; exact fun h => absurd h (by decide)

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- Every weakly fair execution of the program ends, without a fault, with every staged input array at its entry
    contents and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

set_option maxHeartbeats 1020000 in
/-- The frame: the sixteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      (by have h' := (h c).1 0; rw [Pipeline.RDat.ArrAt_in _ 0 rfl] at h'; exact h'.trans (V_main_arg1 m c)),
      (by have h' := (h c).1 1; rw [Pipeline.RDat.ArrAt_in _ 1 rfl] at h'; exact h'.trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (by have h' := (h c).1 11; rw [Pipeline.RDat.ArrAt_in _ 11 rfl] at h'; exact h'.trans (V_main_arg6 m c)),
      ((h c).2 main_arg7 (Pipeline.mem_restRefs_of main_arg7 (by decide) (by decide))).trans (V_main_arg7 m c),
      (by have h' := (h c).1 13; rw [Pipeline.RDat.ArrAt_in _ 13 rfl] at h'; exact h'.trans (V_main_arg8 m c)),
      ((h c).2 main_arg9 (Pipeline.mem_restRefs_of main_arg9 (by decide) (by decide))).trans (V_main_arg9 m c),
      (by have h' := (h c).1 5; rw [Pipeline.RDat.ArrAt_in _ 5 rfl] at h'; exact h'.trans (V_main_arg10 m c)),
      ((h c).2 main_arg11 (Pipeline.mem_restRefs_of main_arg11 (by decide) (by decide))).trans (V_main_arg11 m c),
      (by have h' := (h c).1 7; rw [Pipeline.RDat.ArrAt_in _ 7 rfl] at h'; exact h'.trans (V_main_arg12 m c)),
      ((h c).2 main_arg13 (Pipeline.mem_restRefs_of main_arg13 (by decide) (by decide))).trans (V_main_arg13 m c),
      (by have h' := (h c).1 9; rw [Pipeline.RDat.ArrAt_in _ 9 rfl] at h'; exact h'.trans (V_main_arg14 m c)),
      ((h c).2 main_arg15 (Pipeline.mem_restRefs_of main_arg15 (by decide) (by decide))).trans (V_main_arg15 m c)⟩) (run_main m ρ)

end Cert.KernelIdeal.RelFrame

end
-- ==== Proof.Spec.lean ====
/-
  The function both programs compute, written once, index by index on the extended reals.

  Edge branch. Row p of the result is  silu( hid(p) · W_e2 + b_e2 ),  where the 128 hidden entries hid(p) are
  silu(rel_pos(p) · W_e1 + b_e1) (64 entries) followed by silu(edge_attr(p) · W_e12 + b_e12) (64 entries).

  Atom branch. Row r of the result is  silu( silu( x(r) · W_lin + b_lin ) · W_lin2 + b_lin2 ),  where the 256 entries
  x(r) are row z(r) of the 85 x 224 embedding table followed by row tag(r) of the 3 x 32 tag table.

  silu x = x · (1 / (1 + e^(-x))), in the arrangement both programs spell it; "1" is the float word of 1.0 read exactly,
  the same word on both sides, so it is never evaluated. A table row is addressed by the index word read as a natural
  number, reduced modulo the table's height only so that the definition is total: on indices in range (the precondition)
  the reduction does nothing.
-/
import Idealize.ShloMosaic.PureOps.Ideal
import Idealize.ShloMosaic.Lib.ValueIdx

noncomputable section

open scoped BigOperators
open Idealize.ShloMosaic Idealize.ShloMosaic.ValueIdx

namespace Cert.Spec

/-- A vector of length `n`. -/
abbrev Arr1 (n : Nat) (α : Type) : Type := (⟨1, ![n]⟩ : Shape).Idx → α
/-- An `a` by `b` matrix. -/
abbrev Arr2 (a b : Nat) (α : Type) : Type := (⟨2, ![a, b]⟩ : Shape).Idx → α

/-- The float word of 1.0, read exactly. -/
abbrev one : EReal := Ideal.ofBits .f32 0x3F800000#32

/-- x · (1 / (1 + e^(-x))). -/
def silu (x : EReal) : EReal := x * Ideal.div one (one + Ideal.exp (-x))

/-- One entry of a dense layer before its activation: the dot product of a row with a column, plus the bias. -/
def dense {K N : Nat} (x : Fin K → EReal) (w : Arr2 K N EReal) (b : Arr1 N EReal) (q : Fin N) : EReal :=
  (∑ k : Fin K, x k * w (ix2 k q)) + b (ix1 q)

/-- The 128 hidden entries of edge p: the activated projection of its position (64), then of its attributes (64). -/
def edgeHid (rp : Arr2 800000 3 EReal) (ea : Arr2 800000 50 EReal) (w1 : Arr2 3 64 EReal) (b1 : Arr1 64 EReal)
    (w12 : Arr2 50 64 EReal) (b12 : Arr1 64 EReal) (p : Fin 800000) (k : Fin 128) : EReal :=
  if h : k.val < 64 then silu (dense (fun a => rp (ix2 p a)) w1 b1 ⟨k.val, h⟩)
  else silu (dense (fun a => ea (ix2 p a)) w12 b12 ⟨k.val - 64, by have := k.isLt; omega⟩)

/-- The edge result, as one function of the argument arrays. -/
def Ge (rp : Arr2 800000 3 EReal) (ea : Arr2 800000 50 EReal) (w1 : Arr2 3 64 EReal) (b1 : Arr1 64 EReal)
    (w12 : Arr2 50 64 EReal) (b12 : Arr1 64 EReal) (w2 : Arr2 128 128 EReal) (b2 : Arr1 128 EReal) :
    Arr2 800000 128 EReal :=
  fun i => silu (dense (edgeHid rp ea w1 b1 w12 b12 (i 0)) w2 b2 (i 1))

/-- The 256 input entries of atom r: row z(r) of the embedding table (224), then row tag(r) of the tag table (32). -/
def atomIn (z tag : Arr1 50000 (BitVec 32)) (emb : Arr2 85 224 EReal) (tt : Arr2 3 32 EReal)
    (r : Fin 50000) (j : Fin 256) : EReal :=
  if h : j.val < 224 then emb (ix2 ⟨(z (ix1 r)).toNat % 85, Nat.mod_lt _ (by norm_num)⟩ ⟨j.val, h⟩)
  else tt (ix2 ⟨(tag (ix1 r)).toNat % 3, Nat.mod_lt _ (by norm_num)⟩ ⟨j.val - 224, by have := j.isLt; omega⟩)

/-- The atom result, as one function of the argument arrays. -/
def Gh (z tag : Arr1 50000 (BitVec 32)) (emb : Arr2 85 224 EReal) (tt : Arr2 3 32 EReal)
    (wl : Arr2 256 256 EReal) (bl : Arr1 256 EReal) (wl2 : Arr2 256 256 EReal) (bl2 : Arr1 256 EReal) :
    Arr2 50000 256 EReal :=
  fun i => silu (dense (fun k => silu (dense (atomIn z tag emb tt (i 0)) wl bl k)) wl2 bl2 (i 1))

end Cert.Spec

end
-- ==== Proof.DataIdeal.lean ====
/-
  The proof data of the idealized kernel's pipeline, stated from the specification. After the body at grid point t:
  each plainly staged input buffer holds its block; the z and tag buffers hold, on the rows inside the array, the entries
  of z and tag of atom block min(t, 97); the edge output buffer holds rows 8000 t .. 8000 t + 7999 of the specified edge
  result; the atom output buffer holds, on the rows inside the array, the rows of atom block min(t, 97) of the specified
  atom result (at points 98 and 99 the body leaves that buffer alone, and it still holds block 97). Row numbers are
  reduced modulo the array's height only so that the definitions are total; rows inside the array are unaffected.
-/
import proofs.«123452_g13383118094390_cont_week2b_154_27_alg».proof.Proof.Gen.KernelIdeal.Frame
import proofs.«123452_g13383118094390_cont_week2b_154_27_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Edge row number `n`. -/
def rowE (n : Nat) : Fin 800000 := ⟨n % 800000, Nat.mod_lt _ (by norm_num)⟩
/-- Atom row number `n`. -/
def rowH (n : Nat) : Fin 50000 := ⟨n % 50000, Nat.mod_lt _ (by norm_num)⟩
/-- The atom block staged at grid point `t`: the point itself up to 97, then 97. -/
def ablk (t : Nat) : Nat := min t 97

/-- The specified edge result of core `c`'s argument arrays. -/
def GeAt (c : Dev nD) : Cert.Spec.Arr2 800000 128 EReal :=
  Cert.Spec.Ge (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
/-- The specified atom result of core `c`'s argument arrays. -/
def GhAt (c : Dev nD) : Cert.Spec.Arr2 50000 256 EReal :=
  Cert.Spec.Gh (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The z staging buffer after point `t`: the entries of z of the staged atom block. -/
def zAfter (c : Dev nD) (t : Fin cfg0.N) : S512x1.Idx → BitVec 32 :=
  fun j => (m ((c : Thread nD τ).loc main_arg0)) (ix1 (rowH (512 * ablk t.val + (j 0).val)))
/-- The tag staging buffer after point `t`. -/
def tagAfter (c : Dev nD) (t : Fin cfg0.N) : S512x1.Idx → BitVec 32 :=
  fun j => (m ((c : Thread nD τ).loc main_arg3)) (ix1 (rowH (512 * ablk t.val + (j 0).val)))
/-- The atom output buffer after point `t`: the staged atom block's rows of the specified result. -/
def hAfter (c : Dev nD) (t : Fin cfg0.N) : S512x256.Idx → EReal :=
  fun j => GhAt m c (ix2 (rowH (512 * ablk t.val + (j 0).val)) (j 1))
/-- The edge output buffer after point `t`: edge block `t`'s rows of the specified result. -/
def eAfter (c : Dev nD) (t : Fin cfg0.N) : S8000x128.Idx → EReal :=
  fun j => GeAt m c (ix2 (rowE (8000 * t.val + (j 0).val)) (j 1))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zAfter m c t
    | ⟨3, _⟩ => tagAfter m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => hAfter m c t
    | ⟨16, _⟩ => eAfter m c t
    | ⟨n + 17, h⟩ => absurd h (Nat.not_lt.mpr (Nat.le_add_left 17 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_2 (c : Dev nD) (t : Fin cfg0.N) : (dats m 0 c).after 2 t = zAfter m c t := by dsimp only [dats]
theorem after_3 (c : Dev nD) (t : Fin cfg0.N) : (dats m 0 c).after 3 t = tagAfter m c t := by dsimp only [dats]
theorem after_15 (c : Dev nD) (t : Fin cfg0.N) : (dats m 0 c).after 15 t = hAfter m c t := by dsimp only [dats]
theorem after_16 (c : Dev nD) (t : Fin cfg0.N) : (dats m 0 c).after 16 t = eAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

end Cert.KernelIdeal.Body

end
-- ==== Proof.SchedIdeal.lean ====
/-
  The schedule, decided once over the hundred grid points: the atom block is computed exactly at points 0..97; the z
  and tag windows are fetched exactly there (their block index min(t, 97) stops moving at 97); the atom output block is
  written back at points 0..96 and at the last point; the three clipped windows are cut alike (512 rows up to block 96,
  336 rows for block 97), and no window is ever idle.
-/
import proofs.«123452_g13383118094390_cont_week2b_154_27_alg».proof.Proof.Gen.KernelIdeal.Points

set_option maxRecDepth 16384

noncomputable section

namespace Cert.KernelIdeal.Body

open Cert.KernelIdeal Cert.KernelIdeal.Gen
open Idealize.ShloMosaic Idealize.ShloMosaic.TcCoe
open Idealize.SL Idealize.SL.Sem

theorem hcond : ∀ t : Fin cfg0.N, k0_cond1 (grid0.coords t) = 1#1 ↔ t.val < 98 :=
  (by decide +kernel : ∀ t : Fin grid0.N, k0_cond1 (grid0.coords t) = 1#1 ↔ t.val < 98)
theorem fetch_2 : ∀ t : Fin cfg0.N, (cfg0.win 2).fetch t = true ↔ t.val < 98 :=
  (by decide +kernel : ∀ t : Fin grid0.N, win0_2.fetch t = true ↔ t.val < 98)
theorem fetch_3 : ∀ t : Fin cfg0.N, (cfg0.win 3).fetch t = true ↔ t.val < 98 :=
  (by decide +kernel : ∀ t : Fin grid0.N, win0_3.fetch t = true ↔ t.val < 98)
theorem flush_2 : ∀ t : Fin cfg0.N, (cfg0.win 2).flush t = false :=
  (by decide +kernel : ∀ t : Fin grid0.N, win0_2.flush t = false)
theorem flush_3 : ∀ t : Fin cfg0.N, (cfg0.win 3).flush t = false :=
  (by decide +kernel : ∀ t : Fin grid0.N, win0_3.flush t = false)
theorem fetch_15 : ∀ t : Fin cfg0.N, (cfg0.win 15).fetch t = false :=
  (by decide +kernel : ∀ t : Fin grid0.N, win0_15.fetch t = false)
theorem flush_15 : ∀ t : Fin cfg0.N, (cfg0.win 15).flush t = true ↔ (t.val < 97 ∨ t.val = 99) :=
  (by decide +kernel : ∀ t : Fin grid0.N, win0_15.flush t = true ↔ (t.val < 97 ∨ t.val = 99))
theorem xsize_2 : ∀ (t : Fin cfg0.N) (a : Fin 2), (cfg0.win 2).xsize (cfg0.grid.coords t) a = if a.val = 0 then (if t.val < 97 then 512 else 336) else 1 :=
  (by decide +kernel : ∀ (t : Fin grid0.N) (a : Fin 2), win0_2.xsize (grid0.coords t) a = if a.val = 0 then (if t.val < 97 then 512 else 336) else 1)
theorem xsize_3 : ∀ (t : Fin cfg0.N) (a : Fin 2), (cfg0.win 3).xsize (cfg0.grid.coords t) a = if a.val = 0 then (if t.val < 97 then 512 else 336) else 1 :=
  (by decide +kernel : ∀ (t : Fin grid0.N) (a : Fin 2), win0_3.xsize (grid0.coords t) a = if a.val = 0 then (if t.val < 97 then 512 else 336) else 1)
theorem xsize_15 : ∀ (t : Fin cfg0.N) (a : Fin 2), (cfg0.win 15).xsize (cfg0.grid.coords t) a = if a.val = 0 then (if t.val < 97 then 512 else 336) else 256 :=
  (by decide +kernel : ∀ (t : Fin grid0.N) (a : Fin 2), win0_15.xsize (grid0.coords t) a = if a.val = 0 then (if t.val < 97 then 512 else 336) else 256)

end Cert.KernelIdeal.Body

end
-- ==== Proof.OutIdeal.lean ====
/-
  What the body leaves in the two output staging buffers, in each control case: the stores the run found, read back.
  In each case the stores tile the buffer, so what it held before does not matter.
-/
import proofs.«123452_g13383118094390_cont_week2b_154_27_alg».proof.Proof.RunAtomIdeal
import proofs.«123452_g13383118094390_cont_week2b_154_27_alg».proof.Proof.RunSkipIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the atom output window, through which its contents are stated (the choice does not matter). -/
abbrev VO15 : View sig .tc .vmem S512x256 .f32 := (Memref.whole cc0_stg15_0 : Memref sig .tc .vmem S512x256 .f32).view
/-- One staging buffer of the edge output window. -/
abbrev VO16 : View sig .tc .vmem S8000x128 .f32 := (Memref.whole cc0_stg16_0 : Memref sig .tc .vmem S8000x128 .f32).view

/-- Atom block computed: the stores into the atom output buffer tile it. -/
theorem coverA15 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (y : S512x256.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).1 S512x256.size (by sl_kernel_rfl) y
/-- Atom block computed: the stores into the edge output buffer tile it. -/
theorem coverA16 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (y : S8000x128.Idx) : ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).2.1 S8000x128.size (by sl_kernel_rfl) y
/-- Atom block skipped: the stores into the edge output buffer tile it. -/
theorem coverB16 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : ¬ k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (x16 : Vec F S512x256 .f32) (y : S8000x128.Idx) : ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 x16).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 x16).1 S8000x128.size (by sl_kernel_rfl) y

/-- Atom block computed: what the atom output buffer ends holding. -/
def outA15 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) : Vec F S512x256 .f32 :=
  VO15.read (Elt F) (VO15.writes (Elt F) VO15.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).1)
/-- Atom block computed: what the edge output buffer ends holding. -/
def outA16 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) : Vec F S8000x128 .f32 :=
  VO16.read (Elt F) (VO16.writes (Elt F) VO16.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15).2.1)
/-- Atom block skipped: what the edge output buffer ends holding. -/
def outB16 (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : ¬ k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (x16 : Vec F S512x256 .f32) : Vec F S8000x128 .f32 :=
  VO16.read (Elt F) (VO16.writes (Elt F) VO16.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 x16).1)

end Cert.KernelIdeal.Body

end
-- ==== Proof.PiecesIdeal.lean ====
/-
  The output buffers' contents in closed form: in either control case the edge output buffer ends holding the edge
  payload of the loaded blocks (the two halves of W_e2 are rows 0..63 and rows 64..127 of its block), and when the atom
  block is computed the atom output buffer ends holding the atom payload of the loaded blocks.
-/
import proofs.«123452_g13383118094390_cont_week2b_154_27_alg».proof.Proof.OutIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Rows 0..63 of the 128 x 128 block. -/
abbrev rLo : Rect S128x128 := Rect.unit (s := S128x128) ![0, 0] S64x128.size inb_S128x128_S64x128_0_0
/-- Rows 64..127 of the 128 x 128 block. -/
abbrev rHi : Rect S128x128 := Rect.unit (s := S128x128) ![64, 0] S64x128.size inb_S128x128_S64x128_64_0

/-- The edge payload of the loaded blocks. -/
def edgeOf (x1 : Vec F S8000x3 .f32) (x2 : Vec F S8000x50 .f32) (x6 : Vec F S3x64 .f32) (x7 : Vec F S1x64 .f32)
    (x8 : Vec F S50x64 .f32) (x9 : Vec F S1x64 .f32) (x10 : Vec F S128x128 .f32) (x11 : Vec F S1x128 .f32) : FVec F S8000x128 .f32 :=
  k0_pay1 (k0_pay5 x2 x8 x9) (k0_pay6 x1 x6 x7 (View.ld x10 rLo)) (View.ld x10 rHi) (constant S8000x128 .f32 0x00000000#32) x11

/-- The atom payload of the loaded blocks. -/
def atomOf (x3 x4 : Vec F S512x1 .i32) (x5 : Vec F S88x256 .f32) (x12 : Vec F S256x256 .f32) (x13 : Vec F S1x256 .f32)
    (x14 : Vec F S256x256 .f32) (x15 : Vec F S1x256 .f32) : FVec F S512x256 .f32 :=
  k0_pay2 (k0_pay3 x3 x4 x5 x12 x13 x14 x15) k0_pay4

set_option maxHeartbeats 2000000 in
theorem outB16_eq (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : ¬ k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) (x16 : Vec F S512x256 .f32) :
    outB16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 x16 = edgeOf x1 x2 x6 x7 x8 x9 x10 x11 := by
  unfold outB16
  rw [View.read_writes_eq_canon _ _ _ (coverB16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 x16)]
  unfold runB
  dsimp only
  sl_unfold_run_names
  rw [View.canon_unit_zero hz2]
  simp only [View.readAt_eq_ld, Memref.IsWhole.read_unread, View.ld_unit_zero (S := S8000x50) hz2, View.ld_unit_zero (S := S50x64) hz2, View.ld_unit_zero (S := S1x64) hz2, View.ld_unit_zero (S := S8000x3) hz2, View.ld_unit_zero (S := S3x64) hz2, View.ld_unit_zero (S := S1x128) hz2, View.ld_unit_zero (S := S512x1) hz2, View.ld_unit_zero (S := S88x256) hz2, View.ld_unit_zero (S := S256x256) hz2, View.ld_unit_zero (S := S1x256) hz2]
  rfl

set_option maxHeartbeats 2000000 in
theorem outA16_eq (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) :
    outA16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 = edgeOf x1 x2 x6 x7 x8 x9 x10 x11 := by
  unfold outA16
  rw [View.read_writes_eq_canon _ _ _ (coverA16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15)]
  unfold runA
  dsimp only
  sl_unfold_run_names
  rw [View.canon_unit_zero hz2]
  simp only [View.readAt_eq_ld, Memref.IsWhole.read_unread, View.ld_unit_zero (S := S8000x50) hz2, View.ld_unit_zero (S := S50x64) hz2, View.ld_unit_zero (S := S1x64) hz2, View.ld_unit_zero (S := S8000x3) hz2, View.ld_unit_zero (S := S3x64) hz2, View.ld_unit_zero (S := S1x128) hz2, View.ld_unit_zero (S := S512x1) hz2, View.ld_unit_zero (S := S88x256) hz2, View.ld_unit_zero (S := S256x256) hz2, View.ld_unit_zero (S := S1x256) hz2]
  rfl

set_option maxHeartbeats 2000000 in
theorem outA15_eq (c : Dev nD) (i : grid0.Coords) (arg1 : Memref sig .tc .vmem S8000x3 .f32) (harg1 : arg1.IsWhole) (arg2 : Memref sig .tc .vmem S8000x50 .f32) (harg2 : arg2.IsWhole) (arg3 : Memref sig .tc .vmem S512x1 .i32) (harg3 : arg3.IsWhole) (arg4 : Memref sig .tc .vmem S512x1 .i32) (harg4 : arg4.IsWhole) (arg5 : Memref sig .tc .vmem S88x256 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S50x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S512x256 .f32) (harg16 : arg16.IsWhole) (arg17 : Memref sig .tc .vmem S8000x128 .f32) (harg17 : arg17.IsWhole) (hc : k0_cond1 i = 1#1) (x1 : Vec F S8000x3 .f32) (x2 : Vec F S8000x50 .f32) (x3 : Vec F S512x1 .i32) (x4 : Vec F S512x1 .i32) (x5 : Vec F S88x256 .f32) (x6 : Vec F S3x64 .f32) (x7 : Vec F S1x64 .f32) (x8 : Vec F S50x64 .f32) (x9 : Vec F S1x64 .f32) (x10 : Vec F S128x128 .f32) (x11 : Vec F S1x128 .f32) (x12 : Vec F S256x256 .f32) (x13 : Vec F S1x256 .f32) (x14 : Vec F S256x256 .f32) (x15 : Vec F S1x256 .f32) :
    outA15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15 = atomOf x3 x4 x5 x12 x13 x14 x15 := by
  unfold outA15
  rw [View.read_writes_eq_canon _ _ _ (coverA15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 x15)]
  unfold runA
  dsimp only
  sl_unfold_run_names
  rw [View.canon_unit_zero hz2]
  simp only [View.readAt_eq_ld, Memref.IsWhole.read_unread, View.ld_unit_zero (S := S8000x50) hz2, View.ld_unit_zero (S := S50x64) hz2, View.ld_unit_zero (S := S1x64) hz2, View.ld_unit_zero (S := S8000x3) hz2, View.ld_unit_zero (S := S3x64) hz2, View.ld_unit_zero (S := S1x128) hz2, View.ld_unit_zero (S := S512x1) hz2, View.ld_unit_zero (S := S88x256) hz2, View.ld_unit_zero (S := S256x256) hz2, View.ld_unit_zero (S := S1x256) hz2]
  rfl

end Cert.KernelIdeal.Body

end
-- ==== Proof.ObligIdeal.lean ====
/-
  The body obligation of the idealized kernel's pipeline over the proof data stated from the specification, and the run.
  Three facts about values are taken as hypotheses here and proved where the arithmetic is read: that the z and tag
  blocks read off their arrays are the arrays' entries, that the edge payload of a point's blocks is the specified edge
  rows, and that the atom payload of a point's blocks is, on the rows inside the array, the specified atom rows whatever
  the z and tag buffers hold outside the array. At points 98 and 99 the body stores nothing into the atom output
  buffer: at 98 it is handed back as found, and at 99 (where it is written back) it still holds block 97's rows.
-/
import proofs.«123452_g13383118094390_cont_week2b_154_27_alg».proof.Proof.DataIdeal
import proofs.«123452_g13383118094390_cont_week2b_154_27_alg».proof.Proof.SchedIdeal
import proofs.«123452_g13383118094390_cont_week2b_154_27_alg».proof.Proof.PiecesIdeal
import Idealize.ShloMosaic.Lib.Pipeline.Frame
set_option maxRecDepth 16384
noncomputable section
namespace Cert.KernelIdeal.Body
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ
variable (m : (ℓ : Loc nD τ sig) → Buf (Elt Ideal) ℓ) (ρ : Dev nD → PrngReg)
/-- On the rows inside the array, window 2's buffer holds on entry what the proof data names: just fetched
    (points 0..97) it is the array's block; at points 98 and 99 it is what the point before left, and the cut there is
    the same (block 97). -/
theorem cut_before_2 (c : Dev nD)
    (hblk : ∀ (t : Fin cfg0.N) (y : ((cfg0.win 2).xblock (cfg0.grid.coords t)).Idx), iblk m c 2 t y = (m ((c : Thread nD τ).loc main_arg0) : S50000.Idx → BitVec 32) (ix1 (rowH (512 * ablk t.val + (y 0).val))))
    (t : Fin cfg0.N) (d) :
    (cfg0.win 2).cut (cfg0.grid.coords t) ((dats m 0 c).before 2 t d) = (cfg0.win 2).cut (cfg0.grid.coords t) (zAfter m c t) := by
  have hN : t.val < 100 := lt_of_lt_of_eq t.isLt N_0
  by_cases hf : t.val < 98
  · unfold Dat.before; rw [if_pos ((fetch_2 t).mpr hf), Dat.cut_fetched]
    funext y
    show (dats m 0 c).blockOf 2 t y = zAfter m c t ((cfg0.win 2).xinj _ y)
    unfold Dat.blockOf; rw [A_eq]
    exact (hblk t y).trans rfl
  · have h98 : 98 ≤ t.val := by omega
    unfold Dat.before
    rw [if_neg (by rw [Bool.not_eq_true]; exact Bool.eq_false_iff.mpr (fun hh => hf ((fetch_2 t).mp hh))), if_neg (by omega)]
    dsimp only
    rw [if_neg (by rw [flush_2]; exact Bool.false_ne_true)]
    funext y
    unfold Dat.kept; rw [after_2]
    show (cfg0.win 2).fill (cfg0.grid.coords ⟨t.val - 1, Nat.lt_of_le_of_lt (Nat.sub_le _ _) t.isLt⟩) d _ ((cfg0.win 2).xinj (cfg0.grid.coords t) y) = zAfter m c t ((cfg0.win 2).xinj (cfg0.grid.coords t) y)
    have hm : (cfg0.win 2).moved (cfg0.grid.coords ⟨t.val - 1, Nat.lt_of_le_of_lt (Nat.sub_le _ _) t.isLt⟩) ((cfg0.win 2).xinj (cfg0.grid.coords t) y) = true := by
      rw [Window.moved_iff]; intro a
      have h : (y a).val < (cfg0.win 2).xsize (cfg0.grid.coords t) a := (y a).isLt
      rw [xsize_2] at h ⊢
      have e1 : ¬ t.val < 97 := by omega
      have e2 : ¬ ((⟨t.val - 1, Nat.lt_of_le_of_lt (Nat.sub_le _ _) t.isLt⟩ : Fin cfg0.N).val < 97) := by show ¬ (t.val - 1 < 97); omega
      rw [if_neg e1] at h; rw [if_neg e2]; exact h
    unfold Window.fill; rw [dif_pos hm]
    have e1 : ablk (t.val - 1) = ablk t.val := by unfold ablk; omega
    show (m ((c : Thread nD τ).loc main_arg0) : S50000.Idx → BitVec 32) (ix1 (rowH (512 * ablk (t.val - 1) + (y 0).val))) = (m ((c : Thread nD τ).loc main_arg0) : S50000.Idx → BitVec 32) (ix1 (rowH (512 * ablk t.val + (y 0).val)))
    rw [e1]

/-- On the rows inside the array, window 3's buffer holds on entry what the proof data names: just fetched
    (points 0..97) it is the array's block; at points 98 and 99 it is what the point before left, and the cut there is
    the same (block 97). -/
theorem cut_before_3 (c : Dev nD)
    (hblk : ∀ (t : Fin cfg0.N) (y : ((cfg0.win 3).xblock (cfg0.grid.coords t)).Idx), iblk m c 3 t y = (m ((c : Thread nD τ).loc main_arg3) : S50000.Idx → BitVec 32) (ix1 (rowH (512 * ablk t.val + (y 0).val))))
    (t : Fin cfg0.N) (d) :
    (cfg0.win 3).cut (cfg0.grid.coords t) ((dats m 0 c).before 3 t d) = (cfg0.win 3).cut (cfg0.grid.coords t) (tagAfter m c t) := by
  have hN : t.val < 100 := lt_of_lt_of_eq t.isLt N_0
  by_cases hf : t.val < 98
  · unfold Dat.before; rw [if_pos ((fetch_3 t).mpr hf), Dat.cut_fetched]
    funext y
    show (dats m 0 c).blockOf 3 t y = tagAfter m c t ((cfg0.win 3).xinj _ y)
    unfold Dat.blockOf; rw [A_eq]
    exact (hblk t y).trans rfl
  · have h98 : 98 ≤ t.val := by omega
    unfold Dat.before
    rw [if_neg (by rw [Bool.not_eq_true]; exact Bool.eq_false_iff.mpr (fun hh => hf ((fetch_3 t).mp hh))), if_neg (by omega)]
    dsimp only
    rw [if_neg (by rw [flush_3]; exact Bool.false_ne_true)]
    funext y
    unfold Dat.kept; rw [after_3]
    show (cfg0.win 3).fill (cfg0.grid.coords ⟨t.val - 1, Nat.lt_of_le_of_lt (Nat.sub_le _ _) t.isLt⟩) d _ ((cfg0.win 3).xinj (cfg0.grid.coords t) y) = tagAfter m c t ((cfg0.win 3).xinj (cfg0.grid.coords t) y)
    have hm : (cfg0.win 3).moved (cfg0.grid.coords ⟨t.val - 1, Nat.lt_of_le_of_lt (Nat.sub_le _ _) t.isLt⟩) ((cfg0.win 3).xinj (cfg0.grid.coords t) y) = true := by
      rw [Window.moved_iff]; intro a
      have h : (y a).val < (cfg0.win 3).xsize (cfg0.grid.coords t) a := (y a).isLt
      rw [xsize_3] at h ⊢
      have e1 : ¬ t.val < 97 := by omega
      have e2 : ¬ ((⟨t.val - 1, Nat.lt_of_le_of_lt (Nat.sub_le _ _) t.isLt⟩ : Fin cfg0.N).val < 97) := by show ¬ (t.val - 1 < 97); omega
      rw [if_neg e1] at h; rw [if_neg e2]; exact h
    unfold Window.fill; rw [dif_pos hm]
    have e1 : ablk (t.val - 1) = ablk t.val := by unfold ablk; omega
    show (m ((c : Thread nD τ).loc main_arg3) : S50000.Idx → BitVec 32) (ix1 (rowH (512 * ablk (t.val - 1) + (y 0).val))) = (m ((c : Thread nD τ).loc main_arg3) : S50000.Idx → BitVec 32) (ix1 (rowH (512 * ablk t.val + (y 0).val)))
    rw [e1]

/-- At points 98 and 99 the atom output buffer holds on entry what point 97 left: it is not written back in between, and
    point 98 stores nothing into it. -/
theorem before_15_late (c : Dev nD) (t : Fin cfg0.N) (h98 : 98 ≤ t.val) (d) :
    (dats m 0 c).before 15 t d = (dats m 0 c).kept 15 ⟨97, by decide⟩ d := by
  have hN : t.val < 100 := lt_of_lt_of_eq t.isLt N_0
  have h9 : t.val = 98 ∨ t.val = 99 := by omega
  have step98 : ∀ d, (dats m 0 c).before 15 ⟨98, by decide⟩ d = (dats m 0 c).kept 15 ⟨97, by decide⟩ d := by
    intro d
    unfold Dat.before
    rw [if_neg (by rw [fetch_15]; exact Bool.false_ne_true), if_neg (by decide)]
    dsimp only
    rw [if_neg (by rw [Bool.not_eq_true]; exact Bool.eq_false_iff.mpr (fun hh => by have := (flush_15 _).mp hh; dsimp only at this; omega))]
    split
    · rename_i heq; exact absurd heq (by decide +kernel)
    · rfl
  rcases h9 with h | h
  · obtain rfl : t = ⟨98, by decide⟩ := Fin.ext h
    exact step98 d
  · obtain rfl : t = ⟨99, by decide⟩ := Fin.ext h
    unfold Dat.before
    rw [if_neg (by rw [fetch_15]; exact Bool.false_ne_true), if_neg (by decide)]
    dsimp only
    rw [if_neg (by rw [Bool.not_eq_true]; exact Bool.eq_false_iff.mpr (fun hh => by have := (flush_15 _).mp hh; dsimp only at this; omega))]
    split
    · rw [Dat.found_eq_before]; exact step98 d
    · rename_i heq; exact absurd heq (by decide +kernel)

/-- So on the rows inside the array it holds block 97's rows of the specified result, which is what the proof data names
    at those points too. -/
theorem cut_before_15 (c : Dev nD) (t : Fin cfg0.N) (h98 : 98 ≤ t.val) (d) :
    (cfg0.win 15).cut (cfg0.grid.coords t) ((dats m 0 c).before 15 t d) = (cfg0.win 15).cut (cfg0.grid.coords t) (hAfter m c t) := by
  have hN : t.val < 100 := lt_of_lt_of_eq t.isLt N_0
  rw [before_15_late m c t h98 d]
  funext y
  unfold Dat.kept; rw [after_15]
  show (cfg0.win 15).fill (cfg0.grid.coords ⟨97, by decide⟩) d _ ((cfg0.win 15).xinj (cfg0.grid.coords t) y) = hAfter m c t ((cfg0.win 15).xinj (cfg0.grid.coords t) y)
  have hm : (cfg0.win 15).moved (cfg0.grid.coords ⟨97, by decide⟩) ((cfg0.win 15).xinj (cfg0.grid.coords t) y) = true := by
    rw [Window.moved_iff]; intro a
    have h : (y a).val < (cfg0.win 15).xsize (cfg0.grid.coords t) a := (y a).isLt
    rw [xsize_15] at h ⊢
    have e1 : ¬ t.val < 97 := by omega
    have e2 : ¬ ((⟨97, by decide⟩ : Fin cfg0.N).val < 97) := by show ¬ (97 < 97); omega
    rw [if_neg e1] at h; rw [if_neg e2]; exact h
  unfold Window.fill; rw [dif_pos hm]
  have e1 : ablk 97 = ablk t.val := by unfold ablk; omega
  show GhAt m c (ix2 (rowH (512 * ablk 97 + (y 0).val)) _) = GhAt m c (ix2 (rowH (512 * ablk t.val + (y 0).val)) _)
  rw [e1]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns: a plainly staged buffer at what the proof data names, a clipped one at that on the rows inside the
    array; the atom output buffer, where the body stores nothing into it and it is not written back, as it was found. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (match cfg0.idle 15 (cfg0.grid.coords t) with
      | true => (match (cfg0.win 15).flush t with
        | false => iprop(∃ d, owns (c : Thread nD τ) (st0_15 t) fullShare ((dats m 0 c).before 15 t d))
        | true => iprop(∃ d, owns (c : Thread nD τ) (st0_15 t) fullShare ((cfg0.win 15).fill (cfg0.grid.coords t) d ((cfg0.win 15).cut (cfg0.grid.coords t) ((dats m 0 c).after 15 t)))))
      | false => iprop(∃ d, owns (c : Thread nD τ) (st0_15 t) fullShare ((cfg0.win 15).fill (cfg0.grid.coords t) d ((cfg0.win 15).cut (cfg0.grid.coords t) ((dats m 0 c).after 15 t)))) : sProp 𝕄)
    ∗ owns (c : Thread nD τ) (st0_16 t) fullShare ((dats m 0 c).after 16 t))

set_option maxHeartbeats 16000000 in
/-- The body at any point. -/
theorem sound_body
    (hblk2 : ∀ (c : Dev nD) (t : Fin cfg0.N) (y : ((cfg0.win 2).xblock (cfg0.grid.coords t)).Idx), iblk m c 2 t y = (m ((c : Thread nD τ).loc main_arg0) : S50000.Idx → BitVec 32) (ix1 (rowH (512 * ablk t.val + (y 0).val))))
    (hblk3 : ∀ (c : Dev nD) (t : Fin cfg0.N) (y : ((cfg0.win 3).xblock (cfg0.grid.coords t)).Idx), iblk m c 3 t y = (m ((c : Thread nD τ).loc main_arg3) : S50000.Idx → BitVec 32) (ix1 (rowH (512 * ablk t.val + (y 0).val))))
    (hedge : ∀ (c : Dev nD) (t : Fin cfg0.N), edgeOf (F := Ideal) (iblk m c 0 t) (iblk m c 1 t) (iblk m c 5 t) (iblk m c 6 t) (iblk m c 7 t) (iblk m c 8 t) (iblk m c 9 t) (iblk m c 10 t) = eAfter m c t)
    (hatom : ∀ (c : Dev nD) (t : Fin cfg0.N), t.val < 98 → ∀ (X2 X3 : S512x1.Idx → BitVec 32),
      (cfg0.win 2).cut (cfg0.grid.coords t) X2 = (cfg0.win 2).cut (cfg0.grid.coords t) (zAfter m c t) →
      (cfg0.win 3).cut (cfg0.grid.coords t) X3 = (cfg0.win 3).cut (cfg0.grid.coords t) (tagAfter m c t) →
      (cfg0.win 15).cut (cfg0.grid.coords t) (atomOf (F := Ideal) X2 X3 (iblk m c 4 t) (iblk m c 11 t) (iblk m c 12 t) (iblk m c 13 t) (iblk m c 14 t))
        = (cfg0.win 15).cut (cfg0.grid.coords t) (hAfter m c t))
    (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16]
  have hN : t.val < 100 := lt_of_lt_of_eq t.isLt N_0
  by_cases hc : k0_cond1 (grid0.coords t) = 1#1
  · have ht98 : t.val < 98 := (hcond t).mp hc
    have hid : idle0 15 (grid0.coords t) = false := by
      show (!(k0_cond1 (grid0.coords t) == 1#1)) = false
      rw [hc]; rfl
    split
    · rename_i hh; exact absurd (hh.symm.trans hid) (by decide)
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      iintro ⟨H0, H1, H2, H3, H4, H5, H6, H7, H8, H9, H10, H11, H12, H13, H14, ⟨%e15, H15⟩, ⟨%e16, H16⟩⟩
      isplitl [HΦ]; · iexact HΦ
      isplitl [Ho]; · iexact Ho
      isplitl [H0]; · iexact H0
      isplitl [H1]; · iexact H1
      isplitl [H2]
      · iexists ((dats m 0 c).before 2 t d2)
        rw [Window.fill_congr_cut _ _ (cut_before_2 m c (hblk2 c) t d2)]; iexact H2
      isplitl [H3]
      · iexists ((dats m 0 c).before 3 t d3)
        rw [Window.fill_congr_cut _ _ (cut_before_3 m c (hblk3 c) t d3)]; iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · iexists (atomOf (F := Ideal) ((dats m 0 c).before 2 t d2) ((dats m 0 c).before 3 t d3) (iblk m c 4 t) (iblk m c 11 t) (iblk m c 12 t) (iblk m c 13 t) (iblk m c 14 t))
        rw [Window.fill_congr_cut _ _ (hatom c t ht98 _ _ (cut_before_2 m c (hblk2 c) t d2) (cut_before_3 m c (hblk3 c) t d3))]
        unfold owns; iexists _; isplitr; swap; · iexact H15
        ipureintro
        exact (View.read_writes_of_cover _ _ _ _ _ (coverA15 c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans (outA15_eq c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t))
      unfold owns; iexists _; isplitr; swap; · iexact H16
      ipureintro
      exact ((View.read_writes_of_cover _ _ _ _ _ (coverA16 c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans (outA16_eq c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t))).trans (hedge c t)
  · have h98 : 98 ≤ t.val := by have := (not_congr (hcond t)).mp hc; omega
    have hid : idle0 15 (grid0.coords t) = true := by
      show (!(k0_cond1 (grid0.coords t) == 1#1)) = true
      rw [beq_eq_false_iff_ne.mpr hc]; rfl
    by_cases h99 : t.val = 99
    · have hfl : (cfg0.win 15).flush t = true := (flush_15 t).mpr (Or.inr h99)
      split
      · simp only [hfl]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        iintro ⟨H0, H1, H2, H3, H4, H5, H6, H7, H8, H9, H10, H11, H12, H13, H14, H15, ⟨%e16, H16⟩⟩
        isplitl [HΦ]; · iexact HΦ
        isplitl [Ho]; · iexact Ho
        isplitl [H0]; · iexact H0
        isplitl [H1]; · iexact H1
        isplitl [H2]
        · iexists ((dats m 0 c).before 2 t d2)
          rw [Window.fill_congr_cut _ _ (cut_before_2 m c (hblk2 c) t d2)]; iexact H2
        isplitl [H3]
        · iexists ((dats m 0 c).before 3 t d3)
          rw [Window.fill_congr_cut _ _ (cut_before_3 m c (hblk3 c) t d3)]; iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · iexists ((dats m 0 c).before 15 t d15)
          rw [Window.fill_congr_cut _ _ (cut_before_15 m c t h98 d15)]; iexact H15
        unfold owns; iexists _; isplitr; swap; · iexact H16
        ipureintro
        exact ((View.read_writes_of_cover _ _ _ _ _ (coverB16 c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15))).trans (outB16_eq c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15))).trans (hedge c t)
      · rename_i hh; exact absurd (hh.symm.trans hid) (by decide)
    · have hfl : (cfg0.win 15).flush t = false := Bool.eq_false_iff.mpr (fun hh => by have := (flush_15 t).mp hh; omega)
      split
      · simp only [hfl]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        iintro ⟨H0, H1, H2, H3, H4, H5, H6, H7, H8, H9, H10, H11, H12, H13, H14, H15, ⟨%e16, H16⟩⟩
        isplitl [HΦ]; · iexact HΦ
        isplitl [Ho]; · iexact Ho
        isplitl [H0]; · iexact H0
        isplitl [H1]; · iexact H1
        isplitl [H2]
        · iexists ((dats m 0 c).before 2 t d2)
          rw [Window.fill_congr_cut _ _ (cut_before_2 m c (hblk2 c) t d2)]; iexact H2
        isplitl [H3]
        · iexists ((dats m 0 c).before 3 t d3)
          rw [Window.fill_congr_cut _ _ (cut_before_3 m c (hblk3 c) t d3)]; iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · iexists d15; iexact H15
        unfold owns; iexists _; isplitr; swap; · iexact H16
        ipureintro
        exact ((View.read_writes_of_cover _ _ _ _ _ (coverB16 c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15))).trans (outB16_eq c (grid0.coords t) _ _ _ _ _ _ _ _ _ _ _ _ _ _ _ _ _ _ _ _ _ _ _ _ _ _ _ _ _ _ _ _ _ _ hc (iblk m c 0 t) (iblk m c 1 t) ((dats m 0 c).before 2 t d2) ((dats m 0 c).before 3 t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15))).trans (hedge c t)
      · rename_i hh; exact absurd (hh.symm.trans hid) (by decide)

/-- The library's body obligation (its loose form: the three clipped windows are stated on the rows inside the array). -/
theorem body_obligation
    (hblk2 : ∀ (c : Dev nD) (t : Fin cfg0.N) (y : ((cfg0.win 2).xblock (cfg0.grid.coords t)).Idx), iblk m c 2 t y = (m ((c : Thread nD τ).loc main_arg0) : S50000.Idx → BitVec 32) (ix1 (rowH (512 * ablk t.val + (y 0).val))))
    (hblk3 : ∀ (c : Dev nD) (t : Fin cfg0.N) (y : ((cfg0.win 3).xblock (cfg0.grid.coords t)).Idx), iblk m c 3 t y = (m ((c : Thread nD τ).loc main_arg3) : S50000.Idx → BitVec 32) (ix1 (rowH (512 * ablk t.val + (y 0).val))))
    (hedge : ∀ (c : Dev nD) (t : Fin cfg0.N), edgeOf (F := Ideal) (iblk m c 0 t) (iblk m c 1 t) (iblk m c 5 t) (iblk m c 6 t) (iblk m c 7 t) (iblk m c 8 t) (iblk m c 9 t) (iblk m c 10 t) = eAfter m c t)
    (hatom : ∀ (c : Dev nD) (t : Fin cfg0.N), t.val < 98 → ∀ (X2 X3 : S512x1.Idx → BitVec 32),
      (cfg0.win 2).cut (cfg0.grid.coords t) X2 = (cfg0.win 2).cut (cfg0.grid.coords t) (zAfter m c t) →
      (cfg0.win 3).cut (cfg0.grid.coords t) X3 = (cfg0.win 3).cut (cfg0.grid.coords t) (tagAfter m c t) →
      (cfg0.win 15).cut (cfg0.grid.coords t) (atomOf (F := Ideal) X2 X3 (iblk m c 4 t) (iblk m c 11 t) (iblk m c 12 t) (iblk m c 13 t) (iblk m c 14 t))
        = (cfg0.win 15).cut (cfg0.grid.coords t) (hAfter m c t))
    (c : Dev nD) : BodyObligationLoose (dats m 0 c) (defs₀ (F := Ideal)) Variants.none () Set.univ := fun t => by
  rw [bigSep_W0, bigSep_W0]
  exact sound_body m hblk2 hblk3 hedge hatom c t

set_option backward.isDefEq.respectTransparency.types false in
/-- Every weakly fair execution of the idealized kernel ends, without a fault, with every array of the pipeline at what
    the library computes from the proof data and every other unscoped buffer as the region found it. -/
theorem run_main
    (hblk2 : ∀ (c : Dev nD) (t : Fin cfg0.N) (y : ((cfg0.win 2).xblock (cfg0.grid.coords t)).Idx), iblk m c 2 t y = (m ((c : Thread nD τ).loc main_arg0) : S50000.Idx → BitVec 32) (ix1 (rowH (512 * ablk t.val + (y 0).val))))
    (hblk3 : ∀ (c : Dev nD) (t : Fin cfg0.N) (y : ((cfg0.win 3).xblock (cfg0.grid.coords t)).Idx), iblk m c 3 t y = (m ((c : Thread nD τ).loc main_arg3) : S50000.Idx → BitVec 32) (ix1 (rowH (512 * ablk t.val + (y 0).val))))
    (hedge : ∀ (c : Dev nD) (t : Fin cfg0.N), edgeOf (F := Ideal) (iblk m c 0 t) (iblk m c 1 t) (iblk m c 5 t) (iblk m c 6 t) (iblk m c 7 t) (iblk m c 8 t) (iblk m c 9 t) (iblk m c 10 t) = eAfter m c t)
    (hatom : ∀ (c : Dev nD) (t : Fin cfg0.N), t.val < 98 → ∀ (X2 X3 : S512x1.Idx → BitVec 32),
      (cfg0.win 2).cut (cfg0.grid.coords t) X2 = (cfg0.win 2).cut (cfg0.grid.coords t) (zAfter m c t) →
      (cfg0.win 3).cut (cfg0.grid.coords t) X3 = (cfg0.win 3).cut (cfg0.grid.coords t) (tagAfter m c t) →
      (cfg0.win 15).cut (cfg0.grid.coords t) (atomOf (F := Ideal) X2 X3 (iblk m c 4 t) (iblk m c 11 t) (iblk m c 12 t) (iblk m c 13 t) (iblk m c 14 t))
        = (cfg0.win 15).cut (cfg0.grid.coords t) (hAfter m c t)) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m hblk2 hblk3 hedge hatom c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.LibRectScatter.lean ====
/-
  A scatter that overwrites one rectangle, read at an index.

  The scatter of an a x b update into an A x B array at ONE start index (r0, c0) — both update axes window axes, no
  inserted axis, the two components of the start index naming the two array axes — with the body "take the update"
  is the overwrite of the rectangle [r0, r0 + a) x [c0, c0 + b): entry (n, j) of the result is the update's entry
  (n - r0, j - c0) inside the rectangle and the array's own entry outside it. The scatter is a left fold over the
  update's entries; each entry lands at its own place, so at most one step of the fold touches a given place.
-/
import Idealize.ShloMosaic.PureOps.Ideal
import Idealize.ShloMosaic.Lib.ValueIdx

namespace Idealize.ShloMosaic.RectScatter

open Idealize.ShloMosaic Idealize.ShloMosaic.ValueIdx

section Fold

variable {ι β γ : Type}

/-- A fold of steps none of which changes place i leaves place i as it was. -/
theorem foldl_miss (step : (β → γ) → ι → (β → γ)) (L : List ι) (r : β → γ) (i : β)
    (h : ∀ n ∈ L, ∀ r, step r n i = r i) : L.foldl step r i = r i := by
  induction L generalizing r with
  | nil => rfl
  | cons n L ih =>
    rw [List.foldl_cons, ih _ (fun n' hn' => h n' (List.mem_cons_of_mem _ hn')), h n List.mem_cons_self]

/-- A fold in which step n0 sets place i to c and no other step changes place i leaves c at place i. -/
theorem foldl_hit (step : (β → γ) → ι → (β → γ)) (L : List ι) (r : β → γ) (i : β) (n0 : ι) (c : γ) (hn0 : n0 ∈ L)
    (hhit : ∀ r, step r n0 i = c) (hmiss : ∀ n ∈ L, n ≠ n0 → ∀ r, step r n i = r i) : L.foldl step r i = c := by
  induction L generalizing r with
  | nil => exact absurd hn0 List.not_mem_nil
  | cons n L ih =>
    rw [List.foldl_cons]
    by_cases hmem : n0 ∈ L
    · exact ih _ hmem (fun n' hn' => hmiss n' (List.mem_cons_of_mem _ hn'))
    · have hn : n0 = n := by
        rcases List.mem_cons.mp hn0 with e | e
        · exact e
        · exact absurd e hmem
      subst hn
      rw [foldl_miss step L _ i (fun n' hn' => hmiss n' (List.mem_cons_of_mem _ hn') (fun e => hmem (e ▸ hn')))]
      exact hhit r

end Fold

/-- The dimension numbers of the overwrite of an a x b rectangle of an A x B array at one start index: update window
    axes 0 and 1, no inserted axis, start components to array axes 0 and 1, the index vector on axis 0. -/
abbrev rectDims (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

section Rect

variable {A B a b w : Nat} (wf : ScatterDims.WF ⟨2, ![A, B]⟩ ⟨1, ![2]⟩ ⟨2, ![a, b]⟩ [0, 1] [] [0, 1] 0)
  (idx : IVec ⟨1, ![2]⟩ w) (r0 c0 : Nat)
  (hr : (idx (ix1 (0 : Fin 2))).toInt = r0) (hc : (idx (ix1 (1 : Fin 2))).toInt = c0)
  (hA : r0 + a ≤ A) (hB : c0 + b ≤ B)

include hr hc hA hB in
/-- Update entry (e, c) lands at (r0 + e, c0 + c). -/
theorem resultIdx?_rect (e : Fin a) (c : Fin b) :
    (rectDims A B a b wf).resultIdx? (ix2 e c) idx
      = some (ix2 ⟨r0 + e.val, by have := e.isLt; omega⟩ ⟨c0 + c.val, by have := c.isLt; omega⟩) := by
  have hm0 : (0 : Fin 2) ∈ ([0, 1] : List (Fin 2)) := by decide
  have hm1 : (1 : Fin 2) ∈ ([0, 1] : List (Fin 2)) := by decide
  have hs0 : (rectDims A B a b wf).start (ix2 e c) idx 0 = (idx (ix1 (0 : Fin 2))).toInt := by
    unfold ScatterDims.start
    rw [dif_pos hm0]
    have hsi : ScatterDims.siIdx (rectDims A B a b wf) (ix2 e c)
        ⟨List.idxOf (0 : Fin 2) [0, 1], List.idxOf_lt_length_iff.2 hm0⟩ = ix1 (0 : Fin 2) := by
      funext d; refine Fin.ext ?_
      match d with
      | ⟨0, _⟩ => rfl
    rw [hsi]
  have hs1 : (rectDims A B a b wf).start (ix2 e c) idx 1 = (idx (ix1 (1 : Fin 2))).toInt := by
    unfold ScatterDims.start
    rw [dif_pos hm1]
    have hsi : ScatterDims.siIdx (rectDims A B a b wf) (ix2 e c)
        ⟨List.idxOf (1 : Fin 2) [0, 1], List.idxOf_lt_length_iff.2 hm1⟩ = ix1 (1 : Fin 2) := by
      funext d; refine Fin.ext ?_
      match d with
      | ⟨0, _⟩ => rfl
    rw [hsi]
  have hk0 : (0 : Fin 2) ∈ (rectDims A B a b wf).sKept :=
    List.mem_filter.mpr ⟨List.mem_finRange _, by simp⟩
  have hk1 : (1 : Fin 2) ∈ (rectDims A B a b wf).sKept :=
    List.mem_filter.mpr ⟨List.mem_finRange _, by simp⟩
  have hw0 : (rectDims A B a b wf).window (ix2 e c) 0 = e.val := by
    unfold ScatterDims.window
    rw [dif_pos hk0]
    rfl
  have hw1 : (rectDims A B a b wf).window (ix2 e c) 1 = c.val := by
    unfold ScatterDims.window
    rw [dif_pos hk1]
    rfl
  have hall : ∀ x, 0 ≤ (rectDims A B a b wf).start (ix2 e c) idx x + ((rectDims A B a b wf).window (ix2 e c) x : Int)
      ∧ (rectDims A B a b wf).start (ix2 e c) idx x + ((rectDims A B a b wf).window (ix2 e c) x : Int)
          < ((⟨2, ![A, B]⟩ : Shape).size x : Nat) := by
    intro x
    match x with
    | ⟨0, _⟩ =>
      show 0 ≤ (rectDims A B a b wf).start (ix2 e c) idx 0 + ((rectDims A B a b wf).window (ix2 e c) 0 : Int)
        ∧ (rectDims A B a b wf).start (ix2 e c) idx 0 + ((rectDims A B a b wf).window (ix2 e c) 0 : Int) < (A : Int)
      rw [hs0, hw0, hr]; have := e.isLt; omega
    | ⟨1, _⟩ =>
      show 0 ≤ (rectDims A B a b wf).start (ix2 e c) idx 1 + ((rectDims A B a b wf).window (ix2 e c) 1 : Int)
        ∧ (rectDims A B a b wf).start (ix2 e c) idx 1 + ((rectDims A B a b wf).window (ix2 e c) 1 : Int) < (B : Int)
      rw [hs1, hw1, hc]; have := c.isLt; omega
  unfold ScatterDims.resultIdx?
  rw [dif_pos hall]
  congr 1
  funext x; refine Fin.ext ?_
  match x with
  | ⟨0, _⟩ =>
    show ((rectDims A B a b wf).start (ix2 e c) idx 0 + ((rectDims A B a b wf).window (ix2 e c) 0 : Int)).toNat = r0 + e.val
    rw [hs0, hw0, hr]; omega
  | ⟨1, _⟩ =>
    show ((rectDims A B a b wf).start (ix2 e c) idx 1 + ((rectDims A B a b wf).window (ix2 e c) 1 : Int)).toNat = c0 + c.val
    rw [hs1, hw1, hc]; omega

include hr hc hA hB in
/-- The overwrite read at (n, j): the update inside the rectangle, the array outside. -/
theorem scatter_rect_apply {α : Type} (x : (⟨2, ![A, B]⟩ : Shape).Idx → α) (upd : (⟨2, ![a, b]⟩ : Shape).Idx → α)
    (n : Fin A) (j : Fin B) :
    Host.scatter (rectDims A B a b wf) (fun _ v => v) x idx upd (ix2 n j)
      = if h : (r0 ≤ n.val ∧ n.val < r0 + a) ∧ (c0 ≤ j.val ∧ j.val < c0 + b) then
          upd (ix2 ⟨n.val - r0, by omega⟩ ⟨j.val - c0, by omega⟩)
        else x (ix2 n j) := by
  unfold Host.scatter
  by_cases h : (r0 ≤ n.val ∧ n.val < r0 + a) ∧ (c0 ≤ j.val ∧ j.val < c0 + b)
  · rw [dif_pos h]
    refine foldl_hit _ _ _ _
      ((⟨2, ![a, b]⟩ : Shape).rowMajor (ix2 ⟨n.val - r0, by omega⟩ ⟨j.val - c0, by omega⟩)) _ (List.mem_finRange _) ?_ ?_
    · intro r
      dsimp only
      rw [Equiv.symm_apply_apply, resultIdx?_rect wf idx r0 c0 hr hc hA hB]
      dsimp only
      rw [if_pos]
      funext d
      match d with
      | ⟨0, _⟩ => exact Fin.ext (by show n.val = r0 + (n.val - r0); omega)
      | ⟨1, _⟩ => exact Fin.ext (by show j.val = c0 + (j.val - c0); omega)
    · intro n' _ hne r
      dsimp only
      obtain ⟨y0, y1, hy⟩ : ∃ y0 y1, (⟨2, ![a, b]⟩ : Shape).rowMajor.symm n' = ix2 y0 y1 := ⟨_, _, eq_ix2 _⟩
      rw [hy, resultIdx?_rect wf idx r0 c0 hr hc hA hB]
      dsimp only
      rw [if_neg]
      intro heq
      apply hne
      have h0 : n.val = r0 + y0.val := congrArg Fin.val (congrFun heq 0)
      have h1 : j.val = c0 + y1.val := congrArg Fin.val (congrFun heq 1)
      have e0 : y0 = ⟨n.val - r0, by omega⟩ := Fin.ext (by show y0.val = n.val - r0; omega)
      have e1 : y1 = ⟨j.val - c0, by omega⟩ := Fin.ext (by show y1.val = j.val - c0; omega)
      rw [← e0, ← e1, ← hy, Equiv.apply_symm_apply]
  · rw [dif_neg h]
    refine foldl_miss _ _ _ _ ?_
    intro n' _ r
    dsimp only
    obtain ⟨y0, y1, hy⟩ : ∃ y0 y1, (⟨2, ![a, b]⟩ : Shape).rowMajor.symm n' = ix2 y0 y1 := ⟨_, _, eq_ix2 _⟩
    rw [hy, resultIdx?_rect wf idx r0 c0 hr hc hA hB]
    dsimp only
    rw [if_neg]
    intro heq
    apply h
    have h0 : n.val = r0 + y0.val := congrArg Fin.val (congrFun heq 0)
    have h1 : j.val = c0 + y1.val := congrArg Fin.val (congrFun heq 1)
    have := y0.isLt; have := y1.isLt
    omega

end Rect

end Idealize.ShloMosaic.RectScatter
-- ==== Proof.LibColumnCast.lean ====
import Idealize.ShloMosaic.Lib.Pipeline.Value
import Idealize.ShloMosaic.Lib.ValueIdx

/-!
# A vector recast as a column, and back, read at an index

Recasting a vector `[N]` as a column `[N, 1]` (or a column as a vector) keeps the row-major order,
so entry `(n, 0)` of the column is entry `n` of the vector.
-/

noncomputable section

namespace LibColumnCast

open Idealize.ShloMosaic Idealize.ShloMosaic.ValueIdx

variable {α : Type}

/-- A vector `[N]` recast as a column `[N, 1]`, read at `(n, z)`, is the vector at `n`. -/
theorem shapeCast_col_apply {N : Nat} (h : (⟨1, ![N]⟩ : Shape).ShapeCasts ⟨2, ![N, 1]⟩)
    (x : (⟨1, ![N]⟩ : Shape).Idx → α) (n : Fin N) (z : Fin 1) :
    shapeCast ⟨2, ![N, 1]⟩ x h (ix2 n z) = x (ix1 n) := by
  refine shapeCast_apply x h (ix2 n z) (ix1 n) ?_
  rw [Shape.rowMajor_val_one, Shape.rowMajor_val_two]
  show n.val = n.val * 1 + z.val
  have := z.isLt
  omega

/-- A column `[N, 1]` recast as a vector `[N]`, read at `n`, is the column at `(n, 0)`. -/
theorem shapeCast_flat_apply {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h (ix1 n) (ix2 n (0 : Fin 1)) ?_
  rw [Shape.rowMajor_val_one, Shape.rowMajor_val_two]
  show n.val * 1 + 0 = n.val
  omega

end LibColumnCast

end
-- ==== Proof.TableRead.lean ====
/-
  What the region finds in the arrays the host prepared before it, read at an index.

  The index columns are the index vectors recast [50000] -> [50000, 1]; each bias row is the bias vector recast
  [n] -> [1, n]; the padded 88 x 256 table is the all-zero array overwritten first on rows 0..84, columns 0..223 by
  the embedding table and then on rows 85..87, columns 224..255 by the tag table, so entry (n, j) is
  emb(n, j) on the first rectangle, tag(n - 85, j - 224) on the second, and 0 elsewhere.
-/
import proofs.«123452_g13383118094390_cont_week2b_154_27_alg».proof.Proof.Gen.KernelIdeal.Frame
import proofs.«123452_g13383118094390_cont_week2b_154_27_alg».proof.Proof.LibRectScatter
import proofs.«123452_g13383118094390_cont_week2b_154_27_alg».proof.Proof.LibColumnCast
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators
open Idealize.ShloMosaic Idealize.ShloMosaic.ValueIdx Idealize.ShloMosaic.TcCoe

namespace Cert.KernelIdeal.HostValue

open Cert.KernelIdeal Cert.KernelIdeal.Gen

/-- The start index of an overwrite: the two one-word arrays r and c joined, read as signed numbers. -/
theorem start_pair (r c : BitVec 32) (h0 : S_.BroadcastsInDim S1 ![]) (h : Shape.Concatenates [S1, S1] S2 0) :
    (concatenate S2 0 [⟨S1, broadcastInDim S1 ![] h0 (constantI S_ 32 r)⟩, ⟨S1, broadcastInDim S1 ![] h0 (constantI S_ 32 c)⟩] h
        (ix1 (0 : Fin 2))) = r
    ∧ (concatenate S2 0 [⟨S1, broadcastInDim S1 ![] h0 (constantI S_ 32 r)⟩, ⟨S1, broadcastInDim S1 ![] h0 (constantI S_ 32 c)⟩] h
        (ix1 (1 : Fin 2))) = c := by
  constructor
  · refine (concatenate_pair_apply_left (0 : Fin S2.rank) _ _ h (ix1 (0 : Fin 2)) rfl (ix1 (0 : Fin 1)) ?_).trans ?_
    · intro b
      match b with
      | ⟨0, _⟩ => rfl
    · exact broadcastInDim_scalar_apply h0 _ _
  · refine (concatenate_pair_apply_right (0 : Fin S2.rank) _ _ h (ix1 (1 : Fin 2)) rfl rfl (ix1 (0 : Fin 1)) ?_ ?_).trans ?_
    · intro b hb
      match b with
      | ⟨0, _⟩ => exact absurd rfl hb
    · rfl
    · exact broadcastInDim_scalar_apply h0 _ _

variable (m : (ℓ : Loc nD τ sig) → Buf (Elt Ideal) ℓ)

/-- The atomic-number column: entry (r, 0) is z(r). -/
theorem V_zcol (c : Dev nD) (r : Fin 50000) :
    (Gen.V (F := Ideal) m c main_v9 : S50000x1.Idx → BitVec 32) (ix2 r 0)
      = (m ((c : Thread nD τ).loc main_arg0) : S50000.Idx → BitVec 32) (ix1 r) := by
  have e : (Gen.V (F := Ideal) m c main_v9 : S50000x1.Idx → BitVec 32)
      = shapeCast S50000x1 (m ((c : Thread nD τ).loc main_arg0) : S50000.Idx → BitVec 32) Facts₀.shapeCasts_S50000_S50000x1 := by
    dsimp only [Gen.V, Gen.hostOps0]
    after_results
    rfl
  rw [e]
  exact LibColumnCast.shapeCast_col_apply _ _ r 0

/-- The tag column: entry (r, 0) is tag(r). -/
theorem V_tagcol (c : Dev nD) (r : Fin 50000) :
    (Gen.V (F := Ideal) m c main_v10 : S50000x1.Idx → BitVec 32) (ix2 r 0)
      = (m ((c : Thread nD τ).loc main_arg3) : S50000.Idx → BitVec 32) (ix1 r) := by
  have e : (Gen.V (F := Ideal) m c main_v10 : S50000x1.Idx → BitVec 32)
      = shapeCast S50000x1 (m ((c : Thread nD τ).loc main_arg3) : S50000.Idx → BitVec 32) Facts₀.shapeCasts_S50000_S50000x1 := by
    dsimp only [Gen.V, Gen.hostOps0]
    after_results
    rfl
  rw [e]
  exact LibColumnCast.shapeCast_col_apply _ _ r 0

/-- The bias row of the position projection: entry (0, q) is b_e1(q). -/
theorem V_bias_e1 (c : Dev nD) (q : Fin 64) :
    (Gen.V (F := Ideal) m c main_v11 : S1x64.Idx → EReal) (ix2 0 q)
      = (m ((c : Thread nD τ).loc main_arg11) : S64.Idx → EReal) (ix1 q) := by
  have e : (Gen.V (F := Ideal) m c main_v11 : S1x64.Idx → EReal)
      = shapeCast S1x64 (m ((c : Thread nD τ).loc main_arg11) : S64.Idx → EReal) Facts₀.shapeCasts_S64_S1x64 := by
    dsimp only [Gen.V, Gen.hostOps0]
    after_results
    rfl
  rw [e]
  exact shapeCast_a_1a_apply _ _ 0 q

/-- The bias row of the attribute projection: entry (0, q) is b_e12(q). -/
theorem V_bias_e12 (c : Dev nD) (q : Fin 64) :
    (Gen.V (F := Ideal) m c main_v12 : S1x64.Idx → EReal) (ix2 0 q)
      = (m ((c : Thread nD τ).loc main_arg13) : S64.Idx → EReal) (ix1 q) := by
  have e : (Gen.V (F := Ideal) m c main_v12 : S1x64.Idx → EReal)
      = shapeCast S1x64 (m ((c : Thread nD τ).loc main_arg13) : S64.Idx → EReal) Facts₀.shapeCasts_S64_S1x64 := by
    dsimp only [Gen.V, Gen.hostOps0]
    after_results
    rfl
  rw [e]
  exact shapeCast_a_1a_apply _ _ 0 q

/-- The bias row of the edge output layer: entry (0, q) is b_e2(q). -/
theorem V_bias_e2 (c : Dev nD) (q : Fin 128) :
    (Gen.V (F := Ideal) m c main_v13 : S1x128.Idx → EReal) (ix2 0 q)
      = (m ((c : Thread nD τ).loc main_arg15) : S128.Idx → EReal) (ix1 q) := by
  have e : (Gen.V (F := Ideal) m c main_v13 : S1x128.Idx → EReal)
      = shapeCast S1x128 (m ((c : Thread nD τ).loc main_arg15) : S128.Idx → EReal) Facts₀.shapeCasts_S128_S1x128 := by
    dsimp only [Gen.V, Gen.hostOps0]
    after_results
    rfl
  rw [e]
  exact shapeCast_a_1a_apply _ _ 0 q

/-- The bias row of the first atom layer: entry (0, q) is b_lin(q). -/
theorem V_bias_lin (c : Dev nD) (q : Fin 256) :
    (Gen.V (F := Ideal) m c main_v14 : S1x256.Idx → EReal) (ix2 0 q)
      = (m ((c : Thread nD τ).loc main_arg7) : S256.Idx → EReal) (ix1 q) := by
  have e : (Gen.V (F := Ideal) m c main_v14 : S1x256.Idx → EReal)
      = shapeCast S1x256 (m ((c : Thread nD τ).loc main_arg7) : S256.Idx → EReal) Facts₀.shapeCasts_S256_S1x256 := by
    dsimp only [Gen.V, Gen.hostOps0]
    after_results
    rfl
  rw [e]
  exact shapeCast_a_1a_apply _ _ 0 q

/-- The bias row of the second atom layer: entry (0, q) is b_lin2(q). -/
theorem V_bias_lin2 (c : Dev nD) (q : Fin 256) :
    (Gen.V (F := Ideal) m c main_v15 : S1x256.Idx → EReal) (ix2 0 q)
      = (m ((c : Thread nD τ).loc main_arg9) : S256.Idx → EReal) (ix1 q) := by
  have e : (Gen.V (F := Ideal) m c main_v15 : S1x256.Idx → EReal)
      = shapeCast S1x256 (m ((c : Thread nD τ).loc main_arg9) : S256.Idx → EReal) Facts₀.shapeCasts_S256_S1x256 := by
    dsimp only [Gen.V, Gen.hostOps0]
    after_results
    rfl
  rw [e]
  exact shapeCast_a_1a_apply _ _ 0 q

/-- The padded table: entry (n, j) is emb(n, j) for n < 85 and j < 224, tag(n - 85, j - 224) for n >= 85 and j >= 224,
    and zero elsewhere. -/
theorem V_table (c : Dev nD) (n : Fin 88) (j : Fin 256) :
    (Gen.V (F := Ideal) m c main_v8 : S88x256.Idx → EReal) (ix2 n j)
      = ((if hn : n.val < 85 then
          (if hj : j.val < 224 then
            ((m ((c : Thread nD τ).loc main_arg4) : S85x224.Idx → EReal) (ix2 ⟨n.val, hn⟩ ⟨j.val, hj⟩) : EReal)
           else (0 : EReal))
        else
          (if hj : j.val < 224 then (0 : EReal)
           else ((m ((c : Thread nD τ).loc main_arg5) : S3x32.Idx → EReal)
             (ix2 ⟨n.val - 85, by have := n.isLt; omega⟩ ⟨j.val - 224, by have := j.isLt; omega⟩) : EReal))) : EReal) := by
  have e : (Gen.V (F := Ideal) m c main_v8 : S88x256.Idx → EReal)
      = Host.scatter (RectScatter.rectDims 88 256 3 32 Facts₀.scatter_S88x256_S2_S3x32_01_n_01_0_wf) (fun _ b => b)
          (Host.scatter (RectScatter.rectDims 88 256 85 224 Facts₀.scatter_S88x256_S2_S85x224_01_n_01_0_wf) (fun _ b => b)
            (broadcastInDim S88x256 ![] Facts₀.bcast_S_S88x256 (constant (F := Ideal) S_ .f32 0x00000000#32))
            (concatenate S2 0
              [⟨S1, broadcastInDim S1 ![] Facts₀.bcast_S_S1 (constantI S_ 32 0#32)⟩,
                ⟨S1, broadcastInDim S1 ![] Facts₀.bcast_S_S1 (constantI S_ 32 0#32)⟩]
              Facts₀.concatenates_S1_S1_S2_d0)
            (m ((c : Thread nD τ).loc main_arg4) : S85x224.Idx → EReal))
          (concatenate S2 0
            [⟨S1, broadcastInDim S1 ![] Facts₀.bcast_S_S1 (constantI S_ 32 85#32)⟩,
              ⟨S1, broadcastInDim S1 ![] Facts₀.bcast_S_S1 (constantI S_ 32 224#32)⟩]
            Facts₀.concatenates_S1_S1_S2_d0)
          (m ((c : Thread nD τ).loc main_arg5) : S3x32.Idx → EReal) := by
    dsimp only [Gen.V, Gen.hostOps0]
    after_results
    rfl
  rw [e]
  have s0 := start_pair 0#32 0#32 Facts₀.bcast_S_S1 Facts₀.concatenates_S1_S1_S2_d0
  have s1 := start_pair 85#32 224#32 Facts₀.bcast_S_S1 Facts₀.concatenates_S1_S1_S2_d0
  rw [RectScatter.scatter_rect_apply _ _ 85 224 (by rw [s1.1]; decide) (by rw [s1.2]; decide) (by decide) (by decide),
    RectScatter.scatter_rect_apply _ _ 0 0 (by rw [s0.1]; decide) (by rw [s0.2]; decide) (by decide) (by decide)]
  have hz : broadcastInDim S88x256 ![] Facts₀.bcast_S_S88x256 (constant (F := Ideal) S_ .f32 0x00000000#32) (ix2 n j) = 0 :=
    (broadcastInDim_scalar_apply _ _ _).trans Ideal.ofBits_zero_f32
  rw [hz]
  have hnlt := n.isLt
  have hjlt := j.isLt
  by_cases hn : n.val < 85
  · rw [dif_pos hn, dif_neg (by omega)]
    by_cases hj : j.val < 224
    · rw [dif_pos hj, dif_pos (by omega)]
      rfl
    · rw [dif_neg hj, dif_neg (by omega)]
  · rw [dif_neg hn]
    by_cases hj : j.val < 224
    · rw [dif_pos hj, dif_neg (by omega), dif_neg (by omega)]
    · rw [dif_neg hj, dif_pos (by omega)]

end Cert.KernelIdeal.HostValue
-- ==== Proof.BlockRead.lean ====
/-
  The blocks the grid points are handed, read at an index, in terms of the argument arrays.

  A block's entry sits in its array, on each axis, at block index times block size plus the coordinate inside the
  block. The two edge inputs move with the grid point (block index (t, 0), 8000 rows a block), so row p of the block at
  point t is row 8000 t + p of the array. The two index columns move with min(t, 97) (512 rows a block, the last block
  cut at the array's end), so row y of the block is row 512 min(t, 97) + y. Every other input is handed whole (block
  index (0, 0)): the block is the array, which for the bias rows and the padded table is what the host prepared.
-/
import proofs.«123452_g13383118094390_cont_week2b_154_27_alg».proof.Proof.Gen.KernelIdeal.Frame
import proofs.«123452_g13383118094390_cont_week2b_154_27_alg».proof.Proof.DataIdeal
import proofs.«123452_g13383118094390_cont_week2b_154_27_alg».proof.Proof.TableRead
import Idealize.ShloMosaic.Lib.ValueIdx
import Idealize.ShloMosaic.Lib.Pipeline.Value

noncomputable section

open scoped BigOperators
open Idealize.ShloMosaic Idealize.ShloMosaic.ValueIdx Idealize.ShloMosaic.TcCoe

namespace Cert.KernelIdeal.HostValue

open Cert.KernelIdeal Cert.KernelIdeal.Gen

variable (m : (ℓ : Loc nD τ sig) → Buf (Elt Ideal) ℓ)

/-- The block index of the two edge input windows at grid point t is (t, 0). -/
theorem idx_edge : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of the position block at point t is row 8000 t + p of the position array. -/
theorem iblk_0 (c : Dev nD) (t : Fin cfg0.N) (p : Fin 8000) (a : Fin 3) :
    (Gen.iblk (F := Ideal) m c 0 t : S8000x3.Idx → EReal) (ix2 p a)
      = (m ((c : Thread nD τ).loc main_arg1) : S800000x3.Idx → EReal) (ix2 (Cert.KernelIdeal.Body.rowE (8000 * t.val + p.val)) a) := by
  obtain ⟨e0, e1, -, -⟩ := idx_edge t
  have ht : t.val < 100 := t.isLt
  unfold Gen.iblk
  show Gen.V m c main_arg1 (((cfg0.win 0).blk t).view.emb (ix2 p a)) = _
  rw [Gen.V_main_arg1]
  refine congrArg (m ((c : Thread nD τ).loc main_arg1) : S800000x3.Idx → EReal) ?_
  funext d; apply Fin.ext
  match d with
  | ⟨0, _⟩ =>
    show win0_0.index t (0 : Fin 2) * 8000 + 1 * p.val = (8000 * t.val + p.val) % 800000
    rw [e0, Nat.mod_eq_of_lt (by have := p.isLt; omega)]; omega
  | ⟨1, _⟩ =>
    show win0_0.index t (1 : Fin 2) * 3 + 1 * a.val = a.val
    rw [e1]; omega

/-- Row p of the attribute block at point t is row 8000 t + p of the attribute array. -/
theorem iblk_1 (c : Dev nD) (t : Fin cfg0.N) (p : Fin 8000) (a : Fin 50) :
    (Gen.iblk (F := Ideal) m c 1 t : S8000x50.Idx → EReal) (ix2 p a)
      = (m ((c : Thread nD τ).loc main_arg2) : S800000x50.Idx → EReal) (ix2 (Cert.KernelIdeal.Body.rowE (8000 * t.val + p.val)) a) := by
  obtain ⟨-, -, e0, e1⟩ := idx_edge t
  have ht : t.val < 100 := t.isLt
  unfold Gen.iblk
  show Gen.V m c main_arg2 (((cfg0.win 1).blk t).view.emb (ix2 p a)) = _
  rw [Gen.V_main_arg2]
  refine congrArg (m ((c : Thread nD τ).loc main_arg2) : S800000x50.Idx → EReal) ?_
  funext d; apply Fin.ext
  match d with
  | ⟨0, _⟩ =>
    show win0_1.index t (0 : Fin 2) * 8000 + 1 * p.val = (8000 * t.val + p.val) % 800000
    rw [e0, Nat.mod_eq_of_lt (by have := p.isLt; omega)]; omega
  | ⟨1, _⟩ =>
    show win0_1.index t (1 : Fin 2) * 50 + 1 * a.val = a.val
    rw [e1]; omega

/-- The block index of the two atom index windows at grid point t is (min t 97, 0). -/
theorem idx_atom : ∀ t : Fin cfg0.N, win0_2.index t (0 : Fin 2) = min t.val 97 ∧ win0_2.index t (1 : Fin 2) = 0
    ∧ win0_3.index t (0 : Fin 2) = min t.val 97 ∧ win0_3.index t (1 : Fin 2) = 0 :=
  (by decide +kernel : ∀ t : Fin grid0.N, _)

/-- Row y of the atomic-number block at point t is z(512 min(t, 97) + y). -/
theorem iblk_2 (c : Dev nD) (t : Fin cfg0.N) (y : ((cfg0.win 2).xblock (cfg0.grid.coords t)).Idx) :
    (Gen.iblk (F := Ideal) m c 2 t y : BitVec 32)
      = (m ((c : Thread nD τ).loc main_arg0) : S50000.Idx → BitVec 32)
          (ix1 (Cert.KernelIdeal.Body.rowH (512 * Cert.KernelIdeal.Body.ablk t.val + (y 0).val))) := by
  obtain ⟨e0, e1, -, -⟩ := idx_atom t
  have hr : win0_2.index t (0 : Fin 2) * 512 + 1 * (y 0).val < 50000 := ((((cfg0.win 2).blk t).view.emb y) 0).isLt
  have hi : ((cfg0.win 2).blk t).view.emb y
      = (ix2 (⟨win0_2.index t (0 : Fin 2) * 512 + 1 * (y 0).val, hr⟩ : Fin 50000) (0 : Fin 1) : S50000x1.Idx) := by
    funext d
    match d with
    | ⟨0, _⟩ => rfl
    | ⟨1, _⟩ => exact Subsingleton.elim (α := Fin 1) _ _
  unfold Gen.iblk
  refine (congrArg (Gen.V (F := Ideal) m c main_v9 : S50000x1.Idx → BitVec 32) hi).trans ((V_zcol m c _).trans ?_)
  refine congrArg (m ((c : Thread nD τ).loc main_arg0) : S50000.Idx → BitVec 32) ?_
  funext d; apply Fin.ext
  match d with
  | ⟨0, _⟩ =>
    show win0_2.index t (0 : Fin 2) * 512 + 1 * (y 0).val = (512 * min t.val 97 + (y 0).val) % 50000
    rw [e0] at hr ⊢
    rw [Nat.mod_eq_of_lt (by omega)]; omega

/-- Row y of the tag block at point t is tag(512 min(t, 97) + y). -/
theorem iblk_3 (c : Dev nD) (t : Fin cfg0.N) (y : ((cfg0.win 3).xblock (cfg0.grid.coords t)).Idx) :
    (Gen.iblk (F := Ideal) m c 3 t y : BitVec 32)
      = (m ((c : Thread nD τ).loc main_arg3) : S50000.Idx → BitVec 32)
          (ix1 (Cert.KernelIdeal.Body.rowH (512 * Cert.KernelIdeal.Body.ablk t.val + (y 0).val))) := by
  obtain ⟨-, -, e0, e1⟩ := idx_atom t
  have hr : win0_3.index t (0 : Fin 2) * 512 + 1 * (y 0).val < 50000 := ((((cfg0.win 3).blk t).view.emb y) 0).isLt
  have hi : ((cfg0.win 3).blk t).view.emb y
      = (ix2 (⟨win0_3.index t (0 : Fin 2) * 512 + 1 * (y 0).val, hr⟩ : Fin 50000) (0 : Fin 1) : S50000x1.Idx) := by
    funext d
    match d with
    | ⟨0, _⟩ => rfl
    | ⟨1, _⟩ => exact Subsingleton.elim (α := Fin 1) _ _
  unfold Gen.iblk
  refine (congrArg (Gen.V (F := Ideal) m c main_v10 : S50000x1.Idx → BitVec 32) hi).trans ((V_tagcol m c _).trans ?_)
  refine congrArg (m ((c : Thread nD τ).loc main_arg3) : S50000.Idx → BitVec 32) ?_
  funext d; apply Fin.ext
  match d with
  | ⟨0, _⟩ =>
    show win0_3.index t (0 : Fin 2) * 512 + 1 * (y 0).val = (512 * min t.val 97 + (y 0).val) % 50000
    rw [e0] at hr ⊢
    rw [Nat.mod_eq_of_lt (by omega)]; omega

/-- The block index of window 4 is (0, 0) at every grid point: its block is the whole array. -/
theorem idx_4 : ∀ t : Fin cfg0.N, win0_4.index t (0 : Fin 2) = 0 ∧ win0_4.index t (1 : Fin 2) = 0 :=
  (by decide +kernel : ∀ t : Fin grid0.N, _)

/-- The padded table is handed whole: entry (n, j) is emb(n, j), tag(n - 85, j - 224), or zero. -/
theorem iblk_4 (c : Dev nD) (t : Fin cfg0.N) (n : Fin 88) (j : Fin 256) :
    (Gen.iblk (F := Ideal) m c 4 t : S88x256.Idx → EReal) (ix2 n j)
      = ((if hn : n.val < 85 then
          (if hj : j.val < 224 then
            ((m ((c : Thread nD τ).loc main_arg4) : S85x224.Idx → EReal) (ix2 ⟨n.val, hn⟩ ⟨j.val, hj⟩) : EReal)
           else (0 : EReal))
        else
          (if hj : j.val < 224 then (0 : EReal)
           else ((m ((c : Thread nD τ).loc main_arg5) : S3x32.Idx → EReal)
             (ix2 ⟨n.val - 85, by have := n.isLt; omega⟩ ⟨j.val - 224, by have := j.isLt; omega⟩) : EReal))) : EReal) := by
  obtain ⟨e0, e1⟩ := idx_4 t
  have hi : ((cfg0.win 4).blk t).view.emb (ix2 n j : S88x256.Idx) = (ix2 n j : S88x256.Idx) := by
    funext d; apply Fin.ext
    match d with
    | ⟨0, _⟩ => show win0_4.index t (0 : Fin 2) * 88 + 1 * (n : Fin 88).val = (n : Fin 88).val; rw [e0]; omega
    | ⟨1, _⟩ => show win0_4.index t (1 : Fin 2) * 256 + 1 * (j : Fin 256).val = (j : Fin 256).val; rw [e1]; omega
  unfold Gen.iblk
  exact (congrArg (Gen.V (F := Ideal) m c main_v8 : S88x256.Idx → EReal) hi).trans (V_table m c n j)

/-- The block index of window 5 is (0, 0) at every grid point: its block is the whole array. -/
theorem idx_5 : ∀ t : Fin cfg0.N, win0_5.index t (0 : Fin 2) = 0 ∧ win0_5.index t (1 : Fin 2) = 0 :=
  (by decide +kernel : ∀ t : Fin grid0.N, _)

/-- The position projection's weights are handed whole. -/
theorem iblk_5 (c : Dev nD) (t : Fin cfg0.N) (a : Fin 3) (k : Fin 64) :
    (Gen.iblk (F := Ideal) m c 5 t : S3x64.Idx → EReal) (ix2 a k)
      = (m ((c : Thread nD τ).loc main_arg10) : S3x64.Idx → EReal) (ix2 a k) := by
  obtain ⟨e0, e1⟩ := idx_5 t
  have hi : ((cfg0.win 5).blk t).view.emb (ix2 a k : S3x64.Idx) = (ix2 a k : S3x64.Idx) := by
    funext d; apply Fin.ext
    match d with
    | ⟨0, _⟩ => show win0_5.index t (0 : Fin 2) * 3 + 1 * (a : Fin 3).val = (a : Fin 3).val; rw [e0]; omega
    | ⟨1, _⟩ => show win0_5.index t (1 : Fin 2) * 64 + 1 * (k : Fin 64).val = (k : Fin 64).val; rw [e1]; omega
  unfold Gen.iblk
  refine (congrArg (Gen.V (F := Ideal) m c main_arg10 : S3x64.Idx → EReal) hi).trans ?_
  rw [Gen.V_main_arg10]

/-- The block index of window 6 is (0, 0) at every grid point: its block is the whole array. -/
theorem idx_6 : ∀ t : Fin cfg0.N, win0_6.index t (0 : Fin 2) = 0 ∧ win0_6.index t (1 : Fin 2) = 0 :=
  (by decide +kernel : ∀ t : Fin grid0.N, _)

/-- The position projection's bias row is handed whole: entry (0, k) is b_e1(k). -/
theorem iblk_6 (c : Dev nD) (t : Fin cfg0.N) (k : Fin 64) :
    (Gen.iblk (F := Ideal) m c 6 t : S1x64.Idx → EReal) (ix2 0 k)
      = (m ((c : Thread nD τ).loc main_arg11) : S64.Idx → EReal) (ix1 k) := by
  obtain ⟨e0, e1⟩ := idx_6 t
  have hi : ((cfg0.win 6).blk t).view.emb (ix2 (0 : Fin 1) k : S1x64.Idx) = (ix2 (0 : Fin 1) k : S1x64.Idx) := by
    funext d; apply Fin.ext
    match d with
    | ⟨0, _⟩ => show win0_6.index t (0 : Fin 2) * 1 + 1 * ((0 : Fin 1) : Fin 1).val = ((0 : Fin 1) : Fin 1).val; rw [e0]; omega
    | ⟨1, _⟩ => show win0_6.index t (1 : Fin 2) * 64 + 1 * (k : Fin 64).val = (k : Fin 64).val; rw [e1]; omega
  unfold Gen.iblk
  exact (congrArg (Gen.V (F := Ideal) m c main_v11 : S1x64.Idx → EReal) hi).trans (V_bias_e1 m c k)

/-- The block index of window 7 is (0, 0) at every grid point: its block is the whole array. -/
theorem idx_7 : ∀ t : Fin cfg0.N, win0_7.index t (0 : Fin 2) = 0 ∧ win0_7.index t (1 : Fin 2) = 0 :=
  (by decide +kernel : ∀ t : Fin grid0.N, _)

/-- The attribute projection's weights are handed whole. -/
theorem iblk_7 (c : Dev nD) (t : Fin cfg0.N) (a : Fin 50) (k : Fin 64) :
    (Gen.iblk (F := Ideal) m c 7 t : S50x64.Idx → EReal) (ix2 a k)
      = (m ((c : Thread nD τ).loc main_arg12) : S50x64.Idx → EReal) (ix2 a k) := by
  obtain ⟨e0, e1⟩ := idx_7 t
  have hi : ((cfg0.win 7).blk t).view.emb (ix2 a k : S50x64.Idx) = (ix2 a k : S50x64.Idx) := by
    funext d; apply Fin.ext
    match d with
    | ⟨0, _⟩ => show win0_7.index t (0 : Fin 2) * 50 + 1 * (a : Fin 50).val = (a : Fin 50).val; rw [e0]; omega
    | ⟨1, _⟩ => show win0_7.index t (1 : Fin 2) * 64 + 1 * (k : Fin 64).val = (k : Fin 64).val; rw [e1]; omega
  unfold Gen.iblk
  refine (congrArg (Gen.V (F := Ideal) m c main_arg12 : S50x64.Idx → EReal) hi).trans ?_
  rw [Gen.V_main_arg12]

/-- The block index of window 8 is (0, 0) at every grid point: its block is the whole array. -/
theorem idx_8 : ∀ t : Fin cfg0.N, win0_8.index t (0 : Fin 2) = 0 ∧ win0_8.index t (1 : Fin 2) = 0 :=
  (by decide +kernel : ∀ t : Fin grid0.N, _)

/-- The attribute projection's bias row is handed whole: entry (0, k) is b_e12(k). -/
theorem iblk_8 (c : Dev nD) (t : Fin cfg0.N) (k : Fin 64) :
    (Gen.iblk (F := Ideal) m c 8 t : S1x64.Idx → EReal) (ix2 0 k)
      = (m ((c : Thread nD τ).loc main_arg13) : S64.Idx → EReal) (ix1 k) := by
  obtain ⟨e0, e1⟩ := idx_8 t
  have hi : ((cfg0.win 8).blk t).view.emb (ix2 (0 : Fin 1) k : S1x64.Idx) = (ix2 (0 : Fin 1) k : S1x64.Idx) := by
    funext d; apply Fin.ext
    match d with
    | ⟨0, _⟩ => show win0_8.index t (0 : Fin 2) * 1 + 1 * ((0 : Fin 1) : Fin 1).val = ((0 : Fin 1) : Fin 1).val; rw [e0]; omega
    | ⟨1, _⟩ => show win0_8.index t (1 : Fin 2) * 64 + 1 * (k : Fin 64).val = (k : Fin 64).val; rw [e1]; omega
  unfold Gen.iblk
  exact (congrArg (Gen.V (F := Ideal) m c main_v12 : S1x64.Idx → EReal) hi).trans (V_bias_e12 m c k)

/-- The block index of window 9 is (0, 0) at every grid point: its block is the whole array. -/
theorem idx_9 : ∀ t : Fin cfg0.N, win0_9.index t (0 : Fin 2) = 0 ∧ win0_9.index t (1 : Fin 2) = 0 :=
  (by decide +kernel : ∀ t : Fin grid0.N, _)

/-- The edge output layer's weights are handed whole. -/
theorem iblk_9 (c : Dev nD) (t : Fin cfg0.N) (a : Fin 128) (k : Fin 128) :
    (Gen.iblk (F := Ideal) m c 9 t : S128x128.Idx → EReal) (ix2 a k)
      = (m ((c : Thread nD τ).loc main_arg14) : S128x128.Idx → EReal) (ix2 a k) := by
  obtain ⟨e0, e1⟩ := idx_9 t
  have hi : ((cfg0.win 9).blk t).view.emb (ix2 a k : S128x128.Idx) = (ix2 a k : S128x128.Idx) := by
    funext d; apply Fin.ext
    match d with
    | ⟨0, _⟩ => show win0_9.index t (0 : Fin 2) * 128 + 1 * (a : Fin 128).val = (a : Fin 128).val; rw [e0]; omega
    | ⟨1, _⟩ => show win0_9.index t (1 : Fin 2) * 128 + 1 * (k : Fin 128).val = (k : Fin 128).val; rw [e1]; omega
  unfold Gen.iblk
  refine (congrArg (Gen.V (F := Ideal) m c main_arg14 : S128x128.Idx → EReal) hi).trans ?_
  rw [Gen.V_main_arg14]

/-- The block index of window 10 is (0, 0) at every grid point: its block is the whole array. -/
theorem idx_10 : ∀ t : Fin cfg0.N, win0_10.index t (0 : Fin 2) = 0 ∧ win0_10.index t (1 : Fin 2) = 0 :=
  (by decide +kernel : ∀ t : Fin grid0.N, _)

/-- The edge output layer's bias row is handed whole: entry (0, k) is b_e2(k). -/
theorem iblk_10 (c : Dev nD) (t : Fin cfg0.N) (k : Fin 128) :
    (Gen.iblk (F := Ideal) m c 10 t : S1x128.Idx → EReal) (ix2 0 k)
      = (m ((c : Thread nD τ).loc main_arg15) : S128.Idx → EReal) (ix1 k) := by
  obtain ⟨e0, e1⟩ := idx_10 t
  have hi : ((cfg0.win 10).blk t).view.emb (ix2 (0 : Fin 1) k : S1x128.Idx) = (ix2 (0 : Fin 1) k : S1x128.Idx) := by
    funext d; apply Fin.ext
    match d with
    | ⟨0, _⟩ => show win0_10.index t (0 : Fin 2) * 1 + 1 * ((0 : Fin 1) : Fin 1).val = ((0 : Fin 1) : Fin 1).val; rw [e0]; omega
    | ⟨1, _⟩ => show win0_10.index t (1 : Fin 2) * 128 + 1 * (k : Fin 128).val = (k : Fin 128).val; rw [e1]; omega
  unfold Gen.iblk
  exact (congrArg (Gen.V (F := Ideal) m c main_v13 : S1x128.Idx → EReal) hi).trans (V_bias_e2 m c k)

/-- The block index of window 11 is (0, 0) at every grid point: its block is the whole array. -/
theorem idx_11 : ∀ t : Fin cfg0.N, win0_11.index t (0 : Fin 2) = 0 ∧ win0_11.index t (1 : Fin 2) = 0 :=
  (by decide +kernel : ∀ t : Fin grid0.N, _)

/-- The first atom layer's weights are handed whole. -/
theorem iblk_11 (c : Dev nD) (t : Fin cfg0.N) (a : Fin 256) (k : Fin 256) :
    (Gen.iblk (F := Ideal) m c 11 t : S256x256.Idx → EReal) (ix2 a k)
      = (m ((c : Thread nD τ).loc main_arg6) : S256x256.Idx → EReal) (ix2 a k) := by
  obtain ⟨e0, e1⟩ := idx_11 t
  have hi : ((cfg0.win 11).blk t).view.emb (ix2 a k : S256x256.Idx) = (ix2 a k : S256x256.Idx) := by
    funext d; apply Fin.ext
    match d with
    | ⟨0, _⟩ => show win0_11.index t (0 : Fin 2) * 256 + 1 * (a : Fin 256).val = (a : Fin 256).val; rw [e0]; omega
    | ⟨1, _⟩ => show win0_11.index t (1 : Fin 2) * 256 + 1 * (k : Fin 256).val = (k : Fin 256).val; rw [e1]; omega
  unfold Gen.iblk
  refine (congrArg (Gen.V (F := Ideal) m c main_arg6 : S256x256.Idx → EReal) hi).trans ?_
  rw [Gen.V_main_arg6]

/-- The block index of window 12 is (0, 0) at every grid point: its block is the whole array. -/
theorem idx_12 : ∀ t : Fin cfg0.N, win0_12.index t (0 : Fin 2) = 0 ∧ win0_12.index t (1 : Fin 2) = 0 :=
  (by decide +kernel : ∀ t : Fin grid0.N, _)

/-- The first atom layer's bias row is handed whole: entry (0, k) is b_lin(k). -/
theorem iblk_12 (c : Dev nD) (t : Fin cfg0.N) (k : Fin 256) :
    (Gen.iblk (F := Ideal) m c 12 t : S1x256.Idx → EReal) (ix2 0 k)
      = (m ((c : Thread nD τ).loc main_arg7) : S256.Idx → EReal) (ix1 k) := by
  obtain ⟨e0, e1⟩ := idx_12 t
  have hi : ((cfg0.win 12).blk t).view.emb (ix2 (0 : Fin 1) k : S1x256.Idx) = (ix2 (0 : Fin 1) k : S1x256.Idx) := by
    funext d; apply Fin.ext
    match d with
    | ⟨0, _⟩ => show win0_12.index t (0 : Fin 2) * 1 + 1 * ((0 : Fin 1) : Fin 1).val = ((0 : Fin 1) : Fin 1).val; rw [e0]; omega
    | ⟨1, _⟩ => show win0_12.index t (1 : Fin 2) * 256 + 1 * (k : Fin 256).val = (k : Fin 256).val; rw [e1]; omega
  unfold Gen.iblk
  exact (congrArg (Gen.V (F := Ideal) m c main_v14 : S1x256.Idx → EReal) hi).trans (V_bias_lin m c k)

/-- The block index of window 13 is (0, 0) at every grid point: its block is the whole array. -/
theorem idx_13 : ∀ t : Fin cfg0.N, win0_13.index t (0 : Fin 2) = 0 ∧ win0_13.index t (1 : Fin 2) = 0 :=
  (by decide +kernel : ∀ t : Fin grid0.N, _)

/-- The second atom layer's weights are handed whole. -/
theorem iblk_13 (c : Dev nD) (t : Fin cfg0.N) (a : Fin 256) (k : Fin 256) :
    (Gen.iblk (F := Ideal) m c 13 t : S256x256.Idx → EReal) (ix2 a k)
      = (m ((c : Thread nD τ).loc main_arg8) : S256x256.Idx → EReal) (ix2 a k) := by
  obtain ⟨e0, e1⟩ := idx_13 t
  have hi : ((cfg0.win 13).blk t).view.emb (ix2 a k : S256x256.Idx) = (ix2 a k : S256x256.Idx) := by
    funext d; apply Fin.ext
    match d with
    | ⟨0, _⟩ => show win0_13.index t (0 : Fin 2) * 256 + 1 * (a : Fin 256).val = (a : Fin 256).val; rw [e0]; omega
    | ⟨1, _⟩ => show win0_13.index t (1 : Fin 2) * 256 + 1 * (k : Fin 256).val = (k : Fin 256).val; rw [e1]; omega
  unfold Gen.iblk
  refine (congrArg (Gen.V (F := Ideal) m c main_arg8 : S256x256.Idx → EReal) hi).trans ?_
  rw [Gen.V_main_arg8]

/-- The block index of window 14 is (0, 0) at every grid point: its block is the whole array. -/
theorem idx_14 : ∀ t : Fin cfg0.N, win0_14.index t (0 : Fin 2) = 0 ∧ win0_14.index t (1 : Fin 2) = 0 :=
  (by decide +kernel : ∀ t : Fin grid0.N, _)

/-- The second atom layer's bias row is handed whole: entry (0, k) is b_lin2(k). -/
theorem iblk_14 (c : Dev nD) (t : Fin cfg0.N) (k : Fin 256) :
    (Gen.iblk (F := Ideal) m c 14 t : S1x256.Idx → EReal) (ix2 0 k)
      = (m ((c : Thread nD τ).loc main_arg9) : S256.Idx → EReal) (ix1 k) := by
  obtain ⟨e0, e1⟩ := idx_14 t
  have hi : ((cfg0.win 14).blk t).view.emb (ix2 (0 : Fin 1) k : S1x256.Idx) = (ix2 (0 : Fin 1) k : S1x256.Idx) := by
    funext d; apply Fin.ext
    match d with
    | ⟨0, _⟩ => show win0_14.index t (0 : Fin 2) * 1 + 1 * ((0 : Fin 1) : Fin 1).val = ((0 : Fin 1) : Fin 1).val; rw [e0]; omega
    | ⟨1, _⟩ => show win0_14.index t (1 : Fin 2) * 256 + 1 * (k : Fin 256).val = (k : Fin 256).val; rw [e1]; omega
  unfold Gen.iblk
  exact (congrArg (Gen.V (F := Ideal) m c main_v15 : S1x256.Idx → EReal) hi).trans (V_bias_lin2 m c k)

end Cert.KernelIdeal.HostValue
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.PayEdge.lean ====
/-
  The edge branch of the kernel's arithmetic, read at one entry.

  At row p and column q of a block, the value stored is
      silu( sum_k silu(rel_pos(p) · W_e1 + b_e1)(k) · W_e2[k, q]
          + sum_k silu(edge_attr(p) · W_e12 + b_e12)(k) · W_e2[64 + k, q]  +  b_e2(q) ),
  each matrix product being a product into an all-zero block, so a plain sum of products; the kernel writes the
  activation as x · (1 / (1 + e^(0 - x))), and 0 - x = -x on the extended reals.
-/
import proofs.«123452_g13383118094390_cont_week2b_154_27_alg».proof.Proof.Gen.KernelIdeal.Skeleton
import proofs.«123452_g13383118094390_cont_week2b_154_27_alg».proof.Proof.Spec
import proofs.«123452_g13383118094390_cont_week2b_154_27_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.PlainDot

namespace Cert.KernelIdeal.PayValue

open Cert.KernelIdeal Cert.KernelIdeal.Gen

/-- The activation as the kernel spells it, at one value: x · (1 / (1 + e^(0 - x))) is silu x. -/
theorem silu_kernel (x : EReal) :
    x * Ideal.div (Ideal.ofBits .f32 0x3F800000#32)
        (Ideal.ofBits .f32 0x3F800000#32 + Ideal.exp (Ideal.ofBits .f32 0x00000000#32 - x)) = Cert.Spec.silu x := by
  unfold Cert.Spec.silu
  rw [Ideal.ofBits_zero_f32, zero_sub]

/-- The same on a whole block, read at one entry. -/
theorem silu_block_apply {s : Shape} (x : FVec Ideal s .f32) (i : s.Idx) :
    mulf x (divf (broadcast s (Scalar.ofBits .f32 0x3F800000#32))
      (addf (broadcast s (Scalar.ofBits .f32 0x3F800000#32))
        (exp (subf (broadcast s (Scalar.ofBits .f32 0x00000000#32)) x)))) i = Cert.Spec.silu (x i) :=
  silu_kernel (x i)

/-- A bias row [1, n] laid under every row of a block, read at (p, q), is its entry q. -/
theorem bias_apply {a n : Nat} (b : FVec Ideal ⟨2, ![1, n]⟩ .f32) (h : (⟨2, ![1, n]⟩ : Shape).ShapeCasts ⟨2, ![1, n]⟩)
    (h' : (⟨2, ![1, n]⟩ : Shape).Broadcasts ⟨2, ![a, n]⟩) (p : Fin a) (q : Fin n) :
    broadcastTo ⟨2, ![a, n]⟩ (shapeCast ⟨2, ![1, n]⟩ b h) h' (ix2 p q) = b (ix2 0 q) := by
  rw [shapeCast_self]; exact broadcastTo_1b_ab_apply _ _ p q

/-- The attribute projection with its activation, at row p and hidden column k. -/
theorem pay5_apply (v1 : FVec Ideal S8000x50 .f32) (v16 : FVec Ideal S50x64 .f32) (v18 : FVec Ideal S1x64 .f32)
    (p : Fin 8000) (k : Fin 64) :
    k0_pay5 (F := Ideal) v1 v16 v18 (ix2 p k)
      = Cert.Spec.silu ((∑ a : Fin 50, v1 (ix2 p a) * v16 (ix2 a k)) + v18 (ix2 0 k)) := by
  refine (silu_block_apply _ (ix2 p k)).trans (congrArg Cert.Spec.silu ?_)
  refine (addf_apply _ _ _).trans ?_
  rw [bias_apply]
  exact congrArg (· + v18 (ix2 0 k))
    (matmul_zero_apply dot_S8000x50_S50x64_S8000x64_1_0_0_1_n_n rfl rfl rfl rfl rfl rfl rfl rfl none v1 v16 p k)

/-- The position projection with its activation, at row p and hidden column k. -/
theorem hid0_apply (v0 : FVec Ideal S8000x3 .f32) (v2 : FVec Ideal S3x64 .f32) (v4 : FVec Ideal S1x64 .f32)
    (p : Fin 8000) (k : Fin 64) :
    mulf (addf (matmul dot_S8000x3_S3x64_S8000x64_1_0_0_1_n_n none v0 v2 (constant (F := Ideal) S8000x64 .f32 0x00000000#32))
        (broadcastTo S8000x64 (shapeCast S1x64 v4 shapeCasts_S1x64_S1x64) broadcasts_S1x64_S8000x64))
      (divf (broadcast S8000x64 (Scalar.ofBits .f32 0x3F800000#32))
        (addf (broadcast S8000x64 (Scalar.ofBits .f32 0x3F800000#32))
          (exp (subf (broadcast S8000x64 (Scalar.ofBits .f32 0x00000000#32))
            (addf (matmul dot_S8000x3_S3x64_S8000x64_1_0_0_1_n_n none v0 v2 (constant (F := Ideal) S8000x64 .f32 0x00000000#32))
              (broadcastTo S8000x64 (shapeCast S1x64 v4 shapeCasts_S1x64_S1x64) broadcasts_S1x64_S8000x64)))))) (ix2 p k)
      = Cert.Spec.silu ((∑ a : Fin 3, v0 (ix2 p a) * v2 (ix2 a k)) + v4 (ix2 0 k)) := by
  refine (silu_block_apply _ (ix2 p k)).trans (congrArg Cert.Spec.silu ?_)
  refine (addf_apply _ _ _).trans ?_
  rw [bias_apply]
  exact congrArg (· + v4 (ix2 0 k))
    (matmul_zero_apply dot_S8000x3_S3x64_S8000x64_1_0_0_1_n_n rfl rfl rfl rfl rfl rfl rfl rfl none v0 v2 p k)

/-- The first half of the output product: the activated position projection times rows 0..63 of W_e2. -/
theorem pay6_apply (v0 : FVec Ideal S8000x3 .f32) (v2 : FVec Ideal S3x64 .f32) (v4 : FVec Ideal S1x64 .f32)
    (v30 : FVec Ideal S64x128 .f32) (p : Fin 8000) (q : Fin 128) :
    k0_pay6 (F := Ideal) v0 v2 v4 v30 (ix2 p q)
      = ∑ k : Fin 64, Cert.Spec.silu ((∑ a : Fin 3, v0 (ix2 p a) * v2 (ix2 a k)) + v4 (ix2 0 k)) * v30 (ix2 k q) := by
  refine (matmul_zero_apply dot_S8000x64_S64x128_S8000x128_1_0_0_1_n_n rfl rfl rfl rfl rfl rfl rfl rfl none _ v30 p q).trans ?_
  refine Finset.sum_congr rfl fun k _ => ?_
  exact congrArg (· * v30 (ix2 k q)) (hid0_apply v0 v2 v4 p k)

/-- The edge block's stored value at row p and column q. -/
theorem edge_pay (v0 : FVec Ideal S8000x3 .f32) (v1 : FVec Ideal S8000x50 .f32) (v2 : FVec Ideal S3x64 .f32)
    (v4 : FVec Ideal S1x64 .f32) (v16 : FVec Ideal S50x64 .f32) (v18 : FVec Ideal S1x64 .f32)
    (v30 : FVec Ideal S64x128 .f32) (v32 : FVec Ideal S64x128 .f32) (v35 : FVec Ideal S1x128 .f32)
    (p : Fin 8000) (q : Fin 128) :
    k0_pay1 (F := Ideal) (k0_pay5 v1 v16 v18) (k0_pay6 v0 v2 v4 v30) v32 (constant S8000x128 .f32 0x00000000#32) v35 (ix2 p q)
      = Cert.Spec.silu (((∑ k : Fin 64, Cert.Spec.silu ((∑ a : Fin 3, v0 (ix2 p a) * v2 (ix2 a k)) + v4 (ix2 0 k)) * v30 (ix2 k q))
          + (∑ k : Fin 64, Cert.Spec.silu ((∑ a : Fin 50, v1 (ix2 p a) * v16 (ix2 a k)) + v18 (ix2 0 k)) * v32 (ix2 k q)))
          + v35 (ix2 0 q)) := by
  refine (silu_block_apply _ (ix2 p q)).trans (congrArg Cert.Spec.silu ?_)
  refine (addf_apply _ _ _).trans ?_
  rw [bias_apply]
  refine congrArg (· + v35 (ix2 0 q)) ?_
  refine (addf_apply _ _ _).trans ?_
  rw [pay6_apply]
  refine congrArg (_ + ·) ?_
  refine (matmul_zero_apply dot_S8000x64_S64x128_S8000x128_1_0_0_1_n_n rfl rfl rfl rfl rfl rfl rfl rfl none _ v32 p q).trans ?_
  refine Finset.sum_congr rfl fun k _ => ?_
  exact congrArg (· * v32 (ix2 k q)) (pay5_apply v1 v16 v18 p k)

end Cert.KernelIdeal.PayValue
-- ==== Proof.Laws.lean ====
/-
  Algebraic laws over the shared specification. The extended reals are an additive commutative monoid in which
  0 * x = 0 and 1 * x = x hold for every x, the two infinities included, so none of the laws below needs a finiteness
  hypothesis.

  * A sum over 128 indices is the sum over the first 64 plus the sum over the last 64.
  * A dense entry whose input row is the concatenation of two activated 64-entry projections is the sum of the two
    half products against the top and the bottom 64 rows of the weight matrix, plus the bias.
  * silu written with e^(0 - x) is silu written with e^(-x).
  * A row vector with ones at two distinct indices and zeros elsewhere, times a table, is the sum of the two selected
    rows; for the zero-padded 88-row table (85 embedding rows in columns 0..223, 3 tag rows in columns 224..255) that
    sum is the concatenated input row of the specification.
-/
import proofs.«123452_g13383118094390_cont_week2b_154_27_alg».proof.Proof.Spec
import Idealize.ShloMosaic.PureOps.Ideal.Laws

noncomputable section

open scoped BigOperators
open Idealize.ShloMosaic Idealize.ShloMosaic.ValueIdx

namespace Cert.Laws

/-- A sum over 128 indices splits at 64. -/
theorem sum_split (f : Fin 128 → EReal) :
    ∑ k : Fin 128, f k
      = (∑ k : Fin 64, f ⟨k.val, by omega⟩) + ∑ k : Fin 64, f ⟨64 + k.val, by omega⟩ := by
  exact Fin.sum_univ_add (a := 64) (b := 64) (f : Fin (64 + 64) → EReal)

/-- The edge layer's second dense entry, with the concatenation folded into a split product. -/
theorem edge_split (rp : Cert.Spec.Arr2 800000 3 EReal) (ea : Cert.Spec.Arr2 800000 50 EReal)
    (w1 : Cert.Spec.Arr2 3 64 EReal) (b1 : Cert.Spec.Arr1 64 EReal)
    (w12 : Cert.Spec.Arr2 50 64 EReal) (b12 : Cert.Spec.Arr1 64 EReal)
    (w2 : Cert.Spec.Arr2 128 128 EReal) (b2 : Cert.Spec.Arr1 128 EReal)
    (p : Fin 800000) (q : Fin 128) :
    Cert.Spec.dense (Cert.Spec.edgeHid rp ea w1 b1 w12 b12 p) w2 b2 q
      = ((∑ k : Fin 64, Cert.Spec.silu (Cert.Spec.dense (fun a => rp (ix2 p a)) w1 b1 k)
            * w2 (ix2 ⟨k.val, by omega⟩ q))
          + (∑ k : Fin 64, Cert.Spec.silu (Cert.Spec.dense (fun a => ea (ix2 p a)) w12 b12 k)
            * w2 (ix2 ⟨64 + k.val, by omega⟩ q)))
        + b2 (ix1 q) := by
  show (∑ k : Fin 128, Cert.Spec.edgeHid rp ea w1 b1 w12 b12 p k * w2 (ix2 k q)) + b2 (ix1 q) = _
  rw [sum_split]
  refine congrArg (· + b2 (ix1 q)) ?_
  refine congrArg₂ (· + ·) ?_ ?_
  · refine Finset.sum_congr rfl fun k _ => ?_
    refine congrArg (· * w2 (ix2 ⟨k.val, by omega⟩ q)) ?_
    unfold Cert.Spec.edgeHid
    rw [dif_pos (show (⟨k.val, by omega⟩ : Fin 128).val < 64 from k.isLt)]
  · refine Finset.sum_congr rfl fun k _ => ?_
    refine congrArg (· * w2 (ix2 ⟨64 + k.val, by omega⟩ q)) ?_
    unfold Cert.Spec.edgeHid
    rw [dif_neg (show ¬ (⟨64 + k.val, by omega⟩ : Fin 128).val < 64 from by simp)]
    refine congrArg (fun j => Cert.Spec.silu (Cert.Spec.dense (fun a => ea (ix2 p a)) w12 b12 j)) ?_
    exact Fin.ext (by simp)

/-- silu with the exponent written 0 - x, the zero being the float word of 0.0 read exactly. -/
theorem silu_zero_sub (x : EReal) :
    x * Ideal.div Cert.Spec.one (Cert.Spec.one + Ideal.exp (Ideal.ofBits .f32 0x00000000#32 - x))
      = Cert.Spec.silu x := by
  rw [Ideal.ofBits_zero_f32, zero_sub]
  rfl

/-- A weighted sum whose weights are 1 at two distinct indices and 0 elsewhere is the sum of the two selected terms. -/
theorem sum_two {a b : Fin 88} (hab : a ≠ b) (oh g : Fin 88 → EReal)
    (hoh : ∀ n, oh n = if n = a ∨ n = b then 1 else 0) : ∑ n : Fin 88, oh n * g n = g a + g b := by
  have key : ∀ n : Fin 88, oh n * g n = (if n = a then g n else 0) + (if n = b then g n else 0) := by
    intro n
    rw [hoh n]
    by_cases hna : n = a
    · have hnb : n ≠ b := fun h => hab (hna.symm.trans h)
      rw [if_pos (Or.inl hna), if_pos hna, if_neg hnb, one_mul, add_zero]
    · by_cases hnb : n = b
      · rw [if_pos (Or.inr hnb), if_neg hna, if_pos hnb, one_mul, zero_add]
      · rw [if_neg (fun h => h.elim hna hnb), if_neg hna, if_neg hnb, zero_mul, add_zero]
  rw [Finset.sum_congr rfl (fun n _ => key n), Finset.sum_add_distrib, Finset.sum_ite_eq', Finset.sum_ite_eq',
    if_pos (Finset.mem_univ a), if_pos (Finset.mem_univ b)]

/-- A word equals the word of n < 88 exactly when its natural-number reading is n. -/
theorem word_eq_iff (zw : BitVec 32) (hz : zw.toNat < 88) (n : Fin 88) :
    zw = BitVec.ofNat 32 n.val ↔ n = ⟨zw.toNat, hz⟩ := by
  have hn := n.isLt
  constructor
  · intro h
    apply Fin.ext
    show n.val = zw.toNat
    rw [h, BitVec.toNat_ofNat]
    omega
  · intro h
    have hv : n.val = zw.toNat := congrArg Fin.val h
    apply BitVec.eq_of_toNat_eq
    rw [BitVec.toNat_ofNat]
    omega

/-- A word below 3, shifted by 85, equals the word of n < 88 exactly when n is 85 plus its natural-number reading. -/
theorem word_add_eq_iff (tw : BitVec 32) (ht : tw.toNat < 3) (n : Fin 88) :
    tw + 85#32 = BitVec.ofNat 32 n.val ↔ n = ⟨85 + tw.toNat, by omega⟩ := by
  have hn := n.isLt
  constructor
  · intro h
    apply Fin.ext
    show n.val = 85 + tw.toNat
    have e := congrArg BitVec.toNat h
    rw [BitVec.toNat_add, BitVec.toNat_ofNat, BitVec.toNat_ofNat] at e
    omega
  · intro h
    have hv : n.val = 85 + tw.toNat := congrArg Fin.val h
    apply BitVec.eq_of_toNat_eq
    rw [BitVec.toNat_add, BitVec.toNat_ofNat, BitVec.toNat_ofNat]
    omega

/-- The one-hot law: the row vector with ones at z and at 85 + tag, times a table of 88 rows, is the sum of rows
    z and 85 + tag of the table. The two rows are distinct because z < 85 ≤ 85 + tag. -/
theorem onehot_sum (T : Cert.Spec.Arr2 88 256 EReal) (zw tw : BitVec 32) (hz : zw.toNat < 85) (ht : tw.toNat < 3)
    (oh : Fin 88 → EReal)
    (hoh : ∀ n : Fin 88, oh n
      = if (zw = BitVec.ofNat 32 n.val ∨ tw + 85#32 = BitVec.ofNat 32 n.val) then 1 else 0)
    (j : Fin 256) :
    ∑ n : Fin 88, oh n * T (ix2 n j)
      = T (ix2 ⟨zw.toNat, by omega⟩ j) + T (ix2 ⟨85 + tw.toNat, by omega⟩ j) := by
  refine sum_two (a := ⟨zw.toNat, by omega⟩) (b := ⟨85 + tw.toNat, by omega⟩) ?_ oh (fun n => T (ix2 n j)) ?_
  · intro h
    have hv : zw.toNat = 85 + tw.toNat := congrArg Fin.val h
    omega
  · intro n
    rw [hoh n]
    exact if_congr (or_congr (word_eq_iff zw (by omega) n) (word_add_eq_iff tw ht n)) rfl rfl

/-- The one-hot product against the zero-padded table is the concatenated input row of the specification: row z of
    the padded table is the embedding row followed by zeros, row 85 + tag is zeros followed by the tag row, and
    x + 0 = x, 0 + x = x. -/
theorem atomIn_of_table (T : Cert.Spec.Arr2 88 256 EReal) (emb : Cert.Spec.Arr2 85 224 EReal)
    (tt : Cert.Spec.Arr2 3 32 EReal)
    (hT1 : ∀ (a : Fin 85) (j : Fin 256),
      T (ix2 ⟨a.val, by omega⟩ j) = if h : j.val < 224 then emb (ix2 a ⟨j.val, h⟩) else 0)
    (hT2 : ∀ (a : Fin 3) (j : Fin 256),
      T (ix2 ⟨85 + a.val, by omega⟩ j) = if h : j.val < 224 then 0 else tt (ix2 a ⟨j.val - 224, by omega⟩))
    (z tag : Cert.Spec.Arr1 50000 (BitVec 32)) (r : Fin 50000)
    (hz : (z (ix1 r)).toNat < 85) (ht : (tag (ix1 r)).toNat < 3)
    (oh : Fin 88 → EReal)
    (hoh : ∀ n : Fin 88, oh n
      = if (z (ix1 r) = BitVec.ofNat 32 n.val ∨ tag (ix1 r) + 85#32 = BitVec.ofNat 32 n.val) then 1 else 0)
    (j : Fin 256) :
    ∑ n : Fin 88, oh n * T (ix2 n j) = Cert.Spec.atomIn z tag emb tt r j := by
  rw [onehot_sum T (z (ix1 r)) (tag (ix1 r)) hz ht oh hoh j]
  refine (congrArg₂ (· + ·) (hT1 ⟨(z (ix1 r)).toNat, hz⟩ j) (hT2 ⟨(tag (ix1 r)).toNat, ht⟩ j)).trans ?_
  unfold Cert.Spec.atomIn
  by_cases hj : j.val < 224
  · rw [dif_pos hj, dif_pos hj, dif_pos hj, add_zero]
    exact congrArg (fun a => emb (ix2 a ⟨j.val, hj⟩)) (Fin.ext (Nat.mod_eq_of_lt hz).symm)
  · rw [dif_neg hj, dif_neg hj, dif_neg hj, zero_add]
    exact congrArg (fun a => tt (ix2 a ⟨j.val - 224, by omega⟩)) (Fin.ext (Nat.mod_eq_of_lt ht).symm)

end Cert.Laws

end
-- ==== Proof.PayAtom.lean ====
/-
  The atom branch of the kernel's arithmetic, read at one entry.

  At row p of a block the kernel forms the one-hot row  oh(n) = 1 if z(p) = n or tag(p) + 85 = n, else 0  (n < 88) by
  comparing the two index words of row p, laid along the row, with the column number; it multiplies that row into the
  88-row table, then applies two dense layers, each followed by the activation x · (1 / (1 + e^(0 - x))). Every matrix
  product is a product into an all-zero block, so a plain sum of products. Entry (p, q) of the result depends on the
  index columns only through their entries in row p.
-/
import proofs.«123452_g13383118094390_cont_week2b_154_27_alg».proof.Proof.Gen.KernelIdeal.Skeleton
import proofs.«123452_g13383118094390_cont_week2b_154_27_alg».proof.Proof.Spec
import proofs.«123452_g13383118094390_cont_week2b_154_27_alg».proof.Proof.LibPlainDot
import proofs.«123452_g13383118094390_cont_week2b_154_27_alg».proof.Proof.PayEdge
import proofs.«123452_g13383118094390_cont_week2b_154_27_alg».proof.Proof.Laws
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.PlainDot

namespace Cert.KernelIdeal.PayValue

open Cert.KernelIdeal Cert.KernelIdeal.Gen

/-- A column [a, 1] laid along every row of a block [a, b], read at (p, c), is its entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column counter of a [512, 88] block, read at (p, n), is the word of n. -/
theorem iota_col_apply (h : S512x88.Iotas .tc 32 [1]) (p : Fin 512) (n : Fin 88) :
    iota .tc S512x88 32 [1] h (ix2 p n) = BitVec.ofNat 32 n.val := by
  show BitVec.ofNat 32 (0 * 88 + n.val) = BitVec.ofNat 32 n.val
  rw [Nat.zero_mul, Nat.zero_add]

/-- The one-bit "or" of two equality tests, widened to 32 bits and read as a signed integer, is 1 when either
    equality holds and 0 otherwise. -/
theorem onehot_word (a b c : BitVec 32) :
    FloatOps.sitofp (F := Ideal) .f32 ((IntOp.ori (IntOp.cmpi .eq a c) (IntOp.cmpi .eq b c)).setWidth 32)
      = if (a = c ∨ b = c) then (1 : EReal) else 0 := by
  have hw : IntOp.ori (IntOp.cmpi .eq a c) (IntOp.cmpi .eq b c) = if (a = c ∨ b = c) then 1#1 else 0#1 := by
    show BitVec.ofBool (a == c) ||| BitVec.ofBool (b == c) = _
    by_cases h1 : a = c
    · have e1 : (a == c) = true := by simpa using h1
      rw [e1, if_pos (Or.inl h1)]
      cases (b == c) <;> decide
    · have e1 : (a == c) = false := by simpa using h1
      by_cases h2 : b = c
      · have e2 : (b == c) = true := by simpa using h2
        rw [e1, e2, if_pos (Or.inr h2)]; decide
      · have e2 : (b == c) = false := by simpa using h2
        rw [e1, e2, if_neg (fun h => h.elim h1 h2)]; decide
  rw [hw]
  show ((((if (a = c ∨ b = c) then 1#1 else 0#1 : BitVec 1).setWidth 32).toInt : ℝ) : EReal) = _
  split
  · have e : ((1#1 : BitVec 1).setWidth 32).toInt = 1 := by decide
    rw [e]; simp
  · have e : ((0#1 : BitVec 1).setWidth 32).toInt = 0 := by decide
    rw [e]; simp

/-- The one-hot weight of table row n at block row p. -/
def oh (v51 v53 : IVec S512x1 32) (p : Fin 512) (n : Fin 88) : EReal :=
  if (v51 (ix2 p 0) = BitVec.ofNat 32 n.val ∨ v53 (ix2 p 0) + 85#32 = BitVec.ofNat 32 n.val) then 1 else 0

/-- The one-hot block the kernel builds, read at (p, n). -/
theorem onehot_apply (v51 v53 : IVec S512x1 32) (p : Fin 512) (n : Fin 88) :
    (sitofp .f32 (extui 32 (ori
        (cmpi .eq (broadcastTo S512x88 (shapeCast S512x1 v51 shapeCasts_S512x1_S512x1) broadcasts_S512x1_S512x88)
          (iota .tc S512x88 32 [1] iota_S512x88_d1_w32))
        (cmpi .eq (broadcastTo S512x88 (addi (shapeCast S512x1 v53 shapeCasts_S512x1_S512x1) (broadcast S512x1 85#32))
            broadcasts_S512x1_S512x88)
          (iota .tc S512x88 32 [1] iota_S512x88_d1_w32))) natLt_1_32) : FVec Ideal S512x88 .f32) (ix2 p n)
      = oh v51 v53 p n := by
  show FloatOps.sitofp (F := Ideal) .f32 ((IntOp.ori
      (IntOp.cmpi .eq (broadcastTo S512x88 (shapeCast S512x1 v51 shapeCasts_S512x1_S512x1) broadcasts_S512x1_S512x88 (ix2 p n))
        (iota .tc S512x88 32 [1] iota_S512x88_d1_w32 (ix2 p n)))
      (IntOp.cmpi .eq (broadcastTo S512x88 (addi (shapeCast S512x1 v53 shapeCasts_S512x1_S512x1) (broadcast S512x1 85#32))
          broadcasts_S512x1_S512x88 (ix2 p n))
        (iota .tc S512x88 32 [1] iota_S512x88_d1_w32 (ix2 p n)))).setWidth 32) = _
  rw [broadcastTo_a1_ab_apply, broadcastTo_a1_ab_apply, shapeCast_self, shapeCast_self, iota_col_apply]
  exact onehot_word _ _ _

/-- A dense layer of the atom branch before its activation, at (p, q): the product into the all-zero block plus the
    bias row. -/
theorem layer_apply (x : FVec Ideal S512x256 .f32) (w : FVec Ideal S256x256 .f32) (b : FVec Ideal S1x256 .f32)
    (p : Fin 512) (q : Fin 256) :
    addf (matmul dot_S512x256_S256x256_S512x256_1_0_0_1_n_n none x w (constant (F := Ideal) S512x256 .f32 0x00000000#32))
        (broadcastTo S512x256 (shapeCast S1x256 b shapeCasts_S1x256_S1x256) broadcasts_S1x256_S512x256) (ix2 p q)
      = (∑ k : Fin 256, x (ix2 p k) * w (ix2 k q)) + b (ix2 0 q) := by
  refine (addf_apply _ _ _).trans ?_
  rw [bias_apply]
  exact congrArg (· + b (ix2 0 q))
    (matmul_zero_apply dot_S512x256_S256x256_S512x256_1_0_0_1_n_n rfl rfl rfl rfl rfl rfl rfl rfl none x w p q)

/-- The one-hot block times the table, at (p, j). -/
theorem table_apply (v51 v53 : IVec S512x1 32) (v65 : FVec Ideal S88x256 .f32) (p : Fin 512) (j : Fin 256) :
    matmul dot_S512x88_S88x256_S512x256_1_0_0_1_n_n none
        (sitofp .f32 (extui 32 (ori
          (cmpi .eq (broadcastTo S512x88 (shapeCast S512x1 v51 shapeCasts_S512x1_S512x1) broadcasts_S512x1_S512x88)
            (iota .tc S512x88 32 [1] iota_S512x88_d1_w32))
          (cmpi .eq (broadcastTo S512x88 (addi (shapeCast S512x1 v53 shapeCasts_S512x1_S512x1) (broadcast S512x1 85#32))
              broadcasts_S512x1_S512x88)
            (iota .tc S512x88 32 [1] iota_S512x88_d1_w32))) natLt_1_32) : FVec Ideal S512x88 .f32)
        (shapeCast S88x256 v65 shapeCasts_S88x256_S88x256) (constant (F := Ideal) S512x256 .f32 0x00000000#32) (ix2 p j)
      = ∑ n : Fin 88, oh v51 v53 p n * v65 (ix2 n j) := by
  refine (matmul_zero_apply dot_S512x88_S88x256_S512x256_1_0_0_1_n_n rfl rfl rfl rfl rfl rfl rfl rfl none _ _ p j).trans ?_
  refine Finset.sum_congr rfl fun n _ => ?_
  rw [onehot_apply, shapeCast_self]

/-- The atom block's stored value at row p and column q. -/
theorem atom_pay (v51 v53 : IVec S512x1 32) (v65 : FVec Ideal S88x256 .f32) (v68 : FVec Ideal S256x256 .f32)
    (v70 : FVec Ideal S1x256 .f32) (v82 : FVec Ideal S256x256 .f32) (v84 : FVec Ideal S1x256 .f32)
    (p : Fin 512) (q : Fin 256) :
    k0_pay2 (F := Ideal) (k0_pay3 v51 v53 v65 v68 v70 v82 v84) k0_pay4 (ix2 p q)
      = Cert.Spec.silu ((∑ k : Fin 256,
          Cert.Spec.silu ((∑ j : Fin 256, (∑ n : Fin 88, oh v51 v53 p n * v65 (ix2 n j)) * v68 (ix2 j k)) + v70 (ix2 0 k))
            * v82 (ix2 k q)) + v84 (ix2 0 q)) := by
  refine (silu_block_apply _ (ix2 p q)).trans (congrArg Cert.Spec.silu ?_)
  refine (layer_apply _ v82 v84 p q).trans ?_
  refine congrArg (· + v84 (ix2 0 q)) ?_
  refine Finset.sum_congr rfl fun k _ => ?_
  refine congrArg (· * v82 (ix2 k q)) ?_
  refine (silu_block_apply _ (ix2 p k)).trans (congrArg Cert.Spec.silu ?_)
  refine (layer_apply _ v68 v70 p k).trans ?_
  refine congrArg (· + v70 (ix2 0 k)) ?_
  refine Finset.sum_congr rfl fun j _ => ?_
  exact congrArg (· * v68 (ix2 j k)) (table_apply v51 v53 v65 p j)

end Cert.KernelIdeal.PayValue

end
-- ==== Proof.AtomBlock.lean ====
/-
  The atom block's stored value is the specification's entry.

  When row p of a block holds the index words of atom r, both in range, and the 88-row table is the zero-padded one
  (rows 0..84 the embedding rows in columns 0..223, rows 85..87 the tag rows in columns 224..255), the one-hot product
  at row p is the concatenated input row of atom r, so entry (p, q) of the block is the atom result at (r, q).
-/
import proofs.«123452_g13383118094390_cont_week2b_154_27_alg».proof.Proof.PayAtom

noncomputable section

open scoped BigOperators
open Idealize.ShloMosaic Idealize.ShloMosaic.ValueIdx

namespace Cert.KernelIdeal.PayValue

open Cert.KernelIdeal Cert.KernelIdeal.Gen

/-- Entry (p, q) of the atom block, when row p carries atom r. -/
theorem atom_block (z tag : Cert.Spec.Arr1 50000 (BitVec 32)) (emb : Cert.Spec.Arr2 85 224 EReal)
    (tt : Cert.Spec.Arr2 3 32 EReal) (T : FVec Ideal S88x256 .f32)
    (hT1 : ∀ (a : Fin 85) (j : Fin 256),
      T (ix2 ⟨a.val, by omega⟩ j) = if h : j.val < 224 then emb (ix2 a ⟨j.val, h⟩) else 0)
    (hT2 : ∀ (a : Fin 3) (j : Fin 256),
      T (ix2 ⟨85 + a.val, by omega⟩ j) = if h : j.val < 224 then 0 else tt (ix2 a ⟨j.val - 224, by omega⟩))
    (v51 v53 : IVec S512x1 32) (v68 : FVec Ideal S256x256 .f32) (v70 : FVec Ideal S1x256 .f32)
    (v82 : FVec Ideal S256x256 .f32) (v84 : FVec Ideal S1x256 .f32)
    (r : Fin 50000) (p : Fin 512) (q : Fin 256)
    (h51 : v51 (ix2 p 0) = z (ix1 r)) (h53 : v53 (ix2 p 0) = tag (ix1 r))
    (hz : (z (ix1 r)).toNat < 85) (ht : (tag (ix1 r)).toNat < 3) :
    k0_pay2 (F := Ideal) (k0_pay3 v51 v53 T v68 v70 v82 v84) k0_pay4 (ix2 p q)
      = Cert.Spec.silu (Cert.Spec.dense
          (fun k => Cert.Spec.silu (Cert.Spec.dense (Cert.Spec.atomIn z tag emb tt r) v68
            (fun i => v70 (ix2 0 (i 0))) k))
          v82 (fun i => v84 (ix2 0 (i 0))) q) := by
  rw [atom_pay]
  refine congrArg Cert.Spec.silu ?_
  refine congrArg (· + v84 (ix2 0 q)) ?_
  refine Finset.sum_congr rfl fun k _ => ?_
  refine congrArg (· * v82 (ix2 k q)) ?_
  refine congrArg Cert.Spec.silu ?_
  refine congrArg (· + v70 (ix2 0 k)) ?_
  refine Finset.sum_congr rfl fun j _ => ?_
  refine congrArg (· * v68 (ix2 j k)) ?_
  exact Cert.Laws.atomIn_of_table T emb tt hT1 hT2 z tag r hz ht (oh v51 v53 p)
    (fun n => by unfold oh; rw [h51, h53]) j

end Cert.KernelIdeal.PayValue

end
-- ==== Proof.BlockValue.lean ====
/-
  A block's stored values are the specification's entries.

  Edge. When row p of the loaded blocks carries edge R (its position and attribute rows) and the weight and bias blocks
  hold the arguments' entries, entry (p, q) of the edge payload is the edge result at (R, q): the two halves of the
  second product read rows 0..63 and 64..127 of the 128 x 128 weight block, and the split product is the dense entry
  over the concatenated 128 hidden values.

  Atom. When row p carries atom r's index words, both in range, the table block is the zero-padded table and the weight
  and bias blocks hold the arguments' entries, entry (p, q) of the atom payload is the atom result at (r, q).
-/
import proofs.«123452_g13383118094390_cont_week2b_154_27_alg».proof.Proof.PiecesIdeal
import proofs.«123452_g13383118094390_cont_week2b_154_27_alg».proof.Proof.PayEdge
import proofs.«123452_g13383118094390_cont_week2b_154_27_alg».proof.Proof.Laws
import proofs.«123452_g13383118094390_cont_week2b_154_27_alg».proof.Proof.AtomBlock

noncomputable section

open scoped BigOperators
open Idealize.ShloMosaic Idealize.ShloMosaic.ValueIdx

namespace Cert.KernelIdeal.PayValue

open Cert.KernelIdeal Cert.KernelIdeal.Gen

/-- Rows 0..63 of the weight block, read at (k, q): entry (k, q) of the block. -/
theorem ld_lo (x10 : FVec Ideal S128x128 .f32) (k : Fin 64) (q : Fin 128) :
    View.ld (Val := Elt Ideal) (e' := .f32) x10 Cert.KernelIdeal.Body.rLo (ix2 k q) = x10 (ix2 ⟨k.val, by omega⟩ q) := by
  show x10 (Cert.KernelIdeal.Body.rLo.emb (ix2 k q)) = _
  refine congrArg x10 (funext fun a => Fin.ext ?_)
  match a with
  | ⟨0, _⟩ => show 0 + 1 * k.val = k.val; omega
  | ⟨1, _⟩ => show 0 + 1 * q.val = q.val; omega

/-- Rows 64..127 of the weight block, read at (k, q): entry (64 + k, q) of the block. -/
theorem ld_hi (x10 : FVec Ideal S128x128 .f32) (k : Fin 64) (q : Fin 128) :
    View.ld (Val := Elt Ideal) (e' := .f32) x10 Cert.KernelIdeal.Body.rHi (ix2 k q) = x10 (ix2 ⟨64 + k.val, by omega⟩ q) := by
  show x10 (Cert.KernelIdeal.Body.rHi.emb (ix2 k q)) = _
  refine congrArg x10 (funext fun a => Fin.ext ?_)
  match a with
  | ⟨0, _⟩ => show 64 + 1 * k.val = 64 + k.val; omega
  | ⟨1, _⟩ => show 0 + 1 * q.val = q.val; omega

/-- Entry (p, q) of the edge block, when row p carries edge R. -/
theorem edge_block (rp : Cert.Spec.Arr2 800000 3 EReal) (ea : Cert.Spec.Arr2 800000 50 EReal)
    (w1 : Cert.Spec.Arr2 3 64 EReal) (b1 : Cert.Spec.Arr1 64 EReal)
    (w12 : Cert.Spec.Arr2 50 64 EReal) (b12 : Cert.Spec.Arr1 64 EReal)
    (w2 : Cert.Spec.Arr2 128 128 EReal) (b2 : Cert.Spec.Arr1 128 EReal)
    (x1 : FVec Ideal S8000x3 .f32) (x2 : FVec Ideal S8000x50 .f32) (x6 : FVec Ideal S3x64 .f32)
    (x7 : FVec Ideal S1x64 .f32) (x8 : FVec Ideal S50x64 .f32) (x9 : FVec Ideal S1x64 .f32)
    (x10 : FVec Ideal S128x128 .f32) (x11 : FVec Ideal S1x128 .f32)
    (R : Fin 800000) (p : Fin 8000) (q : Fin 128)
    (h1 : ∀ a : Fin 3, x1 (ix2 p a) = rp (ix2 R a)) (h2 : ∀ a : Fin 50, x2 (ix2 p a) = ea (ix2 R a))
    (h6 : ∀ (a : Fin 3) (k : Fin 64), x6 (ix2 a k) = w1 (ix2 a k)) (h7 : ∀ k : Fin 64, x7 (ix2 0 k) = b1 (ix1 k))
    (h8 : ∀ (a : Fin 50) (k : Fin 64), x8 (ix2 a k) = w12 (ix2 a k)) (h9 : ∀ k : Fin 64, x9 (ix2 0 k) = b12 (ix1 k))
    (h10 : ∀ (a : Fin 128) (k : Fin 128), x10 (ix2 a k) = w2 (ix2 a k))
    (h11 : ∀ k : Fin 128, x11 (ix2 0 k) = b2 (ix1 k)) :
    Cert.KernelIdeal.Body.edgeOf (F := Ideal) x1 x2 x6 x7 x8 x9 x10 x11 (ix2 p q)
      = Cert.Spec.Ge rp ea w1 b1 w12 b12 w2 b2 (ix2 R q) := by
  refine (edge_pay x1 x2 x6 x7 x8 x9 (View.ld (Val := Elt Ideal) (e' := .f32) x10 Cert.KernelIdeal.Body.rLo) (View.ld (Val := Elt Ideal) (e' := .f32) x10 Cert.KernelIdeal.Body.rHi)
    x11 p q).trans ?_
  show _ = Cert.Spec.silu (Cert.Spec.dense (Cert.Spec.edgeHid rp ea w1 b1 w12 b12 R) w2 b2 q)
  rw [Cert.Laws.edge_split]
  refine congrArg Cert.Spec.silu ?_
  refine congrArg₂ (· + ·) (congrArg₂ (· + ·) ?_ ?_) (h11 q)
  · refine Finset.sum_congr rfl fun k _ => ?_
    rw [ld_lo, h10]
    refine congrArg (fun t => Cert.Spec.silu t * w2 (ix2 ⟨k.val, by omega⟩ q)) ?_
    show _ = (∑ a : Fin 3, rp (ix2 R a) * w1 (ix2 a k)) + b1 (ix1 k)
    rw [h7 k]
    exact congrArg (· + b1 (ix1 k)) (Finset.sum_congr rfl fun a _ => by rw [h1 a, h6 a k])
  · refine Finset.sum_congr rfl fun k _ => ?_
    rw [ld_hi, h10]
    refine congrArg (fun t => Cert.Spec.silu t * w2 (ix2 ⟨64 + k.val, by omega⟩ q)) ?_
    show _ = (∑ a : Fin 50, ea (ix2 R a) * w12 (ix2 a k)) + b12 (ix1 k)
    rw [h9 k]
    exact congrArg (· + b12 (ix1 k)) (Finset.sum_congr rfl fun a _ => by rw [h2 a, h8 a k])

/-- Entry (p, q) of the atom block, when row p carries atom r. -/
theorem atom_block_spec (z tag : Cert.Spec.Arr1 50000 (BitVec 32)) (emb : Cert.Spec.Arr2 85 224 EReal)
    (tt : Cert.Spec.Arr2 3 32 EReal) (wl : Cert.Spec.Arr2 256 256 EReal) (bl : Cert.Spec.Arr1 256 EReal)
    (wl2 : Cert.Spec.Arr2 256 256 EReal) (bl2 : Cert.Spec.Arr1 256 EReal)
    (x3 x4 : IVec S512x1 32) (x5 : FVec Ideal S88x256 .f32) (x12 : FVec Ideal S256x256 .f32)
    (x13 : FVec Ideal S1x256 .f32) (x14 : FVec Ideal S256x256 .f32) (x15 : FVec Ideal S1x256 .f32)
    (r : Fin 50000) (p : Fin 512) (q : Fin 256)
    (h3 : x3 (ix2 p 0) = z (ix1 r)) (h4 : x4 (ix2 p 0) = tag (ix1 r))
    (hT : ∀ (n : Fin 88) (j : Fin 256), x5 (ix2 n j)
      = (if hn : n.val < 85 then (if hj : j.val < 224 then emb (ix2 ⟨n.val, hn⟩ ⟨j.val, hj⟩) else (0 : EReal))
         else (if hj : j.val < 224 then (0 : EReal) else tt (ix2 ⟨n.val - 85, by omega⟩ ⟨j.val - 224, by omega⟩))))
    (h12 : ∀ (a : Fin 256) (k : Fin 256), x12 (ix2 a k) = wl (ix2 a k)) (h13 : ∀ k : Fin 256, x13 (ix2 0 k) = bl (ix1 k))
    (h14 : ∀ (a : Fin 256) (k : Fin 256), x14 (ix2 a k) = wl2 (ix2 a k)) (h15 : ∀ k : Fin 256, x15 (ix2 0 k) = bl2 (ix1 k))
    (hz : (z (ix1 r)).toNat < 85) (ht : (tag (ix1 r)).toNat < 3) :
    Cert.KernelIdeal.Body.atomOf (F := Ideal) x3 x4 x5 x12 x13 x14 x15 (ix2 p q)
      = Cert.Spec.Gh z tag emb tt wl bl wl2 bl2 (ix2 r q) := by
  have hT1 : ∀ (a : Fin 85) (j : Fin 256),
      x5 (ix2 ⟨a.val, by omega⟩ j) = if h : j.val < 224 then emb (ix2 a ⟨j.val, h⟩) else 0 := by
    intro a j
    rw [hT, dif_pos (show (⟨a.val, by omega⟩ : Fin 88).val < 85 from a.isLt)]
  have hT2 : ∀ (a : Fin 3) (j : Fin 256),
      x5 (ix2 ⟨85 + a.val, by omega⟩ j) = if h : j.val < 224 then 0 else tt (ix2 a ⟨j.val - 224, by omega⟩) := by
    intro a j
    rw [hT, dif_neg (show ¬ (⟨85 + a.val, by omega⟩ : Fin 88).val < 85 from by simp)]
    by_cases hj : j.val < 224
    · rw [dif_pos hj, dif_pos hj]
    · rw [dif_neg hj, dif_neg hj]
      exact congrArg (fun a' => tt (ix2 a' ⟨j.val - 224, by omega⟩)) (Fin.ext (by simp))
  have e12 : x12 = wl := funext fun i =>
    (congrArg x12 (eq_ix2 i)).trans ((h12 _ _).trans (congrArg wl (eq_ix2 i).symm))
  have e14 : x14 = wl2 := funext fun i =>
    (congrArg x14 (eq_ix2 i)).trans ((h14 _ _).trans (congrArg wl2 (eq_ix2 i).symm))
  have e13 : (fun i => x13 (ix2 0 (i 0)) : Cert.Spec.Arr1 256 EReal) = bl := funext fun i =>
    (h13 (i 0)).trans (congrArg bl (eq_ix1 i).symm)
  have e15 : (fun i => x15 (ix2 0 (i 0)) : Cert.Spec.Arr1 256 EReal) = bl2 := funext fun i =>
    (h15 (i 0)).trans (congrArg bl2 (eq_ix1 i).symm)
  refine (atom_block z tag emb tt x5 hT1 hT2 x3 x4 x12 x13 x14 x15 r p q h3 h4 hz ht).trans ?_
  rw [e12, e13, e14, e15]
  rfl

end Cert.KernelIdeal.PayValue

end
-- ==== Proof.ValsIdeal.lean ====
/-
  The values the body stores, block by block, are the specified results' blocks.

  Edge: at grid point t, row p of the stored block is computed from row 8000 t + p of the position and attribute
  arrays and from the whole weight and bias arrays, so it is row 8000 t + p of the specified edge result.
  Atom: at grid point t, row p of the stored block (as far as the block is inside the array) is computed from entry
  512 min(t, 97) + p of the two index vectors, from the padded table and from the whole weight and bias arrays, so it
  is row 512 min(t, 97) + p of the specified atom result; the indices are in range by assumption.
-/
import proofs.«123452_g13383118094390_cont_week2b_154_27_alg».proof.Proof.BlockRead
import proofs.«123452_g13383118094390_cont_week2b_154_27_alg».proof.Proof.BlockValue
import proofs.«123452_g13383118094390_cont_week2b_154_27_alg».proof.Proof.PiecesIdeal
import proofs.«123452_g13383118094390_cont_week2b_154_27_alg».proof.Proof.DataIdeal
import proofs.«123452_g13383118094390_cont_week2b_154_27_alg».proof.Proof.SchedIdeal
import Idealize.ShloMosaic.Lib.ValueIdx

noncomputable section

open scoped BigOperators

namespace Cert.KernelIdeal.Body

open Cert.KernelIdeal Cert.KernelIdeal.Gen
open Idealize.ShloMosaic Idealize.ShloMosaic.TcCoe Idealize.ShloMosaic.ValueIdx

variable (m : (ℓ : Loc nD τ sig) → Buf (Elt Ideal) ℓ)

/-- The edge block stored at grid point t is block t of the specified edge result. -/
theorem edge_val (c : Dev nD) (t : Fin cfg0.N) :
    edgeOf (F := Ideal) (iblk m c 0 t) (iblk m c 1 t) (iblk m c 5 t) (iblk m c 6 t) (iblk m c 7 t) (iblk m c 8 t)
      (iblk m c 9 t) (iblk m c 10 t) = eAfter m c t := by
  funext j
  obtain ⟨p, q, rfl⟩ : ∃ (p : Fin 8000) (q : Fin 128), j = ix2 p q := ⟨j 0, j 1, eq_ix2 j⟩
  exact Cert.KernelIdeal.PayValue.edge_block
    (m ((c : Thread nD τ).loc main_arg1)) (m ((c : Thread nD τ).loc main_arg2)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15))
    (iblk m c 0 t) (iblk m c 1 t) (iblk m c 5 t) (iblk m c 6 t) (iblk m c 7 t) (iblk m c 8 t) (iblk m c 9 t) (iblk m c 10 t)
    (rowE (8000 * t.val + p.val)) p q
    (Cert.KernelIdeal.HostValue.iblk_0 m c t p) (Cert.KernelIdeal.HostValue.iblk_1 m c t p)
    (Cert.KernelIdeal.HostValue.iblk_5 m c t) (Cert.KernelIdeal.HostValue.iblk_6 m c t)
    (Cert.KernelIdeal.HostValue.iblk_7 m c t) (Cert.KernelIdeal.HostValue.iblk_8 m c t)
    (Cert.KernelIdeal.HostValue.iblk_9 m c t) (Cert.KernelIdeal.HostValue.iblk_10 m c t)

/-- The atom block stored at grid point t is, as far as it lies inside the array, the staged atom block of the
    specified atom result, when the staged index columns hold the index vectors' entries and these are in range. -/
theorem atom_val (c : Dev nD)
    (hz : ∀ i, ((m ((c : Thread nD τ).loc main_arg0) : S50000.Idx → BitVec 32) i).toNat < 85)
    (ht : ∀ i, ((m ((c : Thread nD τ).loc main_arg3) : S50000.Idx → BitVec 32) i).toNat < 3)
    (t : Fin cfg0.N) (h98 : t.val < 98) (X2 X3 : S512x1.Idx → BitVec 32)
    (h2 : (cfg0.win 2).cut (cfg0.grid.coords t) X2 = (cfg0.win 2).cut (cfg0.grid.coords t) (zAfter m c t))
    (h3 : (cfg0.win 3).cut (cfg0.grid.coords t) X3 = (cfg0.win 3).cut (cfg0.grid.coords t) (tagAfter m c t)) :
    (cfg0.win 15).cut (cfg0.grid.coords t)
        (atomOf (F := Ideal) X2 X3 (iblk m c 4 t) (iblk m c 11 t) (iblk m c 12 t) (iblk m c 13 t) (iblk m c 14 t))
      = (cfg0.win 15).cut (cfg0.grid.coords t) (hAfter m c t) := by
  funext y
  have h0 : (y 0).val < (cfg0.win 15).xsize (cfg0.grid.coords t) (0 : Fin 2) := (y 0).isLt
  rw [xsize_15 t 0, if_pos (show (0 : Fin 2).val = 0 from rfl)] at h0
  have h1 : (y 1).val < (cfg0.win 15).xsize (cfg0.grid.coords t) (1 : Fin 2) := (y 1).isLt
  rw [xsize_15 t 1, if_neg (show ¬ (1 : Fin 2).val = 0 by decide)] at h1
  have hp : (y 0).val < 512 := by
    by_cases h : t.val < 97
    · rw [if_pos h] at h0; exact h0
    · rw [if_neg h] at h0; omega
  -- the row and the column inside the block
  obtain ⟨p, hpv⟩ : ∃ p : Fin 512, p.val = (y 0).val := ⟨⟨(y 0).val, hp⟩, rfl⟩
  obtain ⟨q, hqv⟩ : ∃ q : Fin 256, q.val = (y 1).val := ⟨⟨(y 1).val, h1⟩, rfl⟩
  have hidx : (cfg0.win 15).xinj (cfg0.grid.coords t) y = (ix2 p q : S512x256.Idx) := by
    funext d; apply Fin.ext
    match d with
    | ⟨0, _⟩ => exact hpv.symm
    | ⟨1, _⟩ => exact hqv.symm
  -- the same row of the two staged index columns
  have hb2 : ∀ d : Fin 2, (if d.val = 0 then (y 0).val else 0) < (cfg0.win 2).xsize (cfg0.grid.coords t) d := by
    intro d
    rw [xsize_2 t d]
    by_cases hd : d.val = 0
    · rw [if_pos hd, if_pos hd]; exact h0
    · rw [if_neg hd, if_neg hd]; exact Nat.one_pos
  have hb3 : ∀ d : Fin 2, (if d.val = 0 then (y 0).val else 0) < (cfg0.win 3).xsize (cfg0.grid.coords t) d := by
    intro d
    rw [xsize_3 t d]
    by_cases hd : d.val = 0
    · rw [if_pos hd, if_pos hd]; exact h0
    · rw [if_neg hd, if_neg hd]; exact Nat.one_pos
  have hi2 : (cfg0.win 2).xinj (cfg0.grid.coords t) (fun d => ⟨if d.val = 0 then (y 0).val else 0, hb2 d⟩)
      = (ix2 p (0 : Fin 1) : S512x1.Idx) := by
    funext d; apply Fin.ext
    match d with
    | ⟨0, _⟩ => exact hpv.symm
    | ⟨1, _⟩ => rfl
  have hi3 : (cfg0.win 3).xinj (cfg0.grid.coords t) (fun d => ⟨if d.val = 0 then (y 0).val else 0, hb3 d⟩)
      = (ix2 p (0 : Fin 1) : S512x1.Idx) := by
    funext d; apply Fin.ext
    match d with
    | ⟨0, _⟩ => exact hpv.symm
    | ⟨1, _⟩ => rfl
  have hz2 : X2 (ix2 p 0) = (m ((c : Thread nD τ).loc main_arg0) : S50000.Idx → BitVec 32)
      (ix1 (rowH (512 * ablk t.val + p.val))) := by
    have hh : X2 ((cfg0.win 2).xinj (cfg0.grid.coords t) (fun d => ⟨if d.val = 0 then (y 0).val else 0, hb2 d⟩))
        = zAfter m c t ((cfg0.win 2).xinj (cfg0.grid.coords t) (fun d => ⟨if d.val = 0 then (y 0).val else 0, hb2 d⟩)) :=
      congrFun h2 (fun d => ⟨if d.val = 0 then (y 0).val else 0, hb2 d⟩)
    rw [hi2] at hh
    exact hh
  have hz3 : X3 (ix2 p 0) = (m ((c : Thread nD τ).loc main_arg3) : S50000.Idx → BitVec 32)
      (ix1 (rowH (512 * ablk t.val + p.val))) := by
    have hh : X3 ((cfg0.win 3).xinj (cfg0.grid.coords t) (fun d => ⟨if d.val = 0 then (y 0).val else 0, hb3 d⟩))
        = tagAfter m c t ((cfg0.win 3).xinj (cfg0.grid.coords t) (fun d => ⟨if d.val = 0 then (y 0).val else 0, hb3 d⟩)) :=
      congrFun h3 (fun d => ⟨if d.val = 0 then (y 0).val else 0, hb3 d⟩)
    rw [hi3] at hh
    exact hh
  show atomOf (F := Ideal) X2 X3 (iblk m c 4 t) (iblk m c 11 t) (iblk m c 12 t) (iblk m c 13 t) (iblk m c 14 t)
      ((cfg0.win 15).xinj (cfg0.grid.coords t) y) = hAfter m c t ((cfg0.win 15).xinj (cfg0.grid.coords t) y)
  rw [hidx]
  exact Cert.KernelIdeal.PayValue.atom_block_spec
    (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
    X2 X3 (iblk m c 4 t) (iblk m c 11 t) (iblk m c 12 t) (iblk m c 13 t) (iblk m c 14 t)
    (rowH (512 * ablk t.val + p.val)) p q hz2 hz3
    (Cert.KernelIdeal.HostValue.iblk_4 m c t) (Cert.KernelIdeal.HostValue.iblk_11 m c t)
    (Cert.KernelIdeal.HostValue.iblk_12 m c t) (Cert.KernelIdeal.HostValue.iblk_13 m c t)
    (Cert.KernelIdeal.HostValue.iblk_14 m c t) (hz _) (ht _)

end Cert.KernelIdeal.Body
-- ==== Proof.FinalIdeal.lean ====
/-
  The output arrays after the run, in closed form.

  Edge output. Every grid point t writes back block t: rows 8000 t .. 8000 t + 7999 of the specified edge result. The
  hundred blocks tile the 800000 rows, so the array ends holding the specified edge result.

  Atom output. The block written back at point t is atom block min(t, 97), cut to the rows inside the array (512 rows
  up to block 96, 336 rows for block 97); it is written back at points 0..96 and at the last point, where the buffer
  still holds block 97. Blocks 0..97 tile the 50000 rows (97 * 512 + 336 = 50000), so the array ends holding the
  specified atom result. A row number inside the array is unchanged by the reduction modulo the array's height.
-/
import proofs.«123452_g13383118094390_cont_week2b_154_27_alg».proof.Proof.DataIdeal
import proofs.«123452_g13383118094390_cont_week2b_154_27_alg».proof.Proof.SchedIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The edge output -/

/-- The edge output's block index at point t is (t, 0). -/
theorem idx_16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

/-- The edge output's block is never cut. -/
theorem xsize_16 : ∀ (t : Fin cfg0.N) (a : Fin 2),
    (cfg0.win 16).xsize (cfg0.grid.coords t) a = if a.val = 0 then 8000 else 128 :=
  (by decide +kernel : ∀ (t : Fin grid0.N) (a : Fin 2), win0_16.xsize (grid0.coords t) a = if a.val = 0 then 8000 else 128)

/-- What point t writes back to the edge output is block t of the specified edge result. -/
theorem flushed_16 (c : Dev nD) (t : Fin cfg0.N) :
    (dats m 0 c).flushed 16 t = ((cfg0.win 16).blk t).view.read (Elt Ideal) (GeAt m c) := by
  show (cfg0.win 16).cut (grid0.coords t) ((dats m 0 c).after 16 t) = _
  rw [after_16]
  obtain ⟨e0, e1⟩ := idx_16 t
  have ht : t.val < 100 := t.isLt
  funext j
  have hj0 : (j 0).val < 8000 := by
    have h : (j 0).val < (cfg0.win 16).xsize (cfg0.grid.coords t) 0 := (j 0).isLt
    rw [xsize_16 t 0] at h; exact h
  show GeAt m c (ix2 (rowE (8000 * t.val + (j 0).val)) ((cfg0.win 16).xinj (grid0.coords t) j 1))
    = GeAt m c (((cfg0.win 16).blk t).view.emb j)
  refine congrArg (GeAt m c) (funext fun a => Fin.ext ?_)
  match a with
  | ⟨0, _⟩ =>
    show (8000 * t.val + (j 0).val) % 800000 = win0_16.index t (0 : Fin 2) * 8000 + 1 * (j 0).val
    rw [e0]; omega
  | ⟨1, _⟩ =>
    show (j 1).val = win0_16.index t (1 : Fin 2) * 128 + 1 * (j 1).val
    rw [e1]; omega

/-- An index of the edge array is in point t's block iff each coordinate is in the block's range on its axis. -/
theorem mem_blk_16 (t : Fin cfg0.N) (i : S800000x128.Idx) :
    i ∈ ((cfg0.win 16).blk t).view.set ↔ ∀ a : Fin 2, win0_16.index t a * S8000x128.size a ≤ (i a).val
      ∧ (i a).val < win0_16.index t a * S8000x128.size a + (cfg0.win 16).xsize (cfg0.grid.coords t) a := by
  show i ∈ ((View.whole main_v16_1).slice (win0_16.rect t)).set ↔ _
  rw [View.set_slice_whole, Rect.mem_set_unit]
  exact Iff.rfl

/-- Every index of the edge array is in the block of the point its row number divided by 8000 names. -/
theorem cover_16 (i : S800000x128.Idx) :
    ∃ t : Fin cfg0.N, (cfg0.win 16).flush t = true ∧ i ∈ ((cfg0.win 16).blk t).view.set := by
  have hi0 : (i 0).val < 800000 := idx2_lt0 i
  have hi1 : (i 1).val < 128 := idx2_lt1 i
  obtain ⟨t, ht⟩ : ∃ t : Fin cfg0.N, t.val = (i 0).val / 8000 :=
    ⟨⟨(i 0).val / 8000, show (i 0).val / 8000 < 100 by omega⟩, rfl⟩
  obtain ⟨e0, e1⟩ := idx_16 t
  refine ⟨t, flush0_16 t, ?_⟩
  rw [mem_blk_16]
  intro a
  match a with
  | ⟨0, _⟩ =>
    show win0_16.index t (0 : Fin 2) * 8000 ≤ (i 0).val
      ∧ (i 0).val < win0_16.index t (0 : Fin 2) * 8000 + (cfg0.win 16).xsize (cfg0.grid.coords t) 0
    rw [e0, xsize_16 t 0]
    show t.val * 8000 ≤ (i 0).val ∧ (i 0).val < t.val * 8000 + 8000
    omega
  | ⟨1, _⟩ =>
    show win0_16.index t (1 : Fin 2) * 128 ≤ (i 1).val
      ∧ (i 1).val < win0_16.index t (1 : Fin 2) * 128 + (cfg0.win 16).xsize (cfg0.grid.coords t) 1
    rw [e1, xsize_16 t 1]
    show 0 * 128 ≤ (i 1).val ∧ (i 1).val < 0 * 128 + 128
    omega

/-- The edge output array after the run is the specified edge result. -/
theorem final_e (c : Dev nD) : (dats m 0 c).arrAt 16 cfg0.N = GeAt m c :=
  (dats m 0 c).arrAt_eq_of_cover 16 (GeAt m c) (fun t _ => flushed_16 m c t) cover_16

/-! ## The atom output -/

/-- The atom output's block index at point t is (min(t, 97), 0). -/
theorem idx_15 : ∀ t : Fin cfg0.N, win0_15.index t (0 : Fin 2) = min t.val 97 ∧ win0_15.index t (1 : Fin 2) = 0 :=
  (by decide +kernel : ∀ t : Fin grid0.N, win0_15.index t (0 : Fin 2) = min t.val 97 ∧ win0_15.index t (1 : Fin 2) = 0)

/-- What point t writes back to the atom output is, cut to the rows inside the array, block min(t, 97) of the
    specified atom result. -/
theorem flushed_15 (c : Dev nD) (t : Fin cfg0.N) :
    (dats m 0 c).flushed 15 t = ((cfg0.win 15).blk t).view.read (Elt Ideal) (GhAt m c) := by
  show (cfg0.win 15).cut (grid0.coords t) ((dats m 0 c).after 15 t) = _
  rw [after_15]
  obtain ⟨e0, e1⟩ := idx_15 t
  have ht : t.val < 100 := t.isLt
  funext j
  have hj0 : (j 0).val < if t.val < 97 then 512 else 336 := by
    have h : (j 0).val < (cfg0.win 15).xsize (cfg0.grid.coords t) 0 := (j 0).isLt
    rw [xsize_15 t 0] at h; exact h
  show GhAt m c (ix2 (rowH (512 * ablk t.val + (j 0).val)) ((cfg0.win 15).xinj (grid0.coords t) j 1))
    = GhAt m c (((cfg0.win 15).blk t).view.emb j)
  refine congrArg (GhAt m c) (funext fun a => Fin.ext ?_)
  match a with
  | ⟨0, _⟩ =>
    show (512 * min t.val 97 + (j 0).val) % 50000 = win0_15.index t (0 : Fin 2) * 512 + 1 * (j 0).val
    rw [e0]
    split at hj0 <;> omega
  | ⟨1, _⟩ =>
    show (j 1).val = win0_15.index t (1 : Fin 2) * 256 + 1 * (j 1).val
    rw [e1]; omega

/-- An index of the atom array is in point t's block iff each coordinate is in the block's cut range on its axis. -/
theorem mem_blk_15 (t : Fin cfg0.N) (i : S50000x256.Idx) :
    i ∈ ((cfg0.win 15).blk t).view.set ↔ ∀ a : Fin 2, win0_15.index t a * S512x256.size a ≤ (i a).val
      ∧ (i a).val < win0_15.index t a * S512x256.size a + (cfg0.win 15).xsize (cfg0.grid.coords t) a := by
  show i ∈ ((View.whole main_v16_0).slice (win0_15.rect t)).set ↔ _
  rw [View.set_slice_whole, Rect.mem_set_unit]
  exact Iff.rfl

/-- Every index of the atom array is in a written-back block: rows below 97 * 512 in the block of the point their
    row number divided by 512 names, the last 336 rows in the block written back at the last point. -/
theorem cover_15 (i : S50000x256.Idx) :
    ∃ t : Fin cfg0.N, (cfg0.win 15).flush t = true ∧ i ∈ ((cfg0.win 15).blk t).view.set := by
  have hi0 : (i 0).val < 50000 := idx2_lt0 i
  have hi1 : (i 1).val < 256 := idx2_lt1 i
  by_cases hb : (i 0).val / 512 < 97
  · obtain ⟨t, ht⟩ : ∃ t : Fin cfg0.N, t.val = (i 0).val / 512 :=
      ⟨⟨(i 0).val / 512, show (i 0).val / 512 < 100 by omega⟩, rfl⟩
    obtain ⟨e0, e1⟩ := idx_15 t
    refine ⟨t, (flush_15 t).2 (Or.inl (by omega)), ?_⟩
    rw [mem_blk_15]
    intro a
    match a with
    | ⟨0, _⟩ =>
      show win0_15.index t (0 : Fin 2) * 512 ≤ (i 0).val
        ∧ (i 0).val < win0_15.index t (0 : Fin 2) * 512 + (cfg0.win 15).xsize (cfg0.grid.coords t) 0
      rw [e0, xsize_15 t 0]
      show min t.val 97 * 512 ≤ (i 0).val ∧ (i 0).val < min t.val 97 * 512 + (if t.val < 97 then 512 else 336)
      rw [if_pos (by omega)]; omega
    | ⟨1, _⟩ =>
      show win0_15.index t (1 : Fin 2) * 256 ≤ (i 1).val
        ∧ (i 1).val < win0_15.index t (1 : Fin 2) * 256 + (cfg0.win 15).xsize (cfg0.grid.coords t) 1
      rw [e1, xsize_15 t 1]
      show 0 * 256 ≤ (i 1).val ∧ (i 1).val < 0 * 256 + 256
      omega
  · obtain ⟨t, ht⟩ : ∃ t : Fin cfg0.N, t.val = 99 := ⟨⟨99, show 99 < 100 by omega⟩, rfl⟩
    obtain ⟨e0, e1⟩ := idx_15 t
    refine ⟨t, (flush_15 t).2 (Or.inr ht), ?_⟩
    rw [mem_blk_15]
    intro a
    match a with
    | ⟨0, _⟩ =>
      show win0_15.index t (0 : Fin 2) * 512 ≤ (i 0).val
        ∧ (i 0).val < win0_15.index t (0 : Fin 2) * 512 + (cfg0.win 15).xsize (cfg0.grid.coords t) 0
      rw [e0, xsize_15 t 0]
      show min t.val 97 * 512 ≤ (i 0).val ∧ (i 0).val < min t.val 97 * 512 + (if t.val < 97 then 512 else 336)
      rw [if_neg (by omega)]; omega
    | ⟨1, _⟩ =>
      show win0_15.index t (1 : Fin 2) * 256 ≤ (i 1).val
        ∧ (i 1).val < win0_15.index t (1 : Fin 2) * 256 + (cfg0.win 15).xsize (cfg0.grid.coords t) 1
      rw [e1, xsize_15 t 1]
      show 0 * 256 ≤ (i 1).val ∧ (i 1).val < 0 * 256 + 256
      omega

/-- The atom output array after the run is the specified atom result. -/
theorem final_h (c : Dev nD) : (dats m 0 c).arrAt 15 cfg0.N = GhAt m c :=
  (dats m 0 c).arrAt_eq_of_cover 15 (GhAt m c) (fun t _ => flushed_15 m c t) cover_15

end Cert.KernelIdeal.Body

end
-- ==== Proof.KernelRunIdeal.lean ====
/-
  The idealized kernel's run with its two results named: under the index ranges of the precondition, every weakly fair
  execution ends with the atom result array at the specified atom result of the argument arrays, the edge result array
  at the specified edge result, and the sixteen argument arrays as they began. The output arrays are what the library
  computes from the proof data (each written-back block overwrites its rows), and the proof data's blocks are the
  specification's rows, so the arrays are the specification (the blocks tile them).
-/
import proofs.«123452_g13383118094390_cont_week2b_154_27_alg».proof.Proof.ObligIdeal
import proofs.«123452_g13383118094390_cont_week2b_154_27_alg».proof.Proof.ValsIdeal
import proofs.«123452_g13383118094390_cont_week2b_154_27_alg».proof.Proof.FinalIdeal
import proofs.«123452_g13383118094390_cont_week2b_154_27_alg».proof.Proof.BlockRead

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxHeartbeats 2000000 in
theorem run_values
    (hz : ∀ (c : Dev nD) i, ((m ((c : Thread nD τ).loc main_arg0) : S50000.Idx → BitVec 32) i).toNat < 85)
    (ht : ∀ (c : Dev nD) i, ((m ((c : Thread nD τ).loc main_arg3) : S50000.Idx → BitVec 32) i).toNat < 3) :
    θ_run defs (onTc (τ := τ) (main (F := Ideal))) ⟨m, fun _ => 0, ρ⟩ (fun r => ∀ c : Dev nD,
      r.2.mem ((c.tc : Thread nD τ).loc main_v16_0) = GhAt m c
      ∧ r.2.mem ((c.tc : Thread nD τ).loc main_v16_1) = GeAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1 15).trans (final_h m c), ((h c).1 16).trans (final_e m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 11).trans (((dats m 0 c).arrAt_in 11 rfl _).trans ((A_eq m c 11).trans (V_main_arg6 m c))),
      ((h c).2 main_arg7 (Pipeline.mem_restRefs_of main_arg7 (by decide) (by decide))).trans (V_main_arg7 m c),
      ((h c).1 13).trans (((dats m 0 c).arrAt_in 13 rfl _).trans ((A_eq m c 13).trans (V_main_arg8 m c))),
      ((h c).2 main_arg9 (Pipeline.mem_restRefs_of main_arg9 (by decide) (by decide))).trans (V_main_arg9 m c),
      ((h c).1 5).trans (((dats m 0 c).arrAt_in 5 rfl _).trans ((A_eq m c 5).trans (V_main_arg10 m c))),
      ((h c).2 main_arg11 (Pipeline.mem_restRefs_of main_arg11 (by decide) (by decide))).trans (V_main_arg11 m c),
      ((h c).1 7).trans (((dats m 0 c).arrAt_in 7 rfl _).trans ((A_eq m c 7).trans (V_main_arg12 m c))),
      ((h c).2 main_arg13 (Pipeline.mem_restRefs_of main_arg13 (by decide) (by decide))).trans (V_main_arg13 m c),
      ((h c).1 9).trans (((dats m 0 c).arrAt_in 9 rfl _).trans ((A_eq m c 9).trans (V_main_arg14 m c))),
      ((h c).2 main_arg15 (Pipeline.mem_restRefs_of main_arg15 (by decide) (by decide))).trans (V_main_arg15 m c)⟩)
    (run_main m ρ (fun c t y => Cert.KernelIdeal.HostValue.iblk_2 m c t y) (fun c t y => Cert.KernelIdeal.HostValue.iblk_3 m c t y)
      (fun c t => edge_val m c t)
      (fun c t h98 X2 X3 h2 h3 => atom_val m c (hz c) (ht c) t h98 X2 X3 h2 h3))

end Cert.KernelIdeal.Body

end
-- ==== Proof.RefTerms.lean ====
/-
  The reference program's two results as composed terms of its arguments.

  Edge branch: the position and attribute projections, each a matrix product plus a bias row, set side by side, activated,
  multiplied into the output layer, biased and activated again. Atom branch: the rows of the two tables the index vectors
  name, set side by side, then two layers of product, bias and activation. The activation is x · (1 / (1 + e^(-x))).
-/
import proofs.«123452_g13383118094390_cont_week2b_154_27_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- x · (1 / (1 + e^(-x))), entry by entry on an array of shape `S`, in the arrangement the activation function is
    printed in: the two ones are the scalar 1.0 spread over the array. -/
def siluArr (S : Shape) (hb : S_.BroadcastsInDim S (![] : Fin 0 → Fin S.rank)) (x : FVec F S .f32) : FVec F S .f32 :=
  mulf x (Host.divf (broadcastInDim S ![] hb (constant (F := F) S_ .f32 0x3F800000#32))
    (addf (broadcastInDim S ![] hb (constant (F := F) S_ .f32 0x3F800000#32)) (Host.exp (Host.negf x))))

/-- The position projection: rel_pos · W_e1 + b_e1, the bias spread down the rows. -/
def denseE1 (x : FVec F S800000x3 .f32) (w : FVec F S3x64 .f32) (b : FVec F S64 .f32) : FVec F S800000x64 .f32 :=
  addf (Host.dotGeneral dot_S800000x3_S3x64_S800000x64_1_0_0_1_n_n none x w)
    (broadcastInDim S800000x64 ![0, 1] bcast_S1x64_S800000x64_0_1 (broadcastInDim S1x64 ![1] bcast_S64_S1x64_1 b))

/-- The attribute projection: edge_attr · W_e12 + b_e12. -/
def denseE12 (x : FVec F S800000x50 .f32) (w : FVec F S50x64 .f32) (b : FVec F S64 .f32) : FVec F S800000x64 .f32 :=
  addf (Host.dotGeneral dot_S800000x50_S50x64_S800000x64_1_0_0_1_n_n none x w)
    (broadcastInDim S800000x64 ![0, 1] bcast_S1x64_S800000x64_0_1 (broadcastInDim S1x64 ![1] bcast_S64_S1x64_1 b))

/-- The edge output layer: hidden · W_e2 + b_e2. -/
def denseE2 (x : FVec F S800000x128 .f32) (w : FVec F S128x128 .f32) (b : FVec F S128 .f32) : FVec F S800000x128 .f32 :=
  addf (Host.dotGeneral dot_S800000x128_S128x128_S800000x128_1_0_0_1_n_n none x w)
    (broadcastInDim S800000x128 ![0, 1] bcast_S1x128_S800000x128_0_1 (broadcastInDim S1x128 ![1] bcast_S128_S1x128_1 b))

/-- An atom layer: x · W + b on 256 features. -/
def denseA (x : FVec F S50000x256 .f32) (w : FVec F S256x256 .f32) (b : FVec F S256 .f32) : FVec F S50000x256 .f32 :=
  addf (Host.dotGeneral dot_S50000x256_S256x256_S50000x256_1_0_0_1_n_n none x w)
    (broadcastInDim S50000x256 ![0, 1] bcast_S1x256_S50000x256_0_1 (broadcastInDim S1x256 ![1] bcast_S256_S1x256_1 b))

/-- The edge result as a function of the argument arrays. -/
def edgeOut (rp : FVec F S800000x3 .f32) (ea : FVec F S800000x50 .f32) (w1 : FVec F S3x64 .f32) (b1 : FVec F S64 .f32)
    (w12 : FVec F S50x64 .f32) (b12 : FVec F S64 .f32) (w2 : FVec F S128x128 .f32) (b2 : FVec F S128 .f32) :
    FVec F S800000x128 .f32 :=
  siluArr S800000x128 bcast_S_S800000x128 (denseE2 (siluArr S800000x128 bcast_S_S800000x128
    (concatenate S800000x128 1 [⟨S800000x64, denseE1 rp w1 b1⟩, ⟨S800000x64, denseE12 ea w12 b12⟩]
      concatenates_S800000x64_S800000x64_S800000x128_d1)) w2 b2)

/-- An index vector with its negative entries moved up by the table's height `n`. -/
def wrapIdx (n : BitVec 32) (idx : IVec S50000 32) : IVec S50000 32 :=
  select (cmpi .slt idx (broadcastInDim S50000 ![] bcast_S_S50000 (constantI S_ 32 0#32)))
    (addi idx (broadcastInDim S50000 ![] bcast_S_S50000 (constantI S_ 32 n))) idx

/-- An index vector as a column. -/
def colIdx (idx : IVec S50000 32) : IVec S50000x1 32 :=
  broadcastInDim S50000x1 ![0] bcast_S50000_S50000x1_0 idx

/-- Per row: is the index within 0 … hi. -/
def inRange (hi : BitVec 32) (j : IVec S50000x1 32) : IVec S50000 1 :=
  Host.reduce IntOp.andi
    (andi (cmpi .sge j (broadcastInDim S50000x1 ![] bcast_S_S50000x1 (constantI S_ 32 0#32)))
      (cmpi .sle j (broadcastInDim S50000x1 ![0, 1] bcast_S1x1_S50000x1_0_1
        (broadcastInDim S1x1 ![1] bcast_S1_S1x1_1 (constantI S1 32 hi)))))
    (constantI S_ 1 1#1) reducesTo_S50000x1_S50000_d1 h_S_

/-- The rows of the embedding table the indices name (a row out of range reads as the not-a-number word). -/
def takeEmb (tbl : FVec F S85x224 .f32) (idx : IVec S50000 32) : FVec F S50000x224 .f32 :=
  select (broadcastInDim S50000x224 ![0] bcast_S50000_S50000x224_0 (inRange 84#32 (colIdx (wrapIdx 85#32 idx))))
    (Host.gather gather_S85x224_S50000x1_S50000x224_1_0_n_n_0_1_1224 tbl (colIdx (wrapIdx 85#32 idx)))
    (broadcastInDim S50000x224 ![] bcast_S_S50000x224 (constant (F := F) S_ .f32 0x7FC00000#32))

/-- The rows of the tag table the indices name. -/
def takeTag (tbl : FVec F S3x32 .f32) (idx : IVec S50000 32) : FVec F S50000x32 .f32 :=
  select (broadcastInDim S50000x32 ![0] bcast_S50000_S50000x32_0 (inRange 2#32 (colIdx (wrapIdx 3#32 idx))))
    (Host.gather gather_S3x32_S50000x1_S50000x32_1_0_n_n_0_1_132 tbl (colIdx (wrapIdx 3#32 idx)))
    (broadcastInDim S50000x32 ![] bcast_S_S50000x32 (constant (F := F) S_ .f32 0x7FC00000#32))

/-- The atom result as a function of the argument arrays. -/
def atomOut (z tag : IVec S50000 32) (emb : FVec F S85x224 .f32) (tt : FVec F S3x32 .f32)
    (wl : FVec F S256x256 .f32) (bl : FVec F S256 .f32) (wl2 : FVec F S256x256 .f32) (bl2 : FVec F S256 .f32) :
    FVec F S50000x256 .f32 :=
  siluArr S50000x256 bcast_S_S50000x256 (denseA (siluArr S50000x256 bcast_S_S50000x256
    (denseA (concatenate S50000x256 1 [⟨S50000x224, takeEmb emb z⟩, ⟨S50000x32, takeTag tt tag⟩]
      concatenates_S50000x224_S50000x32_S50000x256_d1) wl bl)) wl2 bl2)

/-- The atom result as a function of the launch memory. -/
def resH (m : (ℓ : Loc nD τ sig) → Buf (Elt Ideal) ℓ) (c : Dev nD) : FVec Ideal S50000x256 .f32 :=
  atomOut (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The edge result as a function of the launch memory. -/
def resE (m : (ℓ : Loc nD τ sig) → Buf (Elt Ideal) ℓ) (c : Dev nD) : FVec Ideal S800000x128 .f32 :=
  edgeOut (F := Ideal) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

end Cert.ReferenceIdeal.RefValue

end
-- ==== Proof.RefRun.lean ====
/-
  The reference program's run, read back.

  @main is a straight line of 104 whole-array operations once its calls are put in place: three dense layers and two
  activations on the edge arrays, two table look-ups, a concatenation, two dense layers and two activations on the atom
  arrays. Each operation writes a buffer of its own, so the contents of every buffer after the run is the composition of
  the operations that lead to it, applied to the argument buffers as they were at the start; the arguments are never written.
-/
import proofs.«123452_g13383118094390_cont_week2b_154_27_alg».proof.Proof.RefTerms
import Idealize.ShloMosaic.Lib.StableHlo.Run
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call replaced by the operations of the function it calls, over that call's buffers. -/
abbrev ops : List (HloOp τ sig (Elt F)) :=
  [
    StableHlo.binary main_arg1 main_arg10 main_v0 ((fun l r => Host.dotGeneral dot_S800000x3_S3x64_S800000x64_1_0_0_1_n_n none l r) : (⟨S800000x3, .f32⟩ : BufTy).Contents (Elt F) → (⟨S3x64, .f32⟩ : BufTy).Contents (Elt F) → (⟨S800000x64, .f32⟩ : BufTy).Contents (Elt F)),
    StableHlo.unary main_arg11 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S800000x64 ![0, 1] bcast_S1x64_S800000x64_0_1 : (⟨S1x64, .f32⟩ : BufTy).Contents (Elt F) → (⟨S800000x64, .f32⟩ : BufTy).Contents (Elt F)),
    StableHlo.binary main_v0 main_v2 main_v3 (addf : (⟨S800000x64, .f32⟩ : BufTy).Contents (Elt F) → (⟨S800000x64, .f32⟩ : BufTy).Contents (Elt F) → (⟨S800000x64, .f32⟩ : BufTy).Contents (Elt F)),
    StableHlo.binary main_arg2 main_arg12 main_v4 ((fun l r => Host.dotGeneral dot_S800000x50_S50x64_S800000x64_1_0_0_1_n_n none l r) : (⟨S800000x50, .f32⟩ : BufTy).Contents (Elt F) → (⟨S50x64, .f32⟩ : BufTy).Contents (Elt F) → (⟨S800000x64, .f32⟩ : BufTy).Contents (Elt F)),
    StableHlo.unary main_arg13 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S800000x64 ![0, 1] bcast_S1x64_S800000x64_0_1 : (⟨S1x64, .f32⟩ : BufTy).Contents (Elt F) → (⟨S800000x64, .f32⟩ : BufTy).Contents (Elt F)),
    StableHlo.binary main_v4 main_v6 main_v7 (addf : (⟨S800000x64, .f32⟩ : BufTy).Contents (Elt F) → (⟨S800000x64, .f32⟩ : BufTy).Contents (Elt F) → (⟨S800000x64, .f32⟩ : BufTy).Contents (Elt F)),
    StableHlo.binary main_v3 main_v7 main_v8 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.TRef.unary (.of main_v8) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S800000x128 ![] bcast_S_S800000x128),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S800000x128 ![] bcast_S_S800000x128),
    StableHlo.TRef.binary main_call0.v4 main_call0.v3 main_call0.v5 Host.divf,
    StableHlo.TRef.binary (.of main_v8) main_call0.v5 main_call0.v6 mulf,
    StableHlo.binary main_v9 main_arg14 main_v10 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg15 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S800000x128 ![0, 1] bcast_S1x128_S800000x128_0_1 : (⟨S1x128, .f32⟩ : BufTy).Contents (Elt F) → (⟨S800000x128, .f32⟩ : BufTy).Contents (Elt F)),
    StableHlo.binary main_v10 main_v12 main_v13 (addf : (⟨S800000x128, .f32⟩ : BufTy).Contents (Elt F) → (⟨S800000x128, .f32⟩ : BufTy).Contents (Elt F) → (⟨S800000x128, .f32⟩ : BufTy).Contents (Elt F)),
    StableHlo.TRef.unary (.of main_v13) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x128 ![] bcast_S_S800000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x128 ![] bcast_S_S800000x128),
    StableHlo.TRef.binary main_call1.v4 main_call1.v3 main_call1.v5 Host.divf,
    StableHlo.TRef.binary (.of main_v13) main_call1.v5 main_call1.v6 mulf,
    StableHlo.TRef.nullary main_call2.c (constantI S_ 32 0#32),
    StableHlo.TRef.unary main_call2.c main_call2.v0 (broadcastInDim S50000 ![] bcast_S_S50000),
    StableHlo.TRef.binary (.of main_arg0) main_call2.v0 main_call2.v1 (cmpi .slt),
    StableHlo.TRef.nullary main_call2.c_0 (constantI S_ 32 85#32),
    StableHlo.TRef.unary main_call2.c_0 main_call2.v2 (broadcastInDim S50000 ![] bcast_S_S50000),
    StableHlo.TRef.binary (.of main_arg0) main_call2.v2 main_call2.v3 addi,
    StableHlo.TRef.ternary main_call2.v1 main_call2.v3 (.of main_arg0) main_call2.call0.v0 select,
    StableHlo.TRef.unary main_call2.call0.v0 main_call2.v5 (broadcastInDim S50000x1 ![0] bcast_S50000_S50000x1_0),
    StableHlo.TRef.nullary main_call2.c_1 (constantI S1 32 84#32),
    StableHlo.TRef.nullary main_call2.c_2 (constantI S_ 32 0#32),
    StableHlo.TRef.unary main_call2.c_2 main_call2.v6 (broadcastInDim S50000x1 ![] bcast_S_S50000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S50000x1 ![0, 1] bcast_S1x1_S50000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S50000x1_S50000_d1 h_S_),
    StableHlo.TRef.binary (.of main_arg4) main_call2.v5 main_call2.v13 (fun x i => Host.gather gather_S85x224_S50000x1_S50000x224_1_0_n_n_0_1_1224 x i),
    StableHlo.TRef.unary main_call2.v12 main_call2.v14 (broadcastInDim S50000x224 ![0] bcast_S50000_S50000x224_0),
    StableHlo.TRef.nullary main_call2.cst (constant S_ .f32 0x7FC00000#32),
    StableHlo.TRef.unary main_call2.cst main_call2.v15 (broadcastInDim S50000x224 ![] bcast_S_S50000x224),
    StableHlo.TRef.ternary main_call2.v14 main_call2.v13 main_call2.v15 main_call2.v16 select,
    StableHlo.TRef.nullary main_call3.c (constantI S_ 32 0#32),
    StableHlo.TRef.unary main_call3.c main_call3.v0 (broadcastInDim S50000 ![] bcast_S_S50000),
    StableHlo.TRef.binary (.of main_arg3) main_call3.v0 main_call3.v1 (cmpi .slt),
    StableHlo.TRef.nullary main_call3.c_0 (constantI S_ 32 3#32),
    StableHlo.TRef.unary main_call3.c_0 main_call3.v2 (broadcastInDim S50000 ![] bcast_S_S50000),
    StableHlo.TRef.binary (.of main_arg3) main_call3.v2 main_call3.v3 addi,
    StableHlo.TRef.ternary main_call3.v1 main_call3.v3 (.of main_arg3) main_call3.call0.v0 select,
    StableHlo.TRef.unary main_call3.call0.v0 main_call3.v5 (broadcastInDim S50000x1 ![0] bcast_S50000_S50000x1_0),
    StableHlo.TRef.nullary main_call3.c_1 (constantI S1 32 2#32),
    StableHlo.TRef.nullary main_call3.c_2 (constantI S_ 32 0#32),
    StableHlo.TRef.unary main_call3.c_2 main_call3.v6 (broadcastInDim S50000x1 ![] bcast_S_S50000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S50000x1 ![0, 1] bcast_S1x1_S50000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S50000x1_S50000_d1 h_S_),
    StableHlo.TRef.binary (.of main_arg5) main_call3.v5 main_call3.v13 (fun x i => Host.gather gather_S3x32_S50000x1_S50000x32_1_0_n_n_0_1_132 x i),
    StableHlo.TRef.unary main_call3.v12 main_call3.v14 (broadcastInDim S50000x32 ![0] bcast_S50000_S50000x32_0),
    StableHlo.TRef.nullary main_call3.cst (constant S_ .f32 0x7FC00000#32),
    StableHlo.TRef.unary main_call3.cst main_call3.v15 (broadcastInDim S50000x32 ![] bcast_S_S50000x32),
    StableHlo.TRef.ternary main_call3.v14 main_call3.v13 main_call3.v15 main_call3.v16 select,
    StableHlo.binary main_v15 main_v16 main_v17 ((fun a b => concatenate S50000x256 1 [⟨S50000x224, a⟩, ⟨S50000x32, b⟩] concatenates_S50000x224_S50000x32_S50000x256_d1) : (⟨S50000x224, .f32⟩ : BufTy).Contents (Elt F) → (⟨S50000x32, .f32⟩ : BufTy).Contents (Elt F) → (⟨S50000x256, .f32⟩ : BufTy).Contents (Elt F)),
    StableHlo.binary main_v17 main_arg6 main_v18 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v20 main_v21 (addf : (⟨S50000x256, .f32⟩ : BufTy).Contents (Elt F) → (⟨S50000x256, .f32⟩ : BufTy).Contents (Elt F) → (⟨S50000x256, .f32⟩ : BufTy).Contents (Elt F)),
    StableHlo.TRef.unary (.of main_v21) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S50000x256 ![] bcast_S_S50000x256),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S50000x256 ![] bcast_S_S50000x256),
    StableHlo.TRef.binary main_call4.v4 main_call4.v3 main_call4.v5 Host.divf,
    StableHlo.TRef.binary (.of main_v21) main_call4.v5 main_call4.v6 mulf,
    StableHlo.binary main_v22 main_arg8 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v25 main_v26 (addf : (⟨S50000x256, .f32⟩ : BufTy).Contents (Elt F) → (⟨S50000x256, .f32⟩ : BufTy).Contents (Elt F) → (⟨S50000x256, .f32⟩ : BufTy).Contents (Elt F)),
    StableHlo.TRef.unary (.of main_v26) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S50000x256 ![] bcast_S_S50000x256),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S50000x256 ![] bcast_S_S50000x256),
    StableHlo.TRef.binary main_call5.v4 main_call5.v3 main_call5.v5 Host.divf,
    StableHlo.TRef.binary (.of main_v26) main_call5.v5 main_call5.v6 mulf ]

/-- @main is that straight line: both sides unfold to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-- The edge result after the run, from any contents: the composed term of the eight edge arguments. -/
theorem edge_after (V : Valuation τ sig (Elt F)) :
    after ops V (Proc.devRef .tc main_v14)
      = edgeOut (V (Proc.devRef .tc main_arg1)) (V (Proc.devRef .tc main_arg2)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp
  rfl

/-! ## The run in four stretches

The edge branch (31 operations), the embedding look-up (23), the tag look-up (23), and the atom layers (27). The contents
after the whole line is the contents after the last stretch from the contents after the ones before it, so each result is read
off its own stretch and carried unchanged across the others. -/

/-- The edge branch. -/
abbrev opsE : List (HloOp τ sig (Elt F)) :=
  [
    StableHlo.binary main_arg1 main_arg10 main_v0 ((fun l r => Host.dotGeneral dot_S800000x3_S3x64_S800000x64_1_0_0_1_n_n none l r) : (⟨S800000x3, .f32⟩ : BufTy).Contents (Elt F) → (⟨S3x64, .f32⟩ : BufTy).Contents (Elt F) → (⟨S800000x64, .f32⟩ : BufTy).Contents (Elt F)),
    StableHlo.unary main_arg11 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S800000x64 ![0, 1] bcast_S1x64_S800000x64_0_1 : (⟨S1x64, .f32⟩ : BufTy).Contents (Elt F) → (⟨S800000x64, .f32⟩ : BufTy).Contents (Elt F)),
    StableHlo.binary main_v0 main_v2 main_v3 (addf : (⟨S800000x64, .f32⟩ : BufTy).Contents (Elt F) → (⟨S800000x64, .f32⟩ : BufTy).Contents (Elt F) → (⟨S800000x64, .f32⟩ : BufTy).Contents (Elt F)),
    StableHlo.binary main_arg2 main_arg12 main_v4 ((fun l r => Host.dotGeneral dot_S800000x50_S50x64_S800000x64_1_0_0_1_n_n none l r) : (⟨S800000x50, .f32⟩ : BufTy).Contents (Elt F) → (⟨S50x64, .f32⟩ : BufTy).Contents (Elt F) → (⟨S800000x64, .f32⟩ : BufTy).Contents (Elt F)),
    StableHlo.unary main_arg13 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S800000x64 ![0, 1] bcast_S1x64_S800000x64_0_1 : (⟨S1x64, .f32⟩ : BufTy).Contents (Elt F) → (⟨S800000x64, .f32⟩ : BufTy).Contents (Elt F)),
    StableHlo.binary main_v4 main_v6 main_v7 (addf : (⟨S800000x64, .f32⟩ : BufTy).Contents (Elt F) → (⟨S800000x64, .f32⟩ : BufTy).Contents (Elt F) → (⟨S800000x64, .f32⟩ : BufTy).Contents (Elt F)),
    StableHlo.binary main_v3 main_v7 main_v8 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.TRef.unary (.of main_v8) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S800000x128 ![] bcast_S_S800000x128),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S800000x128 ![] bcast_S_S800000x128),
    StableHlo.TRef.binary main_call0.v4 main_call0.v3 main_call0.v5 Host.divf,
    StableHlo.TRef.binary (.of main_v8) main_call0.v5 main_call0.v6 mulf,
    StableHlo.binary main_v9 main_arg14 main_v10 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg15 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S800000x128 ![0, 1] bcast_S1x128_S800000x128_0_1 : (⟨S1x128, .f32⟩ : BufTy).Contents (Elt F) → (⟨S800000x128, .f32⟩ : BufTy).Contents (Elt F)),
    StableHlo.binary main_v10 main_v12 main_v13 (addf : (⟨S800000x128, .f32⟩ : BufTy).Contents (Elt F) → (⟨S800000x128, .f32⟩ : BufTy).Contents (Elt F) → (⟨S800000x128, .f32⟩ : BufTy).Contents (Elt F)),
    StableHlo.TRef.unary (.of main_v13) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x128 ![] bcast_S_S800000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x128 ![] bcast_S_S800000x128),
    StableHlo.TRef.binary main_call1.v4 main_call1.v3 main_call1.v5 Host.divf,
    StableHlo.TRef.binary (.of main_v13) main_call1.v5 main_call1.v6 mulf ]

/-- The embedding look-up. -/
abbrev opsT1 : List (HloOp τ sig (Elt F)) :=
  [
    StableHlo.TRef.nullary main_call2.c (constantI S_ 32 0#32),
    StableHlo.TRef.unary main_call2.c main_call2.v0 (broadcastInDim S50000 ![] bcast_S_S50000),
    StableHlo.TRef.binary (.of main_arg0) main_call2.v0 main_call2.v1 (cmpi .slt),
    StableHlo.TRef.nullary main_call2.c_0 (constantI S_ 32 85#32),
    StableHlo.TRef.unary main_call2.c_0 main_call2.v2 (broadcastInDim S50000 ![] bcast_S_S50000),
    StableHlo.TRef.binary (.of main_arg0) main_call2.v2 main_call2.v3 addi,
    StableHlo.TRef.ternary main_call2.v1 main_call2.v3 (.of main_arg0) main_call2.call0.v0 select,
    StableHlo.TRef.unary main_call2.call0.v0 main_call2.v5 (broadcastInDim S50000x1 ![0] bcast_S50000_S50000x1_0),
    StableHlo.TRef.nullary main_call2.c_1 (constantI S1 32 84#32),
    StableHlo.TRef.nullary main_call2.c_2 (constantI S_ 32 0#32),
    StableHlo.TRef.unary main_call2.c_2 main_call2.v6 (broadcastInDim S50000x1 ![] bcast_S_S50000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S50000x1 ![0, 1] bcast_S1x1_S50000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S50000x1_S50000_d1 h_S_),
    StableHlo.TRef.binary (.of main_arg4) main_call2.v5 main_call2.v13 (fun x i => Host.gather gather_S85x224_S50000x1_S50000x224_1_0_n_n_0_1_1224 x i),
    StableHlo.TRef.unary main_call2.v12 main_call2.v14 (broadcastInDim S50000x224 ![0] bcast_S50000_S50000x224_0),
    StableHlo.TRef.nullary main_call2.cst (constant S_ .f32 0x7FC00000#32),
    StableHlo.TRef.unary main_call2.cst main_call2.v15 (broadcastInDim S50000x224 ![] bcast_S_S50000x224),
    StableHlo.TRef.ternary main_call2.v14 main_call2.v13 main_call2.v15 main_call2.v16 select ]

/-- The tag look-up. -/
abbrev opsT2 : List (HloOp τ sig (Elt F)) :=
  [
    StableHlo.TRef.nullary main_call3.c (constantI S_ 32 0#32),
    StableHlo.TRef.unary main_call3.c main_call3.v0 (broadcastInDim S50000 ![] bcast_S_S50000),
    StableHlo.TRef.binary (.of main_arg3) main_call3.v0 main_call3.v1 (cmpi .slt),
    StableHlo.TRef.nullary main_call3.c_0 (constantI S_ 32 3#32),
    StableHlo.TRef.unary main_call3.c_0 main_call3.v2 (broadcastInDim S50000 ![] bcast_S_S50000),
    StableHlo.TRef.binary (.of main_arg3) main_call3.v2 main_call3.v3 addi,
    StableHlo.TRef.ternary main_call3.v1 main_call3.v3 (.of main_arg3) main_call3.call0.v0 select,
    StableHlo.TRef.unary main_call3.call0.v0 main_call3.v5 (broadcastInDim S50000x1 ![0] bcast_S50000_S50000x1_0),
    StableHlo.TRef.nullary main_call3.c_1 (constantI S1 32 2#32),
    StableHlo.TRef.nullary main_call3.c_2 (constantI S_ 32 0#32),
    StableHlo.TRef.unary main_call3.c_2 main_call3.v6 (broadcastInDim S50000x1 ![] bcast_S_S50000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S50000x1 ![0, 1] bcast_S1x1_S50000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S50000x1_S50000_d1 h_S_),
    StableHlo.TRef.binary (.of main_arg5) main_call3.v5 main_call3.v13 (fun x i => Host.gather gather_S3x32_S50000x1_S50000x32_1_0_n_n_0_1_132 x i),
    StableHlo.TRef.unary main_call3.v12 main_call3.v14 (broadcastInDim S50000x32 ![0] bcast_S50000_S50000x32_0),
    StableHlo.TRef.nullary main_call3.cst (constant S_ .f32 0x7FC00000#32),
    StableHlo.TRef.unary main_call3.cst main_call3.v15 (broadcastInDim S50000x32 ![] bcast_S_S50000x32),
    StableHlo.TRef.ternary main_call3.v14 main_call3.v13 main_call3.v15 main_call3.v16 select ]

/-- The atom layers. -/
abbrev opsA : List (HloOp τ sig (Elt F)) :=
  [
    StableHlo.binary main_v15 main_v16 main_v17 ((fun a b => concatenate S50000x256 1 [⟨S50000x224, a⟩, ⟨S50000x32, b⟩] concatenates_S50000x224_S50000x32_S50000x256_d1) : (⟨S50000x224, .f32⟩ : BufTy).Contents (Elt F) → (⟨S50000x32, .f32⟩ : BufTy).Contents (Elt F) → (⟨S50000x256, .f32⟩ : BufTy).Contents (Elt F)),
    StableHlo.binary main_v17 main_arg6 main_v18 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S50000x256 ![0, 1] bcast_S1x256_S50000x256_0_1 : (⟨S1x256, .f32⟩ : BufTy).Contents (Elt F) → (⟨S50000x256, .f32⟩ : BufTy).Contents (Elt F)),
    StableHlo.binary main_v18 main_v20 main_v21 (addf : (⟨S50000x256, .f32⟩ : BufTy).Contents (Elt F) → (⟨S50000x256, .f32⟩ : BufTy).Contents (Elt F) → (⟨S50000x256, .f32⟩ : BufTy).Contents (Elt F)),
    StableHlo.TRef.unary (.of main_v21) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S50000x256 ![] bcast_S_S50000x256),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S50000x256 ![] bcast_S_S50000x256),
    StableHlo.TRef.binary main_call4.v4 main_call4.v3 main_call4.v5 Host.divf,
    StableHlo.TRef.binary (.of main_v21) main_call4.v5 main_call4.v6 mulf,
    StableHlo.binary main_v22 main_arg8 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg9 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v25 main_v26 (addf : (⟨S50000x256, .f32⟩ : BufTy).Contents (Elt F) → (⟨S50000x256, .f32⟩ : BufTy).Contents (Elt F) → (⟨S50000x256, .f32⟩ : BufTy).Contents (Elt F)),
    StableHlo.TRef.unary (.of main_v26) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S50000x256 ![] bcast_S_S50000x256),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S50000x256 ![] bcast_S_S50000x256),
    StableHlo.TRef.binary main_call5.v4 main_call5.v3 main_call5.v5 Host.divf,
    StableHlo.TRef.binary (.of main_v26) main_call5.v5 main_call5.v6 mulf ]

theorem ops_split : (ops : List (HloOp τ sig (Elt F))) = opsE ++ (opsT1 ++ (opsT2 ++ opsA)) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! The edge branch writes none of the atom branch's arguments. -/
theorem keepE_main_arg0 (W : Valuation τ sig (Elt F)) :
    after opsE W (Proc.devRef .tc main_arg0) = W (Proc.devRef .tc main_arg0) := by
  after_results_simp
theorem keepE_main_arg3 (W : Valuation τ sig (Elt F)) :
    after opsE W (Proc.devRef .tc main_arg3) = W (Proc.devRef .tc main_arg3) := by
  after_results_simp
theorem keepE_main_arg4 (W : Valuation τ sig (Elt F)) :
    after opsE W (Proc.devRef .tc main_arg4) = W (Proc.devRef .tc main_arg4) := by
  after_results_simp
theorem keepE_main_arg5 (W : Valuation τ sig (Elt F)) :
    after opsE W (Proc.devRef .tc main_arg5) = W (Proc.devRef .tc main_arg5) := by
  after_results_simp
theorem keepE_main_arg6 (W : Valuation τ sig (Elt F)) :
    after opsE W (Proc.devRef .tc main_arg6) = W (Proc.devRef .tc main_arg6) := by
  after_results_simp
theorem keepE_main_arg7 (W : Valuation τ sig (Elt F)) :
    after opsE W (Proc.devRef .tc main_arg7) = W (Proc.devRef .tc main_arg7) := by
  after_results_simp
theorem keepE_main_arg8 (W : Valuation τ sig (Elt F)) :
    after opsE W (Proc.devRef .tc main_arg8) = W (Proc.devRef .tc main_arg8) := by
  after_results_simp
theorem keepE_main_arg9 (W : Valuation τ sig (Elt F)) :
    after opsE W (Proc.devRef .tc main_arg9) = W (Proc.devRef .tc main_arg9) := by
  after_results_simp

attribute [local irreducible] Host.reduce Host.gather in
/-- The embedding look-up, from any contents. -/
theorem take1_after (W : Valuation τ sig (Elt F)) :
    after opsT1 W (Proc.devRef .tc main_v15) = takeEmb (W (Proc.devRef .tc main_arg4)) (W (Proc.devRef .tc main_arg0)) := by
  after_results_simp
  rfl

/-! It writes none of the arguments read after it. -/
theorem keepT1_main_arg3 (W : Valuation τ sig (Elt F)) :
    after opsT1 W (Proc.devRef .tc main_arg3) = W (Proc.devRef .tc main_arg3) := by
  after_results_simp
theorem keepT1_main_arg5 (W : Valuation τ sig (Elt F)) :
    after opsT1 W (Proc.devRef .tc main_arg5) = W (Proc.devRef .tc main_arg5) := by
  after_results_simp
theorem keepT1_main_arg6 (W : Valuation τ sig (Elt F)) :
    after opsT1 W (Proc.devRef .tc main_arg6) = W (Proc.devRef .tc main_arg6) := by
  after_results_simp
theorem keepT1_main_arg7 (W : Valuation τ sig (Elt F)) :
    after opsT1 W (Proc.devRef .tc main_arg7) = W (Proc.devRef .tc main_arg7) := by
  after_results_simp
theorem keepT1_main_arg8 (W : Valuation τ sig (Elt F)) :
    after opsT1 W (Proc.devRef .tc main_arg8) = W (Proc.devRef .tc main_arg8) := by
  after_results_simp
theorem keepT1_main_arg9 (W : Valuation τ sig (Elt F)) :
    after opsT1 W (Proc.devRef .tc main_arg9) = W (Proc.devRef .tc main_arg9) := by
  after_results_simp

attribute [local irreducible] Host.reduce Host.gather in
/-- The tag look-up, from any contents. -/
theorem take2_after (W : Valuation τ sig (Elt F)) :
    after opsT2 W (Proc.devRef .tc main_v16) = takeTag (W (Proc.devRef .tc main_arg5)) (W (Proc.devRef .tc main_arg3)) := by
  after_results_simp
  rfl

/-! It writes neither the embedding rows nor the arguments read after it. -/
theorem keepT2_main_v15 (W : Valuation τ sig (Elt F)) :
    after opsT2 W (Proc.devRef .tc main_v15) = W (Proc.devRef .tc main_v15) := by
  after_results_simp
theorem keepT2_main_arg6 (W : Valuation τ sig (Elt F)) :
    after opsT2 W (Proc.devRef .tc main_arg6) = W (Proc.devRef .tc main_arg6) := by
  after_results_simp
theorem keepT2_main_arg7 (W : Valuation τ sig (Elt F)) :
    after opsT2 W (Proc.devRef .tc main_arg7) = W (Proc.devRef .tc main_arg7) := by
  after_results_simp
theorem keepT2_main_arg8 (W : Valuation τ sig (Elt F)) :
    after opsT2 W (Proc.devRef .tc main_arg8) = W (Proc.devRef .tc main_arg8) := by
  after_results_simp
theorem keepT2_main_arg9 (W : Valuation τ sig (Elt F)) :
    after opsT2 W (Proc.devRef .tc main_arg9) = W (Proc.devRef .tc main_arg9) := by
  after_results_simp

/-- The atom layers, from any contents: two layers of product, bias and activation on the two look-ups side by side. -/
theorem tail_after (W : Valuation τ sig (Elt F)) :
    after opsA W (Proc.devRef .tc main_v27)
      = siluArr S50000x256 bcast_S_S50000x256 (denseA (siluArr S50000x256 bcast_S_S50000x256
          (denseA (concatenate S50000x256 1 [⟨S50000x224, W (Proc.devRef .tc main_v15)⟩, ⟨S50000x32, W (Proc.devRef .tc main_v16)⟩]
            concatenates_S50000x224_S50000x32_S50000x256_d1) (W (Proc.devRef .tc main_arg6)) (W (Proc.devRef .tc main_arg7))))
          (W (Proc.devRef .tc main_arg8)) (W (Proc.devRef .tc main_arg9))) := by
  after_results_simp
  rfl

/-- The atom result after the run, from any contents: the composed term of the eight atom arguments. -/
theorem atom_after (V : Valuation τ sig (Elt F)) :
    after ops V (Proc.devRef .tc main_v27)
      = atomOut (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_append, after_append, after_append, tail_after, take2_after, keepT2_main_v15, take1_after,
    keepT2_main_arg6, keepT2_main_arg7, keepT2_main_arg8, keepT2_main_arg9,
    keepT1_main_arg3, keepT1_main_arg5, keepT1_main_arg6, keepT1_main_arg7, keepT1_main_arg8, keepT1_main_arg9,
    keepE_main_arg0, keepE_main_arg3, keepE_main_arg4, keepE_main_arg5, keepE_main_arg6, keepE_main_arg7, keepE_main_arg8,
    keepE_main_arg9]
  rfl

/-! No operation writes an argument. -/

theorem arg0_after (V : Valuation τ sig (Elt F)) :
    after ops V (Proc.devRef .tc main_arg0) = V (Proc.devRef .tc main_arg0) := by
  after_results_simp

theorem arg1_after (V : Valuation τ sig (Elt F)) :
    after ops V (Proc.devRef .tc main_arg1) = V (Proc.devRef .tc main_arg1) := by
  after_results_simp

theorem arg2_after (V : Valuation τ sig (Elt F)) :
    after ops V (Proc.devRef .tc main_arg2) = V (Proc.devRef .tc main_arg2) := by
  after_results_simp

theorem arg3_after (V : Valuation τ sig (Elt F)) :
    after ops V (Proc.devRef .tc main_arg3) = V (Proc.devRef .tc main_arg3) := by
  after_results_simp

theorem arg4_after (V : Valuation τ sig (Elt F)) :
    after ops V (Proc.devRef .tc main_arg4) = V (Proc.devRef .tc main_arg4) := by
  after_results_simp

theorem arg5_after (V : Valuation τ sig (Elt F)) :
    after ops V (Proc.devRef .tc main_arg5) = V (Proc.devRef .tc main_arg5) := by
  after_results_simp

theorem arg6_after (V : Valuation τ sig (Elt F)) :
    after ops V (Proc.devRef .tc main_arg6) = V (Proc.devRef .tc main_arg6) := by
  after_results_simp

theorem arg7_after (V : Valuation τ sig (Elt F)) :
    after ops V (Proc.devRef .tc main_arg7) = V (Proc.devRef .tc main_arg7) := by
  after_results_simp

theorem arg8_after (V : Valuation τ sig (Elt F)) :
    after ops V (Proc.devRef .tc main_arg8) = V (Proc.devRef .tc main_arg8) := by
  after_results_simp

theorem arg9_after (V : Valuation τ sig (Elt F)) :
    after ops V (Proc.devRef .tc main_arg9) = V (Proc.devRef .tc main_arg9) := by
  after_results_simp

theorem arg10_after (V : Valuation τ sig (Elt F)) :
    after ops V (Proc.devRef .tc main_arg10) = V (Proc.devRef .tc main_arg10) := by
  after_results_simp

theorem arg11_after (V : Valuation τ sig (Elt F)) :
    after ops V (Proc.devRef .tc main_arg11) = V (Proc.devRef .tc main_arg11) := by
  after_results_simp

theorem arg12_after (V : Valuation τ sig (Elt F)) :
    after ops V (Proc.devRef .tc main_arg12) = V (Proc.devRef .tc main_arg12) := by
  after_results_simp

theorem arg13_after (V : Valuation τ sig (Elt F)) :
    after ops V (Proc.devRef .tc main_arg13) = V (Proc.devRef .tc main_arg13) := by
  after_results_simp

theorem arg14_after (V : Valuation τ sig (Elt F)) :
    after ops V (Proc.devRef .tc main_arg14) = V (Proc.devRef .tc main_arg14) := by
  after_results_simp

theorem arg15_after (V : Valuation τ sig (Elt F)) :
    after ops V (Proc.devRef .tc main_arg15) = V (Proc.devRef .tc main_arg15) := by
  after_results_simp

/-- From any memory with zero counters, every weakly fair execution of @main terminates with the two results at the
    composed terms of the arguments' launch contents, and the sixteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v27) = resH m c ∧ r.2.mem ((c.tc : Thread nD τ).loc main_v14) = resE m c)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15))) :=
  (θ_run (defs (F := Ideal)) _ _).mono (fun _ h c => ⟨⟨(h c main_v27).trans (atom_after _), (h c main_v14).trans (edge_after _)⟩,
      (h c main_arg0).trans (arg0_after _),
      (h c main_arg1).trans (arg1_after _),
      (h c main_arg2).trans (arg2_after _),
      (h c main_arg3).trans (arg3_after _),
      (h c main_arg4).trans (arg4_after _),
      (h c main_arg5).trans (arg5_after _),
      (h c main_arg6).trans (arg6_after _),
      (h c main_arg7).trans (arg7_after _),
      (h c main_arg8).trans (arg8_after _),
      (h c main_arg9).trans (arg9_after _),
      (h c main_arg10).trans (arg10_after _),
      (h c main_arg11).trans (arg11_after _),
      (h c main_arg12).trans (arg12_after _),
      (h c main_arg13).trans (arg13_after _),
      (h c main_arg14).trans (arg14_after _),
      (h c main_arg15).trans (arg15_after _)⟩)
    (run_seq scopedRefs_eq scopedSems_eq defs main (fun _ => ops) main_eq (fun _ => ops_sub) m ρ)

end Cert.ReferenceIdeal.RefValue

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.LibTableRead.lean ====
/-
  Reading small integer and float tables at an index.

  The index pairs of a scatter are assembled from vectors: two vectors of length n joined end to end into one of
  length n + n; a vector of length n turned into an n × 1 column; two columns set side by side into an n × 2 table;
  a row of a 2 × n table or a column of an n × 2 table taken out as a vector; a scalar repeated everywhere. Each lemma
  says which entry of the parts an entry of the whole is.
-/
import Idealize.ShloMosaic.Lib.ValueIdx
import Idealize.ShloMosaic.Lib.ValueLayout
import Idealize.ShloMosaic.Lib.Pipeline.Value

namespace Idealize.ShloMosaic.TableRead

open Idealize.ShloMosaic Idealize.ShloMosaic.ValueIdx

variable {α : Type} {n : Nat}

/-- Two vectors of length n joined end to end: an entry among the first n is the first vector's. -/
theorem join_left (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.castAdd n j)) = A (ix1 j) :=
  concatenate_pair_apply_left 0 A B h (ix1 (Fin.castAdd n j)) rfl (ix1 j) (fun b => by
    match b with
    | ⟨0, _⟩ => rfl)

/-- Two vectors of length n joined end to end: entry n + j is the second vector's entry j. -/
theorem join_right (A B : (⟨1, ![n]⟩ : Shape).Idx → α)
    (h : Shape.Concatenates [(⟨1, ![n]⟩ : Shape), ⟨1, ![n]⟩] ⟨1, ![n + n]⟩ 0) (j : Fin n) :
    concatenate ⟨1, ![n + n]⟩ 0 [⟨⟨1, ![n]⟩, A⟩, ⟨⟨1, ![n]⟩, B⟩] h (ix1 (Fin.natAdd n j)) = B (ix1 j) :=
  concatenate_pair_apply_right 0 A B h (ix1 (Fin.natAdd n j)) rfl rfl (ix1 j)
    (fun b hb => by
      match b with
      | ⟨0, _⟩ => exact absurd rfl hb)
    (by show j.val + n = n + j.val; omega)

/-- A vector turned into a column: entry (j, ·) is the vector's entry j. -/
theorem column_apply (v : (⟨1, ![n]⟩ : Shape).Idx → α)
    (h : (⟨1, ![n]⟩ : Shape).BroadcastsInDim ⟨2, ![n, 1]⟩ ![0]) (j : Fin n) (u : Fin 1) :
    broadcastInDim ⟨2, ![n, 1]⟩ ![0] h v (ix2 j u) = v (ix1 j) :=
  broadcastInDim_apply ![0] h v (ix2 j u) (ix1 j) (fun a => by
    match a with
    | ⟨0, _⟩ =>
      show j.val = if n = 1 then 0 else j.val
      split
      · have := j.isLt; omega
      · rfl)

/-- Two columns side by side: column 0 of the table is the first. -/
theorem beside_left (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (0 : Fin 2)) = A (ix2 j (0 : Fin 1)) :=
  concatenate_pair_apply_left 1 A B h (ix2 j (0 : Fin 2)) rfl (ix2 j (0 : Fin 1)) (fun b => by
    match b with
    | ⟨0, _⟩ => rfl
    | ⟨1, _⟩ => rfl)

/-- Two columns side by side: column 1 of the table is the second. -/
theorem beside_right (A B : (⟨2, ![n, 1]⟩ : Shape).Idx → α)
    (h : Shape.Concatenates [(⟨2, ![n, 1]⟩ : Shape), ⟨2, ![n, 1]⟩] ⟨2, ![n, 2]⟩ 1) (j : Fin n) :
    concatenate ⟨2, ![n, 2]⟩ 1 [⟨⟨2, ![n, 1]⟩, A⟩, ⟨⟨2, ![n, 1]⟩, B⟩] h (ix2 j (1 : Fin 2)) = B (ix2 j (0 : Fin 1)) :=
  concatenate_pair_apply_right 1 A B h (ix2 j (1 : Fin 2)) rfl rfl (ix2 j (0 : Fin 1))
    (fun b hb => by
      match b with
      | ⟨0, _⟩ => rfl
      | ⟨1, _⟩ => exact absurd rfl hb)
    rfl

/-- Row r of a 2 × n table taken out as a vector. -/
theorem row_apply (r : Nat) (X : (⟨2, ![2, n]⟩ : Shape).Idx → α)
    (h : (⟨2, ![2, n]⟩ : Shape).Slices ![r, 0] ⟨2, ![1, n]⟩) (h' : (⟨2, ![1, n]⟩ : Shape).ShapeCasts ⟨1, ![n]⟩)
    (j : Fin n) (k : Fin 2) (hk : k.val = r) :
    shapeCast ⟨1, ![n]⟩ (extractStridedSlice ⟨2, ![1, n]⟩ ![r, 0] X h) h' (ix1 j) = X (ix2 k j) :=
  (shapeCast_1a_a_apply _ h' j).trans (slice2_axis0_apply r X h (0 : Fin 1) j k (by rw [hk]; rfl))

/-- Column q of an n × 2 table taken out as a vector. -/
theorem col_apply (q : Nat) (X : (⟨2, ![n, 2]⟩ : Shape).Idx → α)
    (h : (⟨2, ![n, 2]⟩ : Shape).Slices ![0, q] ⟨2, ![n, 1]⟩) (h' : (⟨2, ![n, 1]⟩ : Shape).ShapeCasts ⟨1, ![n]⟩)
    (j : Fin n) (k : Fin 2) (hk : k.val = q) :
    shapeCast ⟨1, ![n]⟩ (extractStridedSlice ⟨2, ![n, 1]⟩ ![0, q] X h) h' (ix1 j) = X (ix2 j k) :=
  (shapeCast_apply _ h' (ix1 j) (ix2 j (0 : Fin 1)) (by
      rw [Shape.rowMajor_val_two, Shape.rowMajor_val_one]
      show j.val * 1 + 0 = j.val
      omega)).trans
    (slice2_axis1_apply q X h j (0 : Fin 1) k (by rw [hk]; rfl))

/-- A scalar repeated over a whole shape reads as that scalar everywhere. -/
theorem splat_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply ![] h x i ix0 (fun a => a.elim0)

end Idealize.ShloMosaic.TableRead
-- ==== Proof.RefRead.lean ====
/-
  The reference program's results, read index by index, are the specification.

  Each stage of the composed term is read at an index: the activation and the sums entry by entry; a matrix product as the
  sum over the contracted index; a bias row as its entry at the column; two arrays side by side as the left one below the
  seam and the right one past it; a table look-up as the table's row at the index word, once that word is known to be in range
  (the in-range mask is then all ones and neither the negative-index shift nor the clamp moves anything).
-/
import proofs.«123452_g13383118094390_cont_week2b_154_27_alg».proof.Proof.RefTerms
import proofs.«123452_g13383118094390_cont_week2b_154_27_alg».proof.Proof.Spec
import proofs.«123452_g13383118094390_cont_week2b_154_27_alg».proof.Proof.LibPlainDot
import proofs.«123452_g13383118094390_cont_week2b_154_27_alg».proof.Proof.LibRowBroadcast
import proofs.«123452_g13383118094390_cont_week2b_154_27_alg».proof.Proof.LibGatherScatterRead
import proofs.«123452_g13383118094390_cont_week2b_154_27_alg».proof.Proof.LibTableRead
import Idealize.ShloMosaic.Lib.Pipeline.Value
import Idealize.ShloMosaic.Lib.Affine
import Idealize.ShloMosaic.PureOps.Reduce

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

/-! ## The activation and the dense layers -/

/-- The activation on an array, at an index, is the activation of the entry. -/
theorem siluArr_apply (S : Shape) (hb : S_.BroadcastsInDim S (![] : Fin 0 → Fin S.rank)) (x : FVec Ideal S .f32) (i : S.Idx) :
    siluArr S hb x i = Cert.Spec.silu (x i) := rfl

/-- A matrix product plus a bias row, at (p, q): the dot product of row p with column q, plus entry q of the bias. -/
theorem dense_apply {M K N : Nat} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = K)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32)
    (p : Fin M) (q : Fin N) :
    addf (Host.dotGeneral (F := Ideal) D none x w)
        (broadcastInDim ⟨2, ![M, N]⟩ ![0, 1] h2 (broadcastInDim ⟨2, ![1, N]⟩ ![1] h1 b)) (ix2 p q)
      = Cert.Spec.dense (fun a => x (ix2 p a)) w b q := by
  show FloatOps.dotGeneral D none .single x w (ix2 p q)
      + broadcastInDim ⟨2, ![M, N]⟩ ![0, 1] h2 (broadcastInDim ⟨2, ![1, N]⟩ ![1] h1 b) (ix2 p q) = _
  rw [PlainDot.dotGeneral_apply D hlc hrc hln hrn hlb hrb hr hs none .single x w p q, RowBroadcast.rowsOf_apply b h1 h2 p q]
  rfl

theorem denseE1_apply (x : FVec Ideal S800000x3 .f32) (w : FVec Ideal S3x64 .f32) (b : FVec Ideal S64 .f32)
    (p : Fin 800000) (q : Fin 64) : denseE1 x w b (ix2 p q) = Cert.Spec.dense (fun a => x (ix2 p a)) w b q :=
  dense_apply dot_S800000x3_S3x64_S800000x64_1_0_0_1_n_n rfl rfl rfl rfl rfl rfl rfl rfl _ _ x w b p q

theorem denseE12_apply (x : FVec Ideal S800000x50 .f32) (w : FVec Ideal S50x64 .f32) (b : FVec Ideal S64 .f32)
    (p : Fin 800000) (q : Fin 64) : denseE12 x w b (ix2 p q) = Cert.Spec.dense (fun a => x (ix2 p a)) w b q :=
  dense_apply dot_S800000x50_S50x64_S800000x64_1_0_0_1_n_n rfl rfl rfl rfl rfl rfl rfl rfl _ _ x w b p q

theorem denseE2_apply (x : FVec Ideal S800000x128 .f32) (w : FVec Ideal S128x128 .f32) (b : FVec Ideal S128 .f32)
    (p : Fin 800000) (q : Fin 128) : denseE2 x w b (ix2 p q) = Cert.Spec.dense (fun a => x (ix2 p a)) w b q :=
  dense_apply dot_S800000x128_S128x128_S800000x128_1_0_0_1_n_n rfl rfl rfl rfl rfl rfl rfl rfl _ _ x w b p q

theorem denseA_apply (x : FVec Ideal S50000x256 .f32) (w : FVec Ideal S256x256 .f32) (b : FVec Ideal S256 .f32)
    (p : Fin 50000) (q : Fin 256) : denseA x w b (ix2 p q) = Cert.Spec.dense (fun a => x (ix2 p a)) w b q :=
  dense_apply dot_S50000x256_S256x256_S50000x256_1_0_0_1_n_n rfl rfl rfl rfl rfl rfl rfl rfl _ _ x w b p q

/-! ## Two arrays side by side -/

/-- An [M, n₁] array and an [M, n₂] array side by side, at (p, k): the left one when k is below n₁, else the right one at
    k - n₁. -/
theorem beside_apply {α : Type} {M n₁ n₂ N : Nat} (hN : n₁ + n₂ = N)
    (A : (⟨2, ![M, n₁]⟩ : Shape).Idx → α) (B : (⟨2, ![M, n₂]⟩ : Shape).Idx → α)
    (h : Shape.Concatenates [(⟨2, ![M, n₁]⟩ : Shape), ⟨2, ![M, n₂]⟩] ⟨2, ![M, N]⟩ 1) (p : Fin M) (k : Fin N) :
    concatenate ⟨2, ![M, N]⟩ 1 [⟨⟨2, ![M, n₁]⟩, A⟩, ⟨⟨2, ![M, n₂]⟩, B⟩] h (ix2 p k)
      = if hk : k.val < n₁ then A (ix2 p ⟨k.val, hk⟩) else B (ix2 p ⟨k.val - n₁, by have := k.isLt; omega⟩) := by
  split
  · next hk =>
    exact concatenate_pair_apply_left 1 A B h (ix2 p k) rfl (ix2 p ⟨k.val, hk⟩) (fun b => by
      match b with
      | ⟨0, _⟩ => rfl
      | ⟨1, _⟩ => rfl)
  · next hk =>
    exact concatenate_pair_apply_right 1 A B h (ix2 p k) rfl rfl (ix2 p ⟨k.val - n₁, by have := k.isLt; omega⟩)
      (fun b hb => by
        match b with
        | ⟨0, _⟩ => rfl
        | ⟨1, _⟩ => exact absurd rfl hb)
      (by show k.val - n₁ + n₁ = k.val; omega)

/-! ## The edge result -/

/-- The edge result is the specification's. -/
theorem edgeOut_eq (rp : FVec Ideal S800000x3 .f32) (ea : FVec Ideal S800000x50 .f32) (w1 : FVec Ideal S3x64 .f32)
    (b1 : FVec Ideal S64 .f32) (w12 : FVec Ideal S50x64 .f32) (b12 : FVec Ideal S64 .f32) (w2 : FVec Ideal S128x128 .f32)
    (b2 : FVec Ideal S128 .f32) :
    edgeOut rp ea w1 b1 w12 b12 w2 b2 = Cert.Spec.Ge rp ea w1 b1 w12 b12 w2 b2 := by
  funext i
  obtain ⟨p, q, rfl⟩ : ∃ (p : Fin 800000) (q : Fin 128), i = ix2 p q := ⟨i 0, i 1, eq_ix2 i⟩
  unfold edgeOut
  rw [siluArr_apply, denseE2_apply]
  show Cert.Spec.silu (Cert.Spec.dense _ w2 b2 q) = Cert.Spec.silu (Cert.Spec.dense (Cert.Spec.edgeHid rp ea w1 b1 w12 b12 p) w2 b2 q)
  refine congrArg (fun f => Cert.Spec.silu (Cert.Spec.dense f w2 b2 q)) (funext fun k => ?_)
  rw [siluArr_apply, beside_apply (by norm_num) _ _ _ p k]
  unfold Cert.Spec.edgeHid
  split
  · next hk => rw [denseE1_apply]
  · next hk => rw [denseE12_apply]

/-! ## The table look-ups -/

/-- A word below 2^31 read signed is the word read unsigned. -/
theorem toInt_of_small (v : BitVec 32) (n : Nat) (hn : n ≤ 85) (h : v.toNat < n) : v.toInt = (v.toNat : Int) :=
  BitVec.toInt_eq_toNat_of_lt (by omega)

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- When every index word of the column is between 0 and `hi` read signed, the in-range mask is 1 on every row. -/
theorem inRange_one (hi : BitVec 32) (j : IVec S50000x1 32)
    (hj : ∀ i, (0 : Int) ≤ (j i).toInt ∧ (j i).toInt ≤ hi.toInt) (r : S50000.Idx) : inRange hi j r = 1#1 := by
  unfold inRange
  rw [Host.reduce_eq_foldl]
  refine foldl_andi_one _ _ fun i _ => ?_
  show IntOp.andi (IntOp.cmpi .sge (j i) 0#32) (IntOp.cmpi .sle (j i) hi) = 1#1
  rw [IntOp.cmpi_sge.mpr (by rw [show (0#32 : BitVec 32).toInt = 0 from by decide]; exact (hj i).1),
    IntOp.cmpi_sle.mpr (hj i).2]
  decide

/-- An index vector whose words are below the table's height (at most 85) is left as it is by the negative-index shift. -/
theorem wrapIdx_of_small (n : BitVec 32) (z : IVec S50000 32) (N : Nat) (hN : N ≤ 85) (hz : ∀ i, (z i).toNat < N) :
    wrapIdx n z = z := by
  funext k
  show Scalar.select (IntOp.cmpi .slt (z k) 0#32) (IntOp.addi (z k) n) (z k) = z k
  exact LibGatherScatterRead.normalise_of_nonneg (z k) n (by rw [toInt_of_small (z k) N hN (hz k)]; omega)

/-- The index column at (r, 0) is entry r of the index vector. -/
theorem colIdx_apply (z : IVec S50000 32) (r : Fin 50000) (u : Fin 1) : colIdx z (ix2 r u) = z (ix1 r) :=
  TableRead.column_apply z bcast_S50000_S50000x1_0 r u

/-- Every entry of the index column is an entry of the index vector. -/
theorem colIdx_mem (z : IVec S50000 32) (i : S50000x1.Idx) : ∃ k, colIdx z i = z k := by
  unfold colIdx broadcastInDim
  exact ⟨_, rfl⟩

/-- The clamped row of an index word already in range is the word itself. -/
theorem gatherRowOf_of_small (N : Nat) (hN : 0 < N) (hN' : N ≤ 85) (v : BitVec 32) (h : v.toNat < N) :
    LibGatherScatterRead.gatherRowOf N hN v = ⟨v.toNat % N, Nat.mod_lt _ hN⟩ := by
  refine Fin.ext ?_
  rw [LibGatherScatterRead.gatherRowOf_val, toInt_of_small v N hN' h]
  show min (v.toNat : Int).toNat (N - 1) = v.toNat % N
  rw [Int.toNat_natCast, Nat.mod_eq_of_lt h]
  omega

/-- The embedding look-up at (r, j), the indices in range: row z(r) of the table, column j. -/
theorem takeEmb_apply (tbl : FVec Ideal S85x224 .f32) (z : IVec S50000 32) (hz : ∀ i, (z i).toNat < 85)
    (r : Fin 50000) (j : Fin 224) :
    takeEmb tbl z (ix2 r j) = tbl (ix2 ⟨(z (ix1 r)).toNat % 85, Nat.mod_lt _ (by norm_num)⟩ j) := by
  unfold takeEmb
  rw [wrapIdx_of_small 85#32 z 85 (le_refl _) hz]
  have hm : broadcastInDim S50000x224 ![0] bcast_S50000_S50000x224_0 (inRange 84#32 (colIdx z)) (ix2 r j) = 1#1 := by
    unfold broadcastInDim
    exact inRange_one 84#32 (colIdx z) (fun i => by
      obtain ⟨k, hk⟩ := colIdx_mem z i
      rw [hk, toInt_of_small (z k) 85 (le_refl _) (hz k), show (84#32 : BitVec 32).toInt = 84 from by decide]
      have := hz k
      omega) _
  rw [select_apply, hm, select_one,
    LibGatherScatterRead.gather_rows_apply (by norm_num : 0 < 85) gather_S85x224_S50000x1_S50000x224_1_0_n_n_0_1_1224
      rfl rfl rfl rfl rfl rfl rfl tbl (colIdx z) r j,
    colIdx_apply, gatherRowOf_of_small 85 (by norm_num) (le_refl _) _ (hz (ix1 r))]

/-- The tag look-up at (r, j), the indices in range: row tag(r) of the table, column j. -/
theorem takeTag_apply (tbl : FVec Ideal S3x32 .f32) (t : IVec S50000 32) (ht : ∀ i, (t i).toNat < 3)
    (r : Fin 50000) (j : Fin 32) :
    takeTag tbl t (ix2 r j) = tbl (ix2 ⟨(t (ix1 r)).toNat % 3, Nat.mod_lt _ (by norm_num)⟩ j) := by
  unfold takeTag
  rw [wrapIdx_of_small 3#32 t 3 (by norm_num) ht]
  have hm : broadcastInDim S50000x32 ![0] bcast_S50000_S50000x32_0 (inRange 2#32 (colIdx t)) (ix2 r j) = 1#1 := by
    unfold broadcastInDim
    exact inRange_one 2#32 (colIdx t) (fun i => by
      obtain ⟨k, hk⟩ := colIdx_mem t i
      rw [hk, toInt_of_small (t k) 3 (by norm_num) (ht k), show (2#32 : BitVec 32).toInt = 2 from by decide]
      have := ht k
      omega) _
  rw [select_apply, hm, select_one,
    LibGatherScatterRead.gather_rows_apply (by norm_num : 0 < 3) gather_S3x32_S50000x1_S50000x32_1_0_n_n_0_1_132
      rfl rfl rfl rfl rfl rfl rfl tbl (colIdx t) r j,
    colIdx_apply, gatherRowOf_of_small 3 (by norm_num) (by norm_num) _ (ht (ix1 r))]

/-! ## The atom result -/

/-- The atom result is the specification's, the index vectors in range. -/
theorem atomOut_eq (z tag : IVec S50000 32) (emb : FVec Ideal S85x224 .f32) (tt : FVec Ideal S3x32 .f32)
    (wl : FVec Ideal S256x256 .f32) (bl : FVec Ideal S256 .f32) (wl2 : FVec Ideal S256x256 .f32) (bl2 : FVec Ideal S256 .f32)
    (hz : ∀ i, (z i).toNat < 85) (ht : ∀ i, (tag i).toNat < 3) :
    atomOut z tag emb tt wl bl wl2 bl2 = Cert.Spec.Gh z tag emb tt wl bl wl2 bl2 := by
  funext i
  obtain ⟨r, q, rfl⟩ : ∃ (r : Fin 50000) (q : Fin 256), i = ix2 r q := ⟨i 0, i 1, eq_ix2 i⟩
  unfold atomOut
  rw [siluArr_apply, denseA_apply]
  show Cert.Spec.silu (Cert.Spec.dense _ wl2 bl2 q)
    = Cert.Spec.silu (Cert.Spec.dense (fun k => Cert.Spec.silu (Cert.Spec.dense (Cert.Spec.atomIn z tag emb tt r) wl bl k)) wl2 bl2 q)
  refine congrArg (fun f => Cert.Spec.silu (Cert.Spec.dense f wl2 bl2 q)) (funext fun k => ?_)
  rw [siluArr_apply, denseA_apply]
  refine congrArg (fun f => Cert.Spec.silu (Cert.Spec.dense f wl bl k)) (funext fun a => ?_)
  rw [beside_apply (by norm_num) _ _ _ r a]
  unfold Cert.Spec.atomIn
  split
  · next ha => rw [takeEmb_apply emb z hz]
  · next ha => rw [takeTag_apply tt tag ht]

/-! ## The two results of the run -/

/-- The edge result of the run is the specification's edge function of the edge arguments. -/
theorem resE_eq (m : (ℓ : Loc nD τ sig) → Buf (Elt Ideal) ℓ) (c : Dev nD) :
    resE m c = Cert.Spec.Ge (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  edgeOut_eq _ _ _ _ _ _ _ _

/-- The atom result of the run is the specification's atom function of the atom arguments, the index vectors in range. -/
theorem resH_eq (m : (ℓ : Loc nD τ sig) → Buf (Elt Ideal) ℓ) (c : Dev nD)
    (hz : ∀ i, (m ((c.tc : Thread nD τ).loc main_arg0) i).toNat < 85) (ht : ∀ i, (m ((c.tc : Thread nD τ).loc main_arg3) i).toNat < 3) :
    resH m c = Cert.Spec.Gh (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  atomOut_eq _ _ _ _ _ _ _ _ hz ht

end Cert.ReferenceIdeal.RefValue

end
-- ==== Proof.PreFacts.lean ====
/-
  The integer facts of the precondition. The precondition is one bit: the conjunction of a finiteness test per float
  argument with  all (0 ≤ z ∧ z < 85)  and  all (0 ≤ tag ∧ tag < 3),  the comparisons signed. When the bit is 1 both
  last conjuncts are 1, so every word of z is, read as a signed integer, in [0, 85), and every word of tag in [0, 3);
  a 32-bit word that is signed-nonnegative and signed-below a natural number k < 2^31 is, read as a natural number,
  below k.
-/
import proofs.«123452_g13383118094390_cont_week2b_154_27_alg».proof.Pre_finite_inputs
import Idealize.ShloMosaic.Lib.ReduceAll
import Idealize.ShloMosaic.Lib.WordArith
import Idealize.ShloMosaic.Lib.ValueIdx
import Idealize.ShloMosaic.PureOps.Ideal

noncomputable section

open Idealize.ShloMosaic Cert.Pre_finite_inputs

namespace Cert.PreFacts

variable [Cert.Pre_finite_inputs.Facts]

/-- The rank-0 index set has one element. -/
instance : Subsingleton S_.Idx := ⟨fun a b => funext fun d => d.elim0⟩

/-- A word that is signed-nonnegative and signed-below k (as one conjoined bit) is below k as a natural number. -/
theorem word_lt (x : BitVec 32) (k : Nat) (hk : k < 2 ^ 31)
    (h : IntOp.andi (IntOp.cmpi .sge x 0#32) (IntOp.cmpi .slt x (BitVec.ofNat 32 k)) = 1#1) : x.toNat < k := by
  obtain ⟨h0, hs⟩ := IntOp.andi_eq_one.1 h
  exact WordArith.toNat_lt_of_zero_sle_of_slt_ofNat x k hk
    ((WordArith.ofBool_eq_one_iff _).1 h0) ((WordArith.ofBool_eq_one_iff _).1 hs)

/-- The last stretch of the precondition: whatever the bits of the earlier conjuncts, a result of 1 bounds z and tag. -/
theorem tail (a0 a3 : IVec S50000 32) (v63 v67 : IVec S_ 1)
    (h : fn_part4 (F := Ideal) a0 a3 v63 v67 = fun _ => 1#1) :
    (∀ i, (a0 i).toNat < 85) ∧ (∀ i, (a3 i).toNat < 3) := by
  have e := congrFun h ValueIdx.ix0
  dsimp only [fn_part4] at e
  obtain ⟨e1, et⟩ := IntOp.andi_eq_one.1 e
  obtain ⟨-, ez⟩ := IntOp.andi_eq_one.1 e1
  have hz := Host.reduce_andi_all _ _ _ _ _ ez
  have ht := Host.reduce_andi_all _ _ _ _ _ et
  exact ⟨fun i => word_lt (a0 i) 85 (by norm_num) (hz i), fun i => word_lt (a3 i) 3 (by norm_num) (ht i)⟩

/-- Under the precondition every word of z is below 85. -/
theorem z_lt (a0 : IVec S50000 32) (a1 : FVec Ideal S800000x3 .f32) (a2 : FVec Ideal S800000x50 .f32)
    (a3 : IVec S50000 32) (a4 : FVec Ideal S85x224 .f32) (a5 : FVec Ideal S3x32 .f32)
    (a6 : FVec Ideal S256x256 .f32) (a7 : FVec Ideal S256 .f32) (a8 : FVec Ideal S256x256 .f32)
    (a9 : FVec Ideal S256 .f32) (a10 : FVec Ideal S3x64 .f32) (a11 : FVec Ideal S64 .f32)
    (a12 : FVec Ideal S50x64 .f32) (a13 : FVec Ideal S64 .f32) (a14 : FVec Ideal S128x128 .f32)
    (a15 : FVec Ideal S128 .f32)
    (h : Cert.Pre_finite_inputs.fn (F := Ideal) a0 a1 a2 a3 a4 a5 a6 a7 a8 a9 a10 a11 a12 a13 a14 a15 = fun _ => 1#1) :
    ∀ i, (a0 i).toNat < 85 :=
  (tail a0 a3 _ _ h).1

/-- Under the precondition every word of tag is below 3. -/
theorem tag_lt (a0 : IVec S50000 32) (a1 : FVec Ideal S800000x3 .f32) (a2 : FVec Ideal S800000x50 .f32)
    (a3 : IVec S50000 32) (a4 : FVec Ideal S85x224 .f32) (a5 : FVec Ideal S3x32 .f32)
    (a6 : FVec Ideal S256x256 .f32) (a7 : FVec Ideal S256 .f32) (a8 : FVec Ideal S256x256 .f32)
    (a9 : FVec Ideal S256 .f32) (a10 : FVec Ideal S3x64 .f32) (a11 : FVec Ideal S64 .f32)
    (a12 : FVec Ideal S50x64 .f32) (a13 : FVec Ideal S64 .f32) (a14 : FVec Ideal S128x128 .f32)
    (a15 : FVec Ideal S128 .f32)
    (h : Cert.Pre_finite_inputs.fn (F := Ideal) a0 a1 a2 a3 a4 a5 a6 a7 a8 a9 a10 a11 a12 a13 a14 a15 = fun _ => 1#1) :
    ∀ i, (a3 i).toNat < 3 :=
  (tail a0 a3 _ _ h).2

end Cert.PreFacts

end
-- ==== Proof.lean ====
/-
  Equivalence of a fused embedding-block kernel with its jnp reference, on the extended reals.

  The kernel computes two independent results block by block in one grid of a hundred points. Edge branch (800000 rows,
  8000 per point):  e = silu( concat( silu(rel_pos W_e1 + b_e1), silu(edge_attr W_e12 + b_e12) ) W_e2 + b_e2 ),  the
  concatenation folded into the sum of two products against the upper and lower halves of W_e2. Atom branch (50000
  rows, 512 per point, the last block overhanging the array, points 98 and 99 computing nothing):
  h = silu( silu( x W_lin + b_lin ) W_lin2 + b_lin2 ),  x = concat(emb_table[z], tag_table[tag]),  the two table lookups
  done as one product of a 0/1 matrix (a one at column z and a one at column 85 + tag) with a zero-padded 88 x 256
  table. silu x = x (1 / (1 + exp(-x))), spelt alike on both sides.

  Why the two programs agree at the ideal instance: a sum over 128 terms is the sum over its first 64 plus the sum over
  its last 64 (addition on the extended reals is commutative and associative, nothing need be finite); a row of zeros and
  ones with exactly two ones picks the sum of two rows of the table, and zero times anything is zero on the extended
  reals, one of the two rows being zero in each column range; 0 - x is -x. The lookups agree only where the indices are
  in range (outside it jnp.take fills with NaN or wraps a negative index, while the 0/1 row is empty), which is the
  precondition's  0 <= z < 85,  0 <= tag < 3.

  The frames of the two kernel programs are proved from the body's two control cases (atom block computed or skipped)
  over relational pipeline data; the idealized kernel's values from pipeline data stated from the specification; the
  reference's run is read back operation by operation.
-/
import proofs.«123452_g13383118094390_cont_week2b_154_27_alg».proof.Defs
import proofs.«123452_g13383118094390_cont_week2b_154_27_alg».proof.Proof.Gen.Kernel
import proofs.«123452_g13383118094390_cont_week2b_154_27_alg».proof.Proof.Gen.KernelIdeal
import proofs.«123452_g13383118094390_cont_week2b_154_27_alg».proof.Proof.Gen.ReferenceIdeal
import proofs.«123452_g13383118094390_cont_week2b_154_27_alg».proof.Proof.Gen.Pre_finite_inputs
import proofs.«123452_g13383118094390_cont_week2b_154_27_alg».proof.Proof.FrameBits
import proofs.«123452_g13383118094390_cont_week2b_154_27_alg».proof.Proof.FrameIdealRel
import proofs.«123452_g13383118094390_cont_week2b_154_27_alg».proof.Proof.KernelRunIdeal
import proofs.«123452_g13383118094390_cont_week2b_154_27_alg».proof.Proof.RefRun
import proofs.«123452_g13383118094390_cont_week2b_154_27_alg».proof.Proof.RefRead
import proofs.«123452_g13383118094390_cont_week2b_154_27_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to its end and leaves its arguments alone. -/
theorem frame_k : Cert.frame_Kernel := fun m ρ _ => Cert.Kernel.Body.frame m ρ

/-- So does the idealized kernel. -/
theorem frame_ki : Cert.frame_KernelIdeal := fun m ρ _ => Cert.KernelIdeal.RelFrame.frame m ρ

/-- So does the reference: its run read back, the results dropped. -/
theorem frame_ri : Cert.frame_ReferenceIdeal := fun m ρ _ =>
  (θ_run Cert.ReferenceIdeal.defs _ _).mono (fun _ h c => (h c).2) (Cert.ReferenceIdeal.RefValue.run m ρ)

set_option maxHeartbeats 2000000 in
/-- Both idealized programs end with the specified atom and edge results of the shared argument arrays. -/
theorem algebraic : Cert.algebraic_KernelIdeal_ReferenceIdeal := by
  intro m ρ m' ρ' hpre hagree
  have hz : ∀ (c : Dev Cert.KernelIdeal.nD) i, ((m ((c : Thread Cert.KernelIdeal.nD Cert.KernelIdeal.τ).loc Cert.KernelIdeal.main_arg0) : Cert.KernelIdeal.S50000.Idx → BitVec 32) i).toNat < 85 :=
    fun c => Cert.PreFacts.z_lt _ _ _ _ _ _ _ _ _ _ _ _ _ _ _ _ (hpre c)
  have ht : ∀ (c : Dev Cert.KernelIdeal.nD) i, ((m ((c : Thread Cert.KernelIdeal.nD Cert.KernelIdeal.τ).loc Cert.KernelIdeal.main_arg3) : Cert.KernelIdeal.S50000.Idx → BitVec 32) i).toNat < 3 :=
    fun c => Cert.PreFacts.tag_lt _ _ _ _ _ _ _ _ _ _ _ _ _ _ _ _ (hpre c)
  refine ⟨fun c => Cert.KernelIdeal.Body.GhAt m c, fun c => Cert.KernelIdeal.Body.GeAt m c, Cert.KernelIdeal.Body.run_values m ρ hz ht, ?_⟩
  refine (θ_run Cert.ReferenceIdeal.defs _ _).mono (fun _ h c => ⟨(h c).1.1.trans ?_, (h c).1.2.trans ?_, (h c).2⟩)
    (Cert.ReferenceIdeal.RefValue.run m' ρ')
  · rw [Cert.ReferenceIdeal.RefValue.resH_eq m' c (by rw [(hagree c).1]; exact hz c) (by rw [(hagree c).2.2.2.1]; exact ht c)]
    rw [(hagree c).1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    rfl
  · rw [Cert.ReferenceIdeal.RefValue.resE_eq m' c]
    rw [(hagree c).2.1, (hagree c).2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
